-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S32000 : S_.BroadcastsInDim S32000 (![] : Fin 0 → Fin S32000.rank)
  reducesTo_S32000_S_d0 : S32000.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v15 : IVec S8x512 1) (main_c_5 : IVec S_ 32) : IVec S_ 1 :=
  let main_v16 : IVec S8x512 32 := broadcastInDim S8x512 ![] bcast_S_S8x512 main_c_5
  let main_v17 : IVec S8x512 1 := cmpi .sge main_arg2 main_v16
  let main_c_6 : IVec S_ 32 := constantI S_ 32 32000#32
  let main_v18 : IVec S8x512 32 := broadcastInDim S8x512 ![] bcast_S_S8x512 main_c_6
  let main_v19 : IVec S8x512 1 := cmpi .slt main_arg2 main_v18
  let main_v20 : IVec S8x512 1 := andi main_v17 main_v19
  let main_v21 : IVec S8x512 1 := ori main_v15 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v13 main_v22
  main_v23

def fn {F : FTy → Type} [FloatOps F] (main_arg0 : FVec F S32000x2048 .f32) (main_arg1 : FVec F S8x512x2048 .f32) (main_arg2 : IVec S8x512 32) (main_arg3 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 4294967196#32
  let main_v14 : IVec S8x512 32 := broadcastInDim S8x512 ![] bcast_S_S8x512 main_c_4
  let main_v15 : IVec S8x512 1 := cmpi .eq main_arg2 main_v14
  let main_c_5 : IVec S_ 32 := constantI S_ 32 0#32
  fn_part1 (F := F) main_arg2 main_v13 main_v15 main_c_5
-- ==== Kernel.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S4096x2048 : Shape := ⟨2, ![4096, 2048]⟩
abbrev S_ : Shape := ⟨0, ![]⟩
abbrev S4096 : Shape := ⟨1, ![4096]⟩
abbrev S1x32000 : Shape := ⟨2, ![1, 32000]⟩
abbrev S4096x1 : Shape := ⟨2, ![4096, 1]⟩
abbrev S2048x2048 : Shape := ⟨2, ![2048, 2048]⟩
abbrev S640x2048 : Shape := ⟨2, ![640, 2048]⟩
abbrev S1x640 : Shape := ⟨2, ![1, 640]⟩
abbrev S2048 : Shape := ⟨1, ![2048]⟩
abbrev S2048x1 : Shape := ⟨2, ![2048, 1]⟩
abbrev S2048x640 : Shape := ⟨2, ![2048, 640]⟩
abbrev S8 : Shape := ⟨1, ![8]⟩
abbrev S4 : Shape := ⟨1, ![4]⟩
abbrev S4x512 : Shape := ⟨2, ![4, 512]⟩

abbrev nBuf : Space → Nat
  | .hbm => 68
  | .vmem => 11
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S4096x2048, .f32⟩
  | .hbm, ⟨5, _⟩ => ⟨S4096x2048, .bf16⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8x512, .i32⟩
  | .hbm, ⟨17, _⟩ => ⟨S8x512, .i32⟩
  | .hbm, ⟨18, _⟩ => ⟨S_, .i32⟩
  | .hbm, ⟨19, _⟩ => ⟨S8x512, .i32⟩
  | .hbm, ⟨20, _⟩ => ⟨S8x512, .i32⟩
  | .hbm, ⟨21, _⟩ => ⟨S4096, .i32⟩
  | .hbm, ⟨22, _⟩ => ⟨S1x32000, .f32⟩
  | .hbm, ⟨23, _⟩ => ⟨S4096x1, .f32⟩
  | .hbm, ⟨24, _⟩ => ⟨S8x512, .f32⟩
  | .hbm, ⟨25, _⟩ => ⟨S8x512, .f32⟩
  | .hbm, ⟨26, _⟩ => ⟨S8x512, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .i1⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S2048x2048, .bf16⟩
  | .local _ .vmem, ⟨1, _⟩ => ⟨S640x2048, .f32⟩
  | .local _ .vmem, ⟨2, _⟩ => ⟨S640x2048, .f32⟩
  | .local _ .vmem, ⟨3, _⟩ => ⟨S1x640, .f32⟩
  | .local _ .vmem, ⟨4, _⟩ => ⟨S1x640, .f32⟩
  | .local _ .vmem, ⟨5, _⟩ => ⟨S2048, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_call2_v0 : Ref sig .tc := ⟨.hbm, 38, rfl⟩
abbrev main_call2_call0_cst : Ref sig .tc := ⟨.hbm, 39, rfl⟩
abbrev main_call2_call0_v0 : Ref sig .tc := ⟨.hbm, 40, rfl⟩
abbrev main_call2_call0_v1 : Ref sig .tc := ⟨.hbm, 41, rfl⟩
abbrev main_call2_call0_v2 : Ref sig .tc := ⟨.hbm, 42, rfl⟩
abbrev main_call2_call0_v3 : Ref sig .tc := ⟨.hbm, 43, rfl⟩
abbrev main_call2_call0_v4 : Ref sig .tc := ⟨.hbm, 44, rfl⟩
abbrev main_call2_call0_v5 : Ref sig .tc := ⟨.hbm, 45, rfl⟩
abbrev main_call2_call0_v6 : Ref sig .tc := ⟨.hbm, 46, rfl⟩
abbrev main_call2_call0_v7 : Ref sig .tc := ⟨.hbm, 47, rfl⟩
abbrev main_call2_call0_v8 : Ref sig .tc := ⟨.hbm, 48, rfl⟩
abbrev main_call2_call0_v9 : Ref sig .tc := ⟨.hbm, 49, rfl⟩
abbrev main_call2_call0_v10 : Ref sig .tc := ⟨.hbm, 50, rfl⟩
abbrev main_call2_call0_v11 : Ref sig .tc := ⟨.hbm, 51, rfl⟩
abbrev main_call2_v1 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_cst_6 : Ref sig .tc := ⟨.hbm, 57, rfl⟩
abbrev main_v23 : Ref sig .tc := ⟨.hbm, 58, rfl⟩
abbrev main_v24 : Ref sig .tc := ⟨.hbm, 59, rfl⟩
abbrev main_cst_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_8 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v50 : BitVec 1 := Scalar.cmpi .eq arg1 c49_i32
  let v51 : BitVec 32 := Scalar.extui v50
  let c0_i32_23 : BitVec 32 := 0#32
  let v52 : BitVec 1 := Scalar.cmpi .ne v51 c0_i32_23
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x512x2048_S4096x2048 : S8x512x2048.ShapeCasts S4096x2048
  bitsLt_bf16_f32 : FTy.bits .bf16 < FTy.bits .f32
  bcast_S_S8x512 : S_.BroadcastsInDim S8x512 (![] : Fin 0 → Fin S8x512.rank)
  shapeCasts_S8x512_S4096 : S8x512.ShapeCasts S4096
  shapeCasts_S32000_S1x32000 : S32000.ShapeCasts S1x32000
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S640x2048_S640x2048_0_0 : ∀ a, (![0, 0] : Fin 2 → Nat) a + S640x2048.size a ≤ S640x2048.size a
  h_S640x2048 : 0 < S640x2048.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  iota_S2048x640_d1_w32 : S2048x640.Iotas .tc 32 [1]
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x640 : S2048x1.Broadcasts S2048x640
  reduces_S2048x640_S2048 : S2048x640.Reduces [1] S2048
  shapeCasts_S4096x1_S8x512 : S4096x1.ShapeCasts S8x512
  reducesTo_S8x512_S8_d1 : S8x512.ReducesTo [1] S8
  h_S_ : 0 < S_.numel
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  dot_S2048x2048_S640x2048_S2048x640_1_1_0_0_n_n_wf : DotDims.WF S2048x2048 S640x2048 S2048x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x32000.size a
  hwx0_2 : ∀ i : grid0.Coords, EltTy.bits .f32 = 32 ∨ (Rect.block (s := S1x32000) S1x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S4096.size a
  hwx0_3 : ∀ i : grid0.Coords, EltTy.bits .i32 = 32 ∨ (Rect.block (s := S4096) S2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x2048_S640x2048_S2048x640_1_1_0_0_n_n : DotDims S2048x2048 S640x2048 S2048x640 where
  lhsContracting := [1]
  rhsContracting := [1]
  lhsNonContracting := [0]
  rhsNonContracting := [0]
  lhsBatch := []
  rhsBatch := []
  wf := dot_S2048x2048_S640x2048_S2048x640_1_1_0_0_n_n_wf

abbrev win0_0 : Pipeline.Window sig grid0 :=
  Pipeline.Window.ofSpec (Memref.whole main_v1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S8x512x32000 : Shape := ⟨3, ![8, 512, 32000]⟩
abbrev S1x1x32000 : Shape := ⟨3, ![1, 1, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 101
  | .vmem => 0
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S8x512x32000, .f32⟩
  | .hbm, ⟨5, _⟩ => ⟨S1x1x32000, .f32⟩
  | .hbm, ⟨6, _⟩ => ⟨S8x512x32000, .f32⟩
  | .hbm, ⟨7, _⟩ => ⟨S8x512x32000, .f32⟩
  | .hbm, ⟨8, _⟩ => ⟨S_, .f32⟩
  | .hbm, ⟨9, _⟩ => ⟨S8x512, .f32⟩
  | .hbm, ⟨10, _⟩ => ⟨S_, .f32⟩
  | .hbm, ⟨11, _⟩ => ⟨S8x512, .f32⟩
  | .hbm, ⟨12, _⟩ => ⟨S8x512, .f32⟩
  | .hbm, ⟨13, _⟩ => ⟨S8x512x1, .f32⟩
  | .hbm, ⟨14, _⟩ => ⟨S8x512x32000, .f32⟩
  | .hbm, ⟨15, _⟩ => ⟨S8x512x32000, .f32⟩
  | .hbm, ⟨16, _⟩ => ⟨S8x512x32000, .f32⟩
  | .hbm, ⟨17, _⟩ => ⟨S_, .f32⟩
  | .hbm, ⟨18, _⟩ => ⟨S8x512, .f32⟩
  | .hbm, ⟨19, _⟩ => ⟨S8x512x1, .f32⟩
  | .hbm, ⟨20, _⟩ => ⟨S8x512x1, .f32⟩
  | .hbm, ⟨21, _⟩ => ⟨S8x512x32000, .f32⟩
  | .hbm, ⟨22, _⟩ => ⟨S8x512x32000, .f32⟩
  | .hbm, ⟨23, _⟩ => ⟨S_, .i32⟩
  | .hbm, ⟨24, _⟩ => ⟨S8x512, .i32⟩
  | .hbm, ⟨25, _⟩ => ⟨S8x512, .i1⟩
  | .hbm, ⟨26, _⟩ => ⟨S_, .i32⟩
  | .hbm, ⟨27, _⟩ => ⟨S_, .i32⟩
  | .hbm, ⟨28, _⟩ => ⟨S8x512, .i32⟩
  | .hbm, ⟨29, _⟩ => ⟨S8x512, .i32⟩
  | .hbm, ⟨30, _⟩ => ⟨S8x512x1, .i32⟩
  | .hbm, ⟨31, _⟩ => ⟨S_, .i32⟩
  | .hbm, ⟨32, _⟩ => ⟨S8x512x1, .i32⟩
  | .hbm, ⟨33, _⟩ => ⟨S8x512x1, .i1⟩
  | .hbm, ⟨34, _⟩ => ⟨S_, .i32⟩
  | .hbm, ⟨35, _⟩ => ⟨S8x512x1, .i32⟩
  | .hbm, ⟨36, _⟩ => ⟨S8x512x1, .i32⟩
  | .hbm, ⟨37, _⟩ => ⟨S8x512x1, .i32⟩
  | .hbm, ⟨38, _⟩ => ⟨S8x512x1x1, .i32⟩
  | .hbm, ⟨39, _⟩ => ⟨S1, .i32⟩
  | .hbm, ⟨40, _⟩ => ⟨S_, .i32⟩
  | .hbm, ⟨41, _⟩ => ⟨S8x512x1x1, .i32⟩
  | .hbm, ⟨42, _⟩ => ⟨S8x512x1x1, .i1⟩
  | .hbm, ⟨43, _⟩ => ⟨S1x1x1x1, .i32⟩
  | .hbm, ⟨44, _⟩ => ⟨S8x512x1x1, .i32⟩
  | .hbm, ⟨45, _⟩ => ⟨S8x512x1x1, .i1⟩
  | .hbm, ⟨46, _⟩ => ⟨S8x512x1x1, .i1⟩
  | .hbm, ⟨47, _⟩ => ⟨S_, .i1⟩
  | .hbm, ⟨48, _⟩ => ⟨S8x512x1, .i1⟩
  | .hbm, ⟨49, _⟩ => ⟨S8x512x1, .f32⟩
  | .hbm, ⟨50, _⟩ => ⟨S_, .f32⟩
  | .hbm, ⟨51, _⟩ => ⟨S8x512x1, .f32⟩
  | .hbm, ⟨52, _⟩ => ⟨S8x512x1, .f32⟩
  | .hbm, ⟨53, _⟩ => ⟨S8x512, .f32⟩
  | .hbm, ⟨54, _⟩ => ⟨S8x512, .f32⟩
  | .hbm, ⟨55, _⟩ => ⟨S8x512, .f32⟩
  | .hbm, ⟨56, _⟩ => ⟨S_, .f32⟩
  | .hbm, ⟨57, _⟩ => ⟨S8, .f32⟩
  | .hbm, ⟨58, _⟩ => ⟨S8x512, .i32⟩
  | .hbm, ⟨59, _⟩ => ⟨S_, .i32⟩
  | .hbm, ⟨60, _⟩ => ⟨S8, .i32⟩
  | .hbm, ⟨61, _⟩ => ⟨S8, .f32⟩
  | .hbm, ⟨62, _⟩ => ⟨S8, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .i1⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4x512, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x512, .i1⟩
  | .hbm, ⟨95, _⟩ => ⟨S4x512, .i32⟩
  | .hbm, ⟨96, _⟩ => ⟨S_, .i32⟩
  | .hbm, ⟨97, _⟩ => ⟨S_, .i32⟩
  | .hbm, ⟨98, _⟩ => ⟨S_, .f32⟩
  | .hbm, ⟨99, _⟩ => ⟨S_, .f32⟩
  | .hbm, ⟨100, _⟩ => ⟨S_, .f32⟩
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v7 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_v14 : Ref sig .tc := ⟨.hbm, 58, rfl⟩
abbrev main_c_1 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_call3_v0 : Ref sig .tc := ⟨.hbm, 69, rfl⟩
abbrev main_call3_call0_cst : Ref sig .tc := ⟨.hbm, 70, rfl⟩
abbrev main_call3_call0_v0 : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_v7 : Ref sig .tc := ⟨.hbm, 78, rfl⟩
abbrev main_call3_call0_v8 : Ref sig .tc := ⟨.hbm, 79, rfl⟩
abbrev main_call3_call0_v9 : Ref sig .tc := ⟨.hbm, 80, rfl⟩
abbrev main_call3_call0_v10 : Ref sig .tc := ⟨.hbm, 81, rfl⟩
abbrev main_call3_call0_v11 : Ref sig .tc := ⟨.hbm, 82, rfl⟩
abbrev main_call3_v1 : Ref sig .tc := ⟨.hbm, 83, rfl⟩
abbrev main_v23 : Ref sig .tc := ⟨.hbm, 84, rfl⟩
abbrev main_v24 : Ref sig .tc := ⟨.hbm, 85, rfl⟩
abbrev main_cst_3 : Ref sig .tc := ⟨.hbm, 86, rfl⟩
abbrev main_v25 : Ref sig .tc := ⟨.hbm, 87, rfl⟩
abbrev main_cst_4 : Ref sig .tc := ⟨.hbm, 88, rfl⟩
abbrev main_v26 : Ref sig .tc := ⟨.hbm, 89, rfl⟩
abbrev main_v27 : Ref sig .tc := ⟨.hbm, 90, rfl⟩
abbrev main_cst_5 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_c_6 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x512x32000_0_1_2 : S1x1x32000.BroadcastsInDim S8x512x32000 (![0, 1, 2] : Fin 3 → Fin S8x512x32000.rank)
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KPieces.lean ====
/-
  What each control case of the streaming body leaves behind, as the body's own arithmetic.

  The body keeps three columns between grid points: the running maximum m, the normaliser l and the label's score t.
  At a tile that is neither first nor last it reads the three columns the tile before left (m₀, l₀, t₀) and leaves
    m = max m₀ (row maxima of the tile's scores),  l = exp (m₀ − m) · l₀ + Σ exp (score − m),
    t = max t₀ (row maxima of the scores kept only at the label's column)
  — the payloads k0_pay9 / k0_pay1 / k0_pay8 of the tile's input blocks. At a row half's first tile the three
  columns are first set to −∞, 0, −∞ (k0_pay4, k0_pay5, k0_pay6) and the same update is applied to those. At the last
  tile the update is followed by the output column t − (m + log l) (k0_pay3) of the updated columns. Each statement says
  that the pieces the run of that case found, read back, are exactly that term; nothing is evaluated.
-/
import proofs.«123221_j46720654246580_2_alg».proof.Proof.Gen.KernelIdeal.Frame
import Idealize.ShloMosaic.Lib.Pipeline.Value

set_option maxRecDepth 16384

noncomputable section

namespace Cert.KernelIdeal.Pieces

open Cert.KernelIdeal Cert.KernelIdeal.Gen

open Idealize.ShloMosaic Idealize.ShloMosaic.TcCoe Idealize.ShloMosaic.Tactic
open Idealize.SL Idealize.SL.Sem

variable {F : FTy → Type} [FloatOps F]
variable (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S1x640 .f32) (harg4 : arg4.IsWhole) (arg5 : Memref sig .tc .vmem S2048 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
  (x0 : Vec F S2048x2048 .bf16) (x1 : Vec F S640x2048 .f32) (x2 : Vec F S1x640 .f32) (x3 : Vec F S2048 .i32) (xs0 xs1 xs2 : Vec F S2048x1 .f32)

theorem hz2 : (![0, 0] : Fin 2 → ℕ) = fun _ => 0 := funext fun a => by fin_cases a <;> rfl
theorem hz1 : (![0] : Fin 1 → ℕ) = fun _ => 0 := funext fun a => by fin_cases a; rfl

/-! ## A tile in the middle of a row half -/

theorem mid_m (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay2 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S2048x2048) hz2, View.ld_unit_zero (S := S640x2048) hz2, View.ld_unit_zero (S := S1x640) hz2, View.ld_unit_zero (S := S2048x1) hz2, View.ld_unit_zero (S := S2048) hz1]

theorem mid_l (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay1 (k0_pay7 x0 x1 x2) (k0_pay9 x0 x1 x2 xs0) (k0_pay10 x0 x1 x2 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S2048x2048) hz2, View.ld_unit_zero (S := S640x2048) hz2, View.ld_unit_zero (S := S1x640) hz2, View.ld_unit_zero (S := S2048x1) hz2, View.ld_unit_zero (S := S2048) hz1]

theorem mid_t (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = k0_pay8 i x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S2048x2048) hz2, View.ld_unit_zero (S := S640x2048) hz2, View.ld_unit_zero (S := S1x640) hz2, View.ld_unit_zero (S := S2048x1) hz2, View.ld_unit_zero (S := S2048) hz1]

/-! ## The first tile of a row half: the columns are initialised, then updated -/

theorem first_m (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay2 (k0_pay9 x0 x1 x2 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

theorem first_l (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay1 (k0_pay7 x0 x1 x2) (k0_pay9 x0 x1 x2 k0_pay4) (k0_pay10 x0 x1 x2 k0_pay4) k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

theorem first_t (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay8 i x0 x1 x2 x3 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

/-! ## The last tile of a row half: updated, then the output column -/

theorem last_m (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay2 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

theorem last_l (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay1 (k0_pay7 x0 x1 x2) (k0_pay9 x0 x1 x2 xs0) (k0_pay10 x0 x1 x2 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

theorem last_t (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = k0_pay8 i x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

theorem last_out (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay3 (k0_pay8 i x0 x1 x2 x3 xs2) (k0_pay2 (k0_pay9 x0 x1 x2 xs0)) (k0_pay1 (k0_pay7 x0 x1 x2) (k0_pay9 x0 x1 x2 xs0) (k0_pay10 x0 x1 x2 xs0) xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.readCov_unit_zero (S := S2048x1) arg7.view hz2, View.readCov_unit_zero (S := S2048x1) arg8.view hz2, View.readCov_unit_zero (S := S2048x1) arg9.view hz2, View.ld_unit_zero (S := S2048x2048) hz2, View.ld_unit_zero (S := S640x2048) hz2, View.ld_unit_zero (S := S1x640) hz2, View.ld_unit_zero (S := S2048x1) hz2, View.ld_unit_zero (S := S2048) hz1]

end Cert.KernelIdeal.Pieces

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«123221_j46720654246580_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«123221_j46720654246580_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.KPay.lean ====
/-
  The kernel body's arithmetic, read at an index.  Each value the body stores is, at the extended reals, a closed
  form in the blocks it loaded: the tile's logits  x_p · W_k + b_k  (a product with the transposed weight tile plus
  the bias row), the running row maximum, the factor exp (m_old − m_new) that rescales the running normaliser, the
  normaliser itself, the label's logit picked out of the tile by comparing column numbers with the row's label, and
  the final  t − (m + log l).
-/
import proofs.«123221_j46720654246580_2_alg».proof.Proof.Gen.KernelIdeal.Skeleton
import proofs.«123221_j46720654246580_2_alg».proof.Proof.LibRowsDot
import proofs.«123221_j46720654246580_2_alg».proof.Proof.LibRowMax
import proofs.«123221_j46720654246580_2_alg».proof.Proof.LibRowSum
import proofs.«123221_j46720654246580_2_alg».proof.Proof.LibLayout
import Idealize.ShloMosaic.Lib.ValueLayout
import Idealize.ShloMosaic.Lib.Affine

noncomputable section

namespace Cert.KernelIdeal.Pay

open Idealize.ShloMosaic Idealize.ShloMosaic.ValueIdx Cert.KernelIdeal Cert.KernelIdeal.Gen

/-- A column [a, 1] broadcast along its rows to [a, b]: entry (p, q) is the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The word 0xFF800000 is −∞. -/
theorem negInf_word : Ideal.ofBits .f32 0xFF800000#32 = ⊥ := by simp [Ideal.ofBits, Ideal.ieee]

/-- The tile's logit of row p and tile column k: the row of activations times the column's weight row, plus the
    column's bias. -/
def lgt (v3 : Vec Ideal S2048x2048 .bf16) (v5 : Vec Ideal S640x2048 .f32) (v8 : Vec Ideal S1x640 .f32)
    (p : Fin 2048) (k : Fin 640) : EReal :=
  (∑ h : Fin 2048, v3 (ix2 p h) * v5 (ix2 k h)) + v8 (ix2 0 k)

/-- The product with the transposed weight tile, into the zero accumulator, at (p, k). -/
theorem dot_apply (a : FVec Ideal S2048x2048 .bf16) (b : FVec Ideal S640x2048 .f32) (p : Fin 2048) (k : Fin 640) :
    matmul dot_S2048x2048_S640x2048_S2048x640_1_1_0_0_n_n none
      (shapeCast S2048x2048 a shapeCasts_S2048x2048_S2048x2048) (truncf .bf16 b bitsLt_bf16_f32)
      (constant (F := Ideal) S2048x640 .f32 0x00000000#32) (ix2 p k)
      = ∑ h : Fin 2048, a (ix2 p h) * b (ix2 k h) := by
  rw [shapeCast_self]
  exact Cert.Lib.RowsDot.matmul_zero_apply (M := 2048) (K := 2048) (N := 640) a
    (truncf .bf16 b bitsLt_bf16_f32) p k

/-- The bias row broadcast down the tile's rows, at (p, k). -/
theorem bias_apply (c : FVec Ideal S1x640 .f32) (p : Fin 2048) (k : Fin 640) :
    broadcastTo S2048x640 (shapeCast S1x640 c shapeCasts_S1x640_S1x640) broadcasts_S1x640_S2048x640
      (ix2 p k) = c (ix2 0 k) := by
  rw [shapeCast_self]
  exact broadcastTo_1b_ab_apply c _ p k

/-- The logits tile at (p, k). -/
theorem pay7_apply (v3 : Vec Ideal S2048x2048 .bf16) (v5 : Vec Ideal S640x2048 .f32) (v8 : Vec Ideal S1x640 .f32)
    (p : Fin 2048) (k : Fin 640) :
    k0_pay7 (F := Ideal) v3 v5 v8 (ix2 p k) = lgt v3 v5 v8 p k := by
  unfold k0_pay7 lgt
  rw [addf_apply, dot_apply, bias_apply]

/-- The keepdims row maximum of a tile, from the accumulator word of −∞, at (p, ·). -/
theorem rowmax_apply (src : FVec Ideal S2048x640 .f32) (p : Fin 2048) (u : Fin 1) :
    shapeCast S2048x1 (multiReduction (F := Ideal) .maximumf [1] S2048 src 0xFF800000#32 reduces_S2048x640_S2048
      (.inl rfl) rfl) shapeCasts_S2048_S2048x1 (ix2 p u)
      = Finset.univ.fold max ⊥ fun k : Fin 640 => src (ix2 p k) := by
  rw [← negInf_word]
  exact Cert.Lib.RowMax.rowmax_column src _ _ _ _ p u

/-- The keepdims row sum of a tile, from the zero accumulator, at (p, ·). -/
theorem rowsum_apply (src : FVec Ideal S2048x640 .f32) (p : Fin 2048) (u : Fin 1) :
    shapeCast S2048x1 (multiReduction (F := Ideal) .add [1] S2048 src 0x00000000#32 reduces_S2048x640_S2048
      (.inl rfl) rfl) shapeCasts_S2048_S2048x1 (ix2 p u)
      = ∑ k : Fin 640, src (ix2 p k) :=
  Cert.Lib.RowSum.rowsum_column src _ _ _ _ p u

/-- The running maximum after the tile: the old maximum against the tile's row maximum. -/
theorem pay9_apply (v3 : Vec Ideal S2048x2048 .bf16) (v5 : Vec Ideal S640x2048 .f32) (v8 : Vec Ideal S1x640 .f32)
    (v30 : Vec Ideal S2048x1 .f32) (p : Fin 2048) (u : Fin 1) :
    k0_pay9 (F := Ideal) v3 v5 v8 v30 (ix2 p u)
      = max (v30 (ix2 p u)) (Finset.univ.fold max ⊥ fun k : Fin 640 => lgt v3 v5 v8 p k) := by
  unfold k0_pay9
  rw [maximumf_apply, rowmax_apply]
  simp only [pay7_apply]

/-- The factor that rescales the running normaliser: exp (m_old − m_new). -/
theorem pay10_apply (v3 : Vec Ideal S2048x2048 .bf16) (v5 : Vec Ideal S640x2048 .f32) (v8 : Vec Ideal S1x640 .f32)
    (v30 : Vec Ideal S2048x1 .f32) (p : Fin 2048) (u : Fin 1) :
    k0_pay10 (F := Ideal) v3 v5 v8 v30 (ix2 p u)
      = Ideal.exp (v30 (ix2 p u) - k0_pay9 (F := Ideal) v3 v5 v8 v30 (ix2 p u)) := by
  unfold k0_pay10
  rfl

/-- The running normaliser after the tile: the old one rescaled, plus the tile's sum of exp (logit − m_new). -/
theorem pay1_apply (v11 : FVec Ideal S2048x640 .f32) (v33 v35 : FVec Ideal S2048x1 .f32) (v41 : Vec Ideal S2048x1 .f32)
    (p : Fin 2048) (u : Fin 1) :
    k0_pay1 (F := Ideal) v11 v33 v35 v41 (ix2 p u)
      = v35 (ix2 p u) * v41 (ix2 p u) + ∑ k : Fin 640, Ideal.exp (v11 (ix2 p k) - v33 (ix2 p 0)) := by
  unfold k0_pay1
  rw [shapeCast_self, addf_apply, mulf_apply, rowsum_apply]
  refine congrArg _ (Finset.sum_congr rfl fun k _ => ?_)
  show Ideal.exp (v11 (ix2 p k) - broadcastTo S2048x640 v33 broadcasts_S2048x1_S2048x640 (ix2 p k)) = _
  rw [broadcastTo_a1_ab_apply]

/-- The running maximum is stored as it is. -/
theorem pay2_apply (v33 : FVec Ideal S2048x1 .f32) (j : S2048x1.Idx) : k0_pay2 (F := Ideal) v33 j = v33 j := by
  unfold k0_pay2
  rw [shapeCast_self]

/-- The row's log-probability of its label: t − (m + log l). -/
theorem pay3_apply (v53 v54 v55 : Vec Ideal S2048x1 .f32) (j : S2048x1.Idx) :
    k0_pay3 (F := Ideal) v53 v54 v55 j = v53 j - (v54 j + Ideal.log (v55 j)) := by
  unfold k0_pay3
  rfl

/-- The running maximum starts at −∞. -/
theorem pay4_apply (j : S2048x1.Idx) : k0_pay4 (F := Ideal) j = ⊥ := by
  unfold k0_pay4
  rw [shapeCast_self]
  exact negInf_word

/-- The running normaliser starts at 0. -/
theorem pay5_apply (j : S2048x1.Idx) : k0_pay5 (F := Ideal) j = 0 := by
  unfold k0_pay5
  rw [shapeCast_self]
  exact Ideal.ofBits_zero_f32

/-- The label's score starts at −∞. -/
theorem pay6_apply (j : S2048x1.Idx) : k0_pay6 (F := Ideal) j = ⊥ := by
  unfold k0_pay6
  rw [shapeCast_self]
  exact negInf_word

/-- The tile masked to the label's column: at (p, k) the tile's entry when column c + k is row p's label, else −∞. -/
theorem pick_apply (c : BitVec 32) (lab : IVec S2048 32) (x : FVec Ideal S2048x640 .f32) (p : Fin 2048) (k : Fin 640) :
    select (cmpi .eq (addi (broadcast S2048x640 c) (iota .tc S2048x640 32 [1] iota_S2048x640_d1_w32))
        (broadcastTo S2048x640 (shapeCast S2048x1 (shapeCast S2048 lab shapeCasts_S2048_S2048) shapeCasts_S2048_S2048x1)
          broadcasts_S2048x1_S2048x640))
      x (broadcast S2048x640 (Scalar.ofBits (F := Ideal) .f32 0xFF800000#32)) (ix2 p k)
      = if c + BitVec.ofNat 32 k.val = lab (ix1 p) then x (ix2 p k) else ⊥ := by
  have hl : broadcastTo S2048x640 (shapeCast S2048x1 (shapeCast S2048 lab shapeCasts_S2048_S2048) shapeCasts_S2048_S2048x1)
      broadcasts_S2048x1_S2048x640 (ix2 p k) = lab (ix1 p) := by
    rw [broadcastTo_a1_ab_apply, Cert.LibLayout.shapeCast_a_a1_apply, shapeCast_self]
  have hi : iota .tc S2048x640 32 [1] iota_S2048x640_d1_w32 (ix2 p k) = BitVec.ofNat 32 k.val :=
    iota_single_apply .tc S2048x640 32 1 _ (ix2 p k)
  rw [select_apply]
  show Scalar.select (IntOp.cmpi .eq (c + iota .tc S2048x640 32 [1] iota_S2048x640_d1_w32 (ix2 p k))
      (broadcastTo S2048x640 (shapeCast S2048x1 (shapeCast S2048 lab shapeCasts_S2048_S2048) shapeCasts_S2048_S2048x1)
        broadcasts_S2048x1_S2048x640 (ix2 p k))) (x (ix2 p k)) (Ideal.ofBits .f32 0xFF800000#32) = _
  rw [hi, hl, negInf_word]
  unfold Scalar.select
  by_cases h : c + BitVec.ofNat 32 k.val = lab (ix1 p)
  · rw [if_pos h]
    exact if_pos (IntOp.cmpi_eq.mpr h)
  · rw [if_neg h]
    exact if_neg fun h' => h (IntOp.cmpi_eq.mp h')

/-- The label's score after the tile: the old score against the tile's entry in the label's column, if the label's
    column lies in this tile (tile number (i 1), 640 columns a tile). -/
theorem pay8_apply (i : grid0.Coords) (v3 : Vec Ideal S2048x2048 .bf16) (v5 : Vec Ideal S640x2048 .f32)
    (v8 : Vec Ideal S1x640 .f32) (v16 : Vec Ideal S2048 .i32) (v25 : Vec Ideal S2048x1 .f32) (p : Fin 2048) (u : Fin 1) :
    k0_pay8 (F := Ideal) i v3 v5 v8 v16 v25 (ix2 p u)
      = max (v25 (ix2 p u)) (Finset.univ.fold max ⊥ fun k : Fin 640 =>
          if BitVec.ofNat 32 (i 1).val * 640#32 + BitVec.ofNat 32 k.val = v16 (ix1 p) then lgt v3 v5 v8 p k else ⊥) := by
  unfold k0_pay8
  rw [shapeCast_self, maximumf_apply, rowmax_apply]
  refine congrArg _ (Finset.fold_congr fun k _ => ?_)
  rw [pick_apply, pay7_apply]
  rfl

end Cert.KernelIdeal.Pay

end
-- ==== Proof.Spec.lean ====
/-
  The mathematics of the fused linear + log-softmax + label pick, as pure functions on the extended reals.

  A row of 32000 scores x (one token's logits) is read in 50 consecutive tiles of 640 columns. The streaming pass
  keeps three numbers per row: the running maximum m (⊥ before the first tile), the running normaliser
  l = Σ exp (x − m) over the columns read so far (rescaled by exp (m_old − m_new) whenever the maximum rises), and
  the score t of the row's label column (⊥ until the tile holding that column is read: every other column
  contributes ⊥ to a maximum). After the last tile the row's log-probability of its label is t − (m + log l).

  The plain form subtracts the whole row's maximum M first: (x ℓ − M) − log (0 + Σ_v exp (x v − M)), the maximum
  written max ⊥ (fold max ⊥ x) and the sum started from 0, as a reduce-from-an-initial-value produces them.
-/
import Idealize.ShloMosaic.PureOps.Ideal

noncomputable section

namespace Cert.Spec

open Idealize.ShloMosaic

/-- One tile of the streaming pass on one row. `sc k` is the score of the tile's column k, `hit k` says that column is
    the row's label; the state is (running maximum, running normaliser, label's score so far). -/
def tileStep (sc : Fin 640 → EReal) (hit : Fin 640 → Bool) (st : EReal × EReal × EReal) : EReal × EReal × EReal :=
  (max st.1 (Finset.univ.fold max ⊥ sc),
   Ideal.exp (st.1 - max st.1 (Finset.univ.fold max ⊥ sc)) * st.2.1
     + ∑ k, Ideal.exp (sc k - max st.1 (Finset.univ.fold max ⊥ sc)),
   max st.2.2 (Finset.univ.fold max ⊥ fun k => if hit k then sc k else ⊥))

/-- The state after j tiles, from (⊥, 0, ⊥). -/
def tileRun (sc : ℕ → Fin 640 → EReal) (hit : ℕ → Fin 640 → Bool) : ℕ → EReal × EReal × EReal
  | 0 => (⊥, 0, ⊥)
  | j + 1 => tileStep (sc j) (hit j) (tileRun sc hit j)

theorem tileRun_zero (sc : ℕ → Fin 640 → EReal) (hit : ℕ → Fin 640 → Bool) : tileRun sc hit 0 = (⊥, 0, ⊥) := rfl

theorem tileRun_succ (sc : ℕ → Fin 640 → EReal) (hit : ℕ → Fin 640 → Bool) (j : ℕ) :
    tileRun sc hit (j + 1) = tileStep (sc j) (hit j) (tileRun sc hit j) := rfl

/-- What the last tile writes out for the row: t − (m + log l). -/
def streamLogp (st : EReal × EReal × EReal) : EReal := st.2.2 - (st.1 + Ideal.log st.2.1)

/-- The plain log-softmax of a row of 32000 scores at its label ℓ. -/
def plainLogp (x : Fin 32000 → EReal) (ℓ : Fin 32000) : EReal :=
  (x ℓ - max ⊥ (Finset.univ.fold max ⊥ x))
    - Ideal.log (0 + ∑ v, Ideal.exp (x v - max ⊥ (Finset.univ.fold max ⊥ x)))

end Cert.Spec

end
-- ==== Proof.KSteps.lean ====
/-
  One grid point of the streaming pass, on one row.

  Grid point t is tile t mod 50 of row half t div 50. On row p of the half the three carried columns (running maximum,
  normaliser, label's score), read at (p, 0), are after the point exactly one `Spec.tileStep` of what they were before
  it — from (−∞, 0, −∞) at a half's first tile, where the body resets them first — over the tile's 640 scores
  sc t p k = Σ_h x[p, h] · w[k, h] + bias[k] of the point's input blocks, the label test being "the tile's column
  number t mod 50 · 640 + k, as a 32-bit word, is the row's label word". At a half's last tile the output column is
  label's score − (maximum + log normaliser) of the updated columns.
-/
import proofs.«123221_j46720654246580_2_alg».proof.Proof.Gen.KernelIdeal.Frame
import proofs.«123221_j46720654246580_2_alg».proof.Proof.KPieces
import proofs.«123221_j46720654246580_2_alg».proof.Proof.KPay
import proofs.«123221_j46720654246580_2_alg».proof.Proof.Spec
import Idealize.ShloMosaic.Lib.ValueIdx

set_option maxRecDepth 16384

noncomputable section

namespace Cert.KernelIdeal.Steps

open Idealize.ShloMosaic Idealize.ShloMosaic.ValueIdx Cert.KernelIdeal Cert.KernelIdeal.Gen Cert.KernelIdeal.Pay

variable (m : (ℓ : Loc nD τ sig) → Buf (Elt Ideal) ℓ) (c : Dev nD)

/-- The three carried columns after point n. -/
def colM (n : ℕ) (hn : n < cfg0.N) : Vec Ideal S2048x1 .f32 := (outsAt0 m c n hn).2.1
def colL (n : ℕ) (hn : n < cfg0.N) : Vec Ideal S2048x1 .f32 := (outsAt0 m c n hn).2.2.1
def colT (n : ℕ) (hn : n < cfg0.N) : Vec Ideal S2048x1 .f32 := (outsAt0 m c n hn).2.2.2
/-- The output column's staging buffer after point n. -/
def colO (n : ℕ) (hn : n < cfg0.N) : Vec Ideal S2048x1 .f32 := (outsAt0 m c n hn).1

/-- The state of row p after point n. -/
def stateAt (n : ℕ) (hn : n < cfg0.N) (p : Fin 2048) : EReal × EReal × EReal :=
  (colM m c n hn (ix2 p 0), colL m c n hn (ix2 p 0), colT m c n hn (ix2 p 0))

/-- The scores of point t's tile on row p, and its label test. -/
def sc (t : Fin cfg0.N) (p : Fin 2048) (k : Fin 640) : EReal :=
  lgt (iblk m c 0 t) (iblk m c 1 t) (iblk m c 2 t) p k
def hit (t : Fin cfg0.N) (p : Fin 2048) (k : Fin 640) : Bool :=
  decide (BitVec.ofNat 32 ((grid0.coords t) 1).val * 640#32 + BitVec.ofNat 32 k.val = (iblk m c 3 t : Vec Ideal S2048 .i32) (ix1 p))

/-- The update common to all three cases, on columns (m₀, l₀, t₀) read at (p, 0). -/
theorem update_eq (t : Fin cfg0.N) (xs0 xs1 xs2 : Vec Ideal S2048x1 .f32) (p : Fin 2048) :
    (k0_pay2 (F := Ideal) (k0_pay9 (iblk m c 0 t) (iblk m c 1 t) (iblk m c 2 t) xs0) (ix2 p 0),
     k0_pay1 (F := Ideal) (k0_pay7 (iblk m c 0 t) (iblk m c 1 t) (iblk m c 2 t)) (k0_pay9 (iblk m c 0 t) (iblk m c 1 t) (iblk m c 2 t) xs0)
        (k0_pay10 (iblk m c 0 t) (iblk m c 1 t) (iblk m c 2 t) xs0) xs1 (ix2 p 0),
     k0_pay8 (F := Ideal) (grid0.coords t) (iblk m c 0 t) (iblk m c 1 t) (iblk m c 2 t) (iblk m c 3 t) xs2 (ix2 p 0))
      = Cert.Spec.tileStep (sc m c t p) (hit m c t p) (xs0 (ix2 p 0), xs1 (ix2 p 0), xs2 (ix2 p 0)) := by
  rw [pay2_apply, pay1_apply, pay10_apply, pay9_apply, pay8_apply]
  simp only [pay7_apply]
  unfold Cert.Spec.tileStep sc hit
  simp only [decide_eq_true_eq]

/-- A tile that is not a half's first: one step from the columns the point before left. -/
theorem step_next (t : Fin cfg0.N) (h0 : ¬t.val % 50 = 0) (p : Fin 2048) :
    stateAt m c t.val t.isLt p
      = Cert.Spec.tileStep (sc m c t p) (hit m c t p) (stateAt m c (t.val - 1) (Nat.lt_of_le_of_lt (Nat.sub_le _ _) t.isLt) p) := by
  unfold stateAt colM colL colT
  by_cases h1 : t.val % 50 = 49
  · rw [outsAt0_C m c t h0 h1]
    dsimp only
    rw [Pieces.last_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      Pieces.last_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      Pieces.last_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
    exact update_eq m c t _ _ _ p
  · rw [outsAt0_B m c t h0 h1]
    dsimp only
    rw [Pieces.mid_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
      Pieces.mid_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
      Pieces.mid_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))]
    exact update_eq m c t _ _ _ p

/-- A half's first tile: one step from (−∞, 0, −∞). -/
theorem step_first (t : Fin cfg0.N) (h0 : t.val % 50 = 0) (p : Fin 2048) :
    stateAt m c t.val t.isLt p = Cert.Spec.tileStep (sc m c t p) (hit m c t p) (⊥, 0, ⊥) := by
  have h1 : ¬t.val % 50 = 49 := by omega
  unfold stateAt colM colL colT
  rw [outsAt0_A m c t h0 h1]
  dsimp only
  rw [Pieces.first_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    Pieces.first_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    Pieces.first_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))]
  refine (update_eq m c t (k0_pay4 (F := Ideal)) (k0_pay5 (F := Ideal)) (k0_pay6 (F := Ideal)) p).trans ?_
  rw [pay4_apply, pay5_apply, pay6_apply]

/-- A half's last tile: the output column is the label's score − (maximum + log normaliser) of the updated columns. -/
theorem out_last (t : Fin cfg0.N) (h0 : ¬t.val % 50 = 0) (h1 : t.val % 50 = 49) (p : Fin 2048) :
    colO m c t.val t.isLt (ix2 p 0) = Cert.Spec.streamLogp (stateAt m c t.val t.isLt p) := by
  unfold stateAt colM colL colT colO Cert.Spec.streamLogp
  rw [outsAt0_C m c t h0 h1]
  dsimp only
  rw [Pieces.last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.last_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.last_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.last_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
  rw [pay3_apply]

end Cert.KernelIdeal.Steps

end
-- ==== Proof.KInvariant.lean ====
/-
  The streaming pass over a whole row half, by induction on the grid point.

  Grid point n is tile n mod 50 of the row half that starts at point b = n − n mod 50. After it, row p's three carried
  numbers are the streaming state (`Spec.tileRun`) after n mod 50 + 1 tiles of that half's sequence of tiles: the
  first tile starts from (−∞, 0, −∞) and every later tile is one more step from what the tile before left. After a
  half's last tile (n mod 50 = 49) the state is that of all 50 tiles.
-/
import proofs.«123221_j46720654246580_2_alg».proof.Proof.KSteps

set_option maxRecDepth 16384

noncomputable section

namespace Cert.KernelIdeal.Inv

open Idealize.ShloMosaic Idealize.ShloMosaic.ValueIdx Cert.KernelIdeal Cert.KernelIdeal.Gen Cert.KernelIdeal.Steps Cert.Spec

variable (m : (ℓ : Loc nD τ sig) → Buf (Elt Ideal) ℓ) (c : Dev nD)

theorem N100 : cfg0.N = 100 := N_0

/-- The grid point of tile j of the row half that starts at point b. -/
def pt (b j : ℕ) : Fin cfg0.N := ⟨(b + j) % 100, by rw [N100]; exact Nat.mod_lt _ (by norm_num)⟩

/-- A point is tile n mod 50 of the half starting at n − n mod 50. -/
theorem pt_self (n : ℕ) (hn : n < cfg0.N) : pt (n - n % 50) (n % 50) = ⟨n, hn⟩ := by
  have h : n < 100 := by have e := N100; omega
  apply Fin.ext
  show (n - n % 50 + n % 50) % 100 = n
  omega

/-- The scores and label tests of the tiles of the half starting at b, on row p. -/
def scSeq (b : ℕ) (p : Fin 2048) (j : ℕ) (k : Fin 640) : EReal := sc m c (pt b j) p k
def hitSeq (b : ℕ) (p : Fin 2048) (j : ℕ) (k : Fin 640) : Bool := hit m c (pt b j) p k

/-- After point n, row p holds the streaming state after n mod 50 + 1 tiles of its half. -/
theorem state_eq (n : ℕ) (hn : n < cfg0.N) (p : Fin 2048) :
    stateAt m c n hn p = tileRun (scSeq m c (n - n % 50) p) (hitSeq m c (n - n % 50) p) (n % 50 + 1) := by
  induction n using Nat.strong_induction_on with
  | _ n ih =>
    have hsc : sc m c ⟨n, hn⟩ p = scSeq m c (n - n % 50) p (n % 50) := by
      unfold scSeq; rw [pt_self n hn]
    have hhit : hit m c ⟨n, hn⟩ p = hitSeq m c (n - n % 50) p (n % 50) := by
      unfold hitSeq; rw [pt_self n hn]
    by_cases h0 : n % 50 = 0
    · rw [step_first m c ⟨n, hn⟩ h0 p, hsc, hhit, tileRun_succ]
      rw [h0, tileRun_zero]
    · have hlt : n - 1 < cfg0.N := lt_of_le_of_lt (Nat.sub_le _ _) hn
      have e1 : (n - 1) - (n - 1) % 50 = n - n % 50 := by omega
      have e2 : (n - 1) % 50 + 1 = n % 50 := by omega
      have hprev := ih (n - 1) (by omega) hlt
      rw [e1, e2] at hprev
      rw [step_next m c ⟨n, hn⟩ h0 p, hsc, hhit, tileRun_succ]
      exact congrArg _ hprev

/-- After a half's last tile the state is that of all 50 tiles. -/
theorem state_last (n : ℕ) (hn : n < cfg0.N) (h49 : n % 50 = 49) (p : Fin 2048) :
    stateAt m c n hn p = tileRun (scSeq m c (n - 49) p) (hitSeq m c (n - 49) p) 50 := by
  have h := state_eq m c n hn p
  rw [h49] at h
  exact h

end Cert.KernelIdeal.Inv

end
-- ==== Proof.KOut.lean ====
/-
  The output column after the pass, as one function of the row.

  The output window's block index is the row half, so its block is written back only after a half's last tile
  (points 49 and 99), and the two blocks tile the [4096, 1] column. Row r = half · 2048 + p therefore ends holding what
  the half's last tile stored on its row p: label's score − (maximum + log normaliser) of the streaming state after all
  50 tiles of the half — `colRow r`.
-/
import proofs.«123221_j46720654246580_2_alg».proof.Proof.KInvariant
import Idealize.ShloMosaic.Lib.Pipeline.Value

set_option maxRecDepth 16384

noncomputable section

namespace Cert.KernelIdeal.KOut

open Idealize.ShloMosaic Idealize.ShloMosaic.ValueIdx Cert.KernelIdeal Cert.KernelIdeal.Gen
open Cert.KernelIdeal.Steps Cert.KernelIdeal.Inv Cert.Spec

variable (m : (ℓ : Loc nD τ sig) → Buf (Elt Ideal) ℓ) (c : Dev nD)

/-- The output block is written back exactly after a half's last tile. -/
theorem flush_iff : ∀ t : Fin cfg0.N, (cfg0.win 4).flush t = true ↔ t.val % 50 = 49 :=
  (by decide +kernel : ∀ t : Fin grid0.N, (cfg0.win 4).flush t = true ↔ t.val % 50 = 49)

/-- Its block index is (row half, 0). -/
theorem idx4 : ∀ t : Fin cfg0.N, win0_4.index t (0 : Fin 2) = t.val / 50 ∧ win0_4.index t (1 : Fin 2) = 0 :=
  (by decide +kernel : ∀ t : Fin grid0.N, win0_4.index t (0 : Fin 2) = t.val / 50 ∧ win0_4.index t (1 : Fin 2) = 0)

/-- Row r's place inside its half. -/
def rowIn (r : ℕ) : Fin 2048 := ⟨r % 2048, Nat.mod_lt _ (by norm_num)⟩

/-- What row r of the column ends holding. -/
def colRow (r : ℕ) : EReal :=
  streamLogp (tileRun (scSeq m c ((r / 2048) * 50) (rowIn r)) (hitSeq m c ((r / 2048) * 50) (rowIn r)) 50)

/-- The column as a function of its index. -/
def G (i : S4096x1.Idx) : EReal := colRow m c (i 0).val

theorem colRow_at (h q : ℕ) (hq : q < 2048) :
    colRow m c (h * 2048 + 1 * q)
      = streamLogp (tileRun (scSeq m c (h * 50) ⟨q, hq⟩) (hitSeq m c (h * 50) ⟨q, hq⟩) 50) := by
  have e1 : (h * 2048 + 1 * q) / 2048 = h := by omega
  have e2 : rowIn (h * 2048 + 1 * q) = ⟨q, hq⟩ := Fin.ext (by show (h * 2048 + 1 * q) % 2048 = q; omega)
  unfold colRow
  rw [e1, e2]

/-- After a half's last tile the output buffer, at any index, is the streaming result of its row. -/
theorem colO_last (t : Fin cfg0.N) (h49 : t.val % 50 = 49) (p : Fin 2048) (u : Fin 1) :
    colO m c t.val t.isLt (ix2 p u)
      = streamLogp (tileRun (scSeq m c (t.val - 49) p) (hitSeq m c (t.val - 49) p) 50) := by
  obtain rfl : u = 0 := Subsingleton.elim _ _
  rw [out_last m c t (by omega) h49 p, state_last m c t.val t.isLt h49 p]

/-- What a flushing point writes back is its block of the column function. -/
theorem flushed_eq (t : Fin cfg0.N) (hf : (cfg0.win 4).flush t = true) :
    (dats m 0 c).flushed 4 t = ((cfg0.win 4).blk t).view.read (Elt Ideal) (G m c) := by
  have h49 : t.val % 50 = 49 := (flush_iff t).mp hf
  obtain ⟨e0, e1⟩ := idx4 t
  show (cfg0.win 4).cut (grid0.coords t) ((dats m 0 c).after 4 t) = _
  rw [after0_4]
  funext j
  have hj0 : (j 0).val < 2048 := (j 0).isLt
  have hj1 : (j 1).val < 1 := (j 1).isLt
  have hjx : (j : S2048x1.Idx) = ix2 (⟨(j 0).val, hj0⟩ : Fin 2048) (⟨(j 1).val, hj1⟩ : Fin 1) :=
    funext fun a => Fin.ext (by match a with | ⟨0, _⟩ => rfl | ⟨1, _⟩ => rfl)
  show colO m c t.val t.isLt j = colRow m c (win0_4.index t (0 : Fin 2) * 2048 + 1 * (j 0).val)
  refine (congrArg (colO m c t.val t.isLt) hjx).trans ?_
  have eb : t.val / 50 * 50 = t.val - 49 := by omega
  rw [colO_last m c t h49 ⟨(j 0).val, hj0⟩ ⟨(j 1).val, hj1⟩, e0, colRow_at m c (t.val / 50) (j 0).val hj0, eb]

/-- An index of the column is in point t's block iff its row is in the block's range. -/
theorem mem_blk (t : Fin cfg0.N) (i : S4096x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v8).slice (win0_4.rect t)).set ↔ _
  rw [View.set_slice_whole, Rect.mem_set_unit]
  exact Iff.rfl

/-- The two written-back blocks cover the column. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : (i 0).val / 2048 * 50 + 49 < cfg0.N := by rw [N100]; omega
  refine ⟨⟨(i 0).val / 2048 * 50 + 49, hN⟩, (flush_iff _).mpr (by show ((i 0).val / 2048 * 50 + 49) % 50 = 49; omega), ?_⟩
  obtain ⟨e0, e1⟩ := idx4 ⟨(i 0).val / 2048 * 50 + 49, hN⟩
  have e0' : win0_4.index ⟨(i 0).val / 2048 * 50 + 49, hN⟩ (0 : Fin 2) = (i 0).val / 2048 := by rw [e0]; show ((i 0).val / 2048 * 50 + 49) / 50 = _; omega
  rw [mem_blk]
  intro a
  match a with
  | ⟨0, _⟩ => show win0_4.index _ (0 : Fin 2) * 2048 ≤ (i 0).val ∧ (i 0).val < win0_4.index _ (0 : Fin 2) * 2048 + 2048; rw [e0']; omega
  | ⟨1, _⟩ => show win0_4.index _ (1 : Fin 2) * 1 ≤ (i 1).val ∧ (i 1).val < win0_4.index _ (1 : Fin 2) * 1 + 1; rw [e1]; omega

/-- The column after the pass. -/
theorem final : (dats m 0 c).arrAt 4 cfg0.N = G m c :=
  (dats m 0 c).arrAt_eq_of_cover 4 (G m c) (fun t hf => flushed_eq m c t hf) (cover)

end Cert.KernelIdeal.KOut

end
-- ==== Proof.TailCore.lean ====
/-
  The closing stretch of the DPO loss, shared by both programs, as one function.

  From the masked per-token log-probabilities p[b, t] (8 sequences of 512 tokens: the first four chosen, the last
  four rejected), the per-sequence token counts n[b] and the chosen half's token count N it computes
    avg[b]   = (Σ_t p[b, t]) / n[b],
    d[i]     = (1/10, as the word 0x3DCCCCCD) · (avg[i] − avg[i + 4])                     (i < 4),
    loss     = (Σ_i − log σ(d[i])) / 4  +  (− Σ_{b < 4} Σ_t p[b, t]) / N,
  with log σ(x) = − softplus(− x) and softplus(x) = max(x, 0) + log1p(exp(− |x − 0|)) (its x ≠ x branch kept as
  written). The two programs differ only in how they obtain p, n and N; what they then do is this one function, so
  it is never opened: equal arguments give equal losses.
-/
import Idealize.ShloMosaic.PureOps
import Idealize.ShloMosaic.PureOps.Ideal

noncomputable section

namespace Cert.Tail

open Idealize.ShloMosaic

abbrev S8x512 : Shape := ⟨2, ![8, 512]⟩
abbrev S_ : Shape := ⟨0, ![]⟩
abbrev S8 : Shape := ⟨1, ![8]⟩
abbrev S4 : Shape := ⟨1, ![4]⟩
abbrev S4x512 : Shape := ⟨2, ![4, 512]⟩

/-- The shape relations the stretch's operations take. -/
structure Side : Prop where
  r1 : S8x512.ReducesTo [1] S8
  h0 : 0 < S_.numel
  s0 : S8.Slices ![0] S4
  s4 : S8.Slices ![4] S4
  b4 : S_.BroadcastsInDim S4 (![] : Fin 0 → Fin S4.rank)
  r0 : S4.ReducesTo [0] S_
  s00 : S8x512.Slices ![0, 0] S4x512
  r01 : S4x512.ReducesTo [0, 1] S_

/-- softplus on four values, operation by operation. -/
def softplus (h : Side) (x : FVec Ideal S4 .f32) : FVec Ideal S4 .f32 :=
  select (cmpf .une (subf x (broadcastInDim S4 ![] h.b4 (constant (F := Ideal) S_ .f32 0x00000000#32)))
                    (subf x (broadcastInDim S4 ![] h.b4 (constant (F := Ideal) S_ .f32 0x00000000#32))))
    (addf x (broadcastInDim S4 ![] h.b4 (constant (F := Ideal) S_ .f32 0x00000000#32)))
    (addf (maximumf x (broadcastInDim S4 ![] h.b4 (constant (F := Ideal) S_ .f32 0x00000000#32)))
      (Host.log1p (Host.exp (Host.negf (Host.absf
        (subf x (broadcastInDim S4 ![] h.b4 (constant (F := Ideal) S_ .f32 0x00000000#32))))))))

/-- log σ(x) = − softplus(− x). -/
def logSigmoid (h : Side) (x : FVec Ideal S4 .f32) : FVec Ideal S4 .f32 :=
  Host.negf (softplus h (Host.negf x))

/-- The per-sequence averages. -/
def avg (h : Side) (p : FVec Ideal S8x512 .f32) (n : FVec Ideal S8 .f32) : FVec Ideal S8 .f32 :=
  Host.divf (Host.reduceAdd p (constant (F := Ideal) S_ .f32 0x00000000#32) h.r1 h.h0) n

/-- The loss from the masked log-probabilities and the two kinds of counts. -/
def core (h : Side) (p : FVec Ideal S8x512 .f32) (n : FVec Ideal S8 .f32) (N : FVec Ideal S_ .f32) :
    FVec Ideal S_ .f32 :=
  addf
    (Host.divf
      (Host.reduceAdd
        (Host.negf (logSigmoid h
          (mulf (broadcastInDim S4 ![] h.b4 (constant (F := Ideal) S_ .f32 0x3DCCCCCD#32))
            (subf (extractStridedSlice S4 ![0] (avg h p n) h.s0) (extractStridedSlice S4 ![4] (avg h p n) h.s4)))))
        (constant (F := Ideal) S_ .f32 0x00000000#32) h.r0 h.h0)
      (constant (F := Ideal) S_ .f32 0x40800000#32))
    (Host.divf
      (Host.negf (Host.reduceAdd (extractStridedSlice S4x512 ![0, 0] p h.s00)
        (constant (F := Ideal) S_ .f32 0x00000000#32) h.r01 h.h0))
      N)

end Cert.Tail

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.KTail.lean ====
/-
  The kernel program's closing stretch: the loss as one function of the output column the streaming pass leaves and of
  the target mask.

  After the pass the program reshapes the [4096, 1] column of per-token log-probabilities to [8, 512], multiplies by the
  mask (target ≠ −100) as floats, and applies the closing stretch both programs share (`Cert.Tail.core`) with the
  per-sequence and chosen-half token counts taken as float sums of the mask. Read back operation by operation this is
  `lossOf A M` of the column A and the mask M; the column is the pass's output array and the mask is what the
  operations before the pass computed from the targets.
-/
import proofs.«123221_j46720654246580_2_alg».proof.Proof.Gen.KernelIdeal.Frame
import proofs.«123221_j46720654246580_2_alg».proof.Proof.TailCore
import proofs.«123221_j46720654246580_2_alg».proof.Proof.LibTypedRefs
import Idealize.ShloMosaic.Lib.Pipeline.Value
import Idealize.ShloMosaic.Lib.StableHlo.Run

set_option maxRecDepth 16384

noncomputable section

namespace Cert.KernelIdeal.KTail

open Idealize.ShloMosaic Idealize.ShloMosaic.TcCoe Idealize.ShloMosaic.Tactic
open Idealize.SL Idealize.SL.Sem Cert.KernelIdeal Cert.KernelIdeal.Gen

variable (m : (ℓ : Loc nD τ sig) → Buf (Elt Ideal) ℓ) (c : Dev nD)

/-- The shape relations of the closing stretch, from the program's stated facts. -/
def side : Cert.Tail.Side := ⟨reducesTo_S8x512_S8_d1, h_S_, slices_S8_S4_0, slices_S8_S4_4, bcast_S_S4, reducesTo_S4_S_d0, slices_S8x512_S4x512_0_0, reducesTo_S4x512_S_d0_1⟩

/-- The mask of the targets that count: target ≠ −100. -/
def maskOf (T : IVec S8x512 32) : IVec S8x512 1 :=
  cmpi .ne T (broadcastInDim S8x512 ![] bcast_S_S8x512 (constantI S_ 32 4294967196#32))

/-- The loss from the output column A and the mask M. -/
def lossOf (A : FVec Ideal S4096x1 .f32) (M : IVec S8x512 1) : FVec Ideal S_ .f32 :=
  Cert.Tail.core side (mulf (shapeCast S8x512 A shapeCasts_S4096x1_S8x512) (uitofp .f32 M))
    (Host.reduceAdd (uitofp .f32 M) (constant (F := Ideal) S_ .f32 0x00000000#32) reducesTo_S8x512_S8_d1 h_S_)
    (Host.reduceAdd (extractStridedSlice S4x512 ![0, 0] (uitofp .f32 M) slices_S8x512_S4x512_0_0)
      (constant (F := Ideal) S_ .f32 0x00000000#32) reducesTo_S4x512_S_d0_1 h_S_)

/-- The operations after the pass, read back: the result is `lossOf` of the two buffers they read. -/
theorem tail_eq :
    (Pipeline.afterTail₀ cfgs (dats m) 0 (V0 m) [hostOps1, hostOps1_1, hostOps1_2] c main_v30 : S_.Idx → EReal)
      = lossOf (Pipeline.withArrays (cfgs 0).spec c (V0 m c) (fun w => (dats m 0 c).arrAt w (cfgs 0).N) (Proc.tc.devRef main_v8))
               (Pipeline.withArrays (cfgs 0).spec c (V0 m c) (fun w => (dats m 0 c).arrAt w (cfgs 0).N) (Proc.tc.devRef main_v3)) := by
  unfold Pipeline.afterTail₀
  simp only [hostOps1, hostOps1_1, hostOps1_2, List.flatten_cons, List.flatten_nil, List.append_nil, List.cons_append, List.nil_append]
  after_results_simp
  simp only [Cert.Lib.TypedRefs.ofBuf_toBuf]
  generalize Pipeline.withArrays (cfgs 0).spec c (V0 m c) (fun w => (dats m 0 c).arrAt w (cfgs 0).N) (Proc.tc.devRef main_v8) = A
  generalize Pipeline.withArrays (cfgs 0).spec c (V0 m c) (fun w => (dats m 0 c).arrAt w (cfgs 0).N) (Proc.tc.devRef main_v3) = M
  rfl

/-- The first of the two buffers is the pass's output array. -/
theorem out_buf :
    Pipeline.withArrays (cfgs 0).spec c (V0 m c) (fun w => (dats m 0 c).arrAt w (cfgs 0).N) (Proc.tc.devRef main_v8)
      = (dats m 0 c).arrAt 4 cfg0.N :=
  Pipeline.withArrays_arr spec0 launch0.win.arr_inj c _ _ 4

/-- The second is the mask the operations before the pass computed from the targets. -/
theorem mask_buf :
    (Pipeline.withArrays (cfgs 0).spec c (V0 m c) (fun w => (dats m 0 c).arrAt w (cfgs 0).N) (Proc.tc.devRef main_v3) : S8x512.Idx → BitVec 1)
      = maskOf (m ((c : Thread nD τ).loc main_arg2)) := by
  rw [Pipeline.withArrays_of_ne _ c (V0 m c) _ main_v3 (by exact (by decide : ∀ w, Pipeline.arrRef spec0 w ≠ main_v3))]
  show (V m c main_v3 : S8x512.Idx → BitVec 1) = _
  dsimp only [V, V0]
  simp only [hostOps0, hostOps0_1, hostOps0_2, hostOps0_3, hostOps0_4, List.flatten_cons, List.flatten_nil, List.append_nil, List.cons_append, List.nil_append]
  after_results
  rfl

end Cert.KernelIdeal.KTail

end
-- ==== Proof.KRun.lean ====
/-
  The kernel program's run, read: every weakly fair execution ends with the result buffer at the loss computed from
  the column function `KOut.G` (row by row the streaming result over all 50 tiles) and the mask of the targets, and with
  the four argument arrays unchanged.
-/
import proofs.«123221_j46720654246580_2_alg».proof.Proof.KOut
import proofs.«123221_j46720654246580_2_alg».proof.Proof.KTail

set_option maxRecDepth 16384

noncomputable section

namespace Cert.KernelIdeal.KRun

open Idealize.ShloMosaic Idealize.ShloMosaic.TcCoe Idealize.ShloMosaic.Tactic
open Idealize.SL Idealize.SL.Sem Cert.KernelIdeal Cert.KernelIdeal.Gen

variable (m : (ℓ : Loc nD τ sig) → Buf (Elt Ideal) ℓ) (ρ : Dev nD → PrngReg)

/-- The result buffer after the closing stretch is the loss of the column function and the mask. -/
theorem result_eq (c : Dev nD) :
    (Pipeline.afterTail₀ cfgs (dats m) 0 (V0 m) [hostOps1, hostOps1_1, hostOps1_2] c main_v30 : S_.Idx → EReal)
      = KTail.lossOf (KOut.G m c) (KTail.maskOf (m ((c : Thread nD τ).loc main_arg2))) := by
  rw [KTail.tail_eq m c, KTail.out_buf m c, KTail.mask_buf m c, KOut.final m c]

theorem run : θ_run (defs (F := Ideal)) (onTc (τ := τ) (main (F := Ideal))) ⟨m, fun _ => 0, ρ⟩ (fun r => ∀ c : Dev nD,
      r.2.mem ((c : Thread nD τ).loc main_v30) = KTail.lossOf (KOut.G m c) (KTail.maskOf (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).2 main_v30 (Pipeline.mem_restRefs_of main_v30 (by decide) (by decide))).trans (result_eq m c),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KRun

end
-- ==== Proof.KPrefix.lean ====
/-
  The arrays a pipelined call reads, as they stand when the call begins: each is the result of a few whole-array
  operations applied to the launch arrays, and is read here at one index.

  • The activations [8, 512, 2048] are flattened to [4096, 2048] (row b·512 + s is row s of batch member b) and then
    narrowed in float format, which on extended reals is the identity.
  • The bias [32000] is stood up as a row [1, 32000].
  • The labels [8, 512] have the ignore value −100 replaced by 0, are clamped to [0, 31999] in signed order, and are
    flattened to [4096].  A label already in [0, 32000) passes through all three steps unchanged; the ignore value
    comes out as 0.
-/
import proofs.«123221_j46720654246580_2_alg».proof.Proof.Gen.KernelIdeal.Frame
import proofs.«123221_j46720654246580_2_alg».proof.Proof.LibLayout
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KIn

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-! ## The arrays as whole terms of the launch arrays -/

set_option maxHeartbeats 400000 in
/-- The activations: the launch array flattened over its first two axes (the narrowing of the float format is the
    identity on extended reals). -/
theorem V_v1_eq : (V m c main_v1 : S4096x2048.Idx → EReal)
    = truncf (F := Ideal) .bf16 (shapeCast S4096x2048 (m ((c : Thread nD τ).loc main_arg1) : S8x512x2048.Idx → EReal) shapeCasts_S8x512x2048_S4096x2048) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 400000 in
/-- The bias: the launch vector as a one-row matrix. -/
theorem V_v7_eq : (V m c main_v7 : S1x32000.Idx → EReal)
    = shapeCast S1x32000 (m ((c : Thread nD τ).loc main_arg3) : S32000.Idx → EReal) shapeCasts_S32000_S1x32000 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 800000 in
/-- The labels: the ignore value replaced by zero, the result clamped to the vocabulary's range, flattened. -/
theorem V_v6_eq : (V m c main_v6 : S4096.Idx → BitVec 32)
    = shapeCast S4096
        (minsi (broadcastInDim S8x512 ![] bcast_S_S8x512 (constantI S_ 32 31999#32))
          (maxsi (broadcastInDim S8x512 ![] bcast_S_S8x512 (constantI S_ 32 0#32))
            (select (cmpi .ne (m ((c : Thread nD τ).loc main_arg2) : IVec S8x512 32) (broadcastInDim S8x512 ![] bcast_S_S8x512 (constantI S_ 32 4294967196#32)))
              (m ((c : Thread nD τ).loc main_arg2) : IVec S8x512 32) (broadcastInDim S8x512 ![] bcast_S_S8x512 (constantI S_ 32 0#32)))))
        shapeCasts_S8x512_S4096 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## Read at an index -/

/-- Row b·512 + s of the flattened activations is row s of batch member b. -/
theorem V_v1_apply (b : Fin 8) (s : Fin 512) (h : Fin 2048) :
    (V m c main_v1 : S4096x2048.Idx → EReal) (ix2 ⟨b.val * 512 + s.val, by have := b.isLt; have := s.isLt; omega⟩ h)
      = (m ((c : Thread nD τ).loc main_arg1) : S8x512x2048.Idx → EReal) (ix3 b s h) := by
  rw [V_v1_eq]
  exact Cert.LibLayout.shapeCast_abc_mc_apply _ _ _ b s h rfl

/-- Entry v of the bias row is entry v of the bias vector. -/
theorem V_v7_apply (v : Fin 32000) :
    (V m c main_v7 : S1x32000.Idx → EReal) (ix2 (0 : Fin 1) v)
      = (m ((c : Thread nD τ).loc main_arg3) : S32000.Idx → EReal) (ix1 v) := by
  rw [V_v7_eq]
  exact shapeCast_a_1a_apply _ _ (0 : Fin 1) v

/-! ## The labels, word by word -/

/-- A 32-bit word below 32000 read as a signed integer is its value. -/
theorem toInt_of_lt (w : BitVec 32) (h : w.toNat < 32000) : w.toInt = (w.toNat : Int) := by
  rw [BitVec.toInt_eq_toNat_cond, if_pos (by omega)]

/-- A label in the vocabulary's range passes the three steps unchanged: it is not the ignore value, it is not
    negative, and it is at most 31999. -/
theorem clip_inrange (w : BitVec 32) (h : w.toNat < 32000) :
    IntOp.minsi 31999#32 (IntOp.maxsi 0#32 (Scalar.select (IntOp.cmpi .ne w 4294967196#32) w 0#32)) = w := by
  have hne : IntOp.cmpi .ne w 4294967196#32 = 1#1 := by
    have : w ≠ 4294967196#32 := fun e => by rw [e] at h; exact absurd h (by decide)
    show BitVec.ofBool (w != 4294967196#32) = 1#1
    rw [bne_iff_ne.mpr this]; rfl
  rw [hne, select_one]
  have h0 : BitVec.slt w 0#32 = false := by
    unfold BitVec.slt
    rw [toInt_of_lt w h]
    exact decide_eq_false (by simp)
  have h1 : BitVec.slt 31999#32 w = false := by
    unfold BitVec.slt
    rw [toInt_of_lt w h]
    exact decide_eq_false (by
      show ¬ ((31999#32 : BitVec 32).toInt < (w.toNat : Int))
      rw [show (31999#32 : BitVec 32).toInt = 31999 from by decide]
      omega)
  have e1 : IntOp.maxsi 0#32 w = w := by unfold IntOp.maxsi; rw [h0]; rfl
  have e2 : IntOp.minsi 31999#32 w = w := by unfold IntOp.minsi; rw [h1]; rfl
  rw [e1, e2]

/-- The ignore value is replaced by zero, which the clamp keeps. -/
theorem clip_ignored :
    IntOp.minsi 31999#32 (IntOp.maxsi 0#32 (Scalar.select (IntOp.cmpi .ne 4294967196#32 4294967196#32) 4294967196#32 0#32)) = 0#32 := by
  decide

/-- The flattened labels at row b·512 + s: the three steps applied to the launch label at (b, s). -/
theorem V_v6_read (b : Fin 8) (s : Fin 512) :
    (V m c main_v6 : S4096.Idx → BitVec 32) (ix1 ⟨b.val * 512 + s.val, by have := b.isLt; have := s.isLt; omega⟩)
      = IntOp.minsi 31999#32 (IntOp.maxsi 0#32 (Scalar.select
          (IntOp.cmpi .ne ((m ((c : Thread nD τ).loc main_arg2) : S8x512.Idx → BitVec 32) (ix2 b s)) 4294967196#32)
          ((m ((c : Thread nD τ).loc main_arg2) : S8x512.Idx → BitVec 32) (ix2 b s)) 0#32)) := by
  rw [V_v6_eq]
  refine (shapeCast_apply _ _ _ (ix2 b s) ?_).trans rfl
  rw [Shape.rowMajor_val_two, Shape.rowMajor_val_one]
  rfl

/-- A label in [0, 32000) is found unchanged. -/
theorem V_v6_inrange (b : Fin 8) (s : Fin 512)
    (hT : ((m ((c : Thread nD τ).loc main_arg2) : S8x512.Idx → BitVec 32) (ix2 b s)).toNat < 32000) :
    (V m c main_v6 : S4096.Idx → BitVec 32) (ix1 ⟨b.val * 512 + s.val, by have := b.isLt; have := s.isLt; omega⟩)
      = (m ((c : Thread nD τ).loc main_arg2) : S8x512.Idx → BitVec 32) (ix2 b s) := by
  rw [V_v6_read, clip_inrange _ hT]

/-- The ignore value −100 is found as 0. -/
theorem V_v6_ignored (b : Fin 8) (s : Fin 512)
    (hT : (m ((c : Thread nD τ).loc main_arg2) : S8x512.Idx → BitVec 32) (ix2 b s) = 4294967196#32) :
    (V m c main_v6 : S4096.Idx → BitVec 32) (ix1 ⟨b.val * 512 + s.val, by have := b.isLt; have := s.isLt; omega⟩) = 0#32 := by
  rw [V_v6_read, hT, clip_ignored]

end Cert.KernelIdeal.KIn

end
-- ==== Proof.KBlocks.lean ====
/-
  The input blocks of a pipelined call over a 2 × 50 grid, read at an index.  Point t of the grid has row half
  t / 50 and column tile t % 50; every block is the restriction of its array to a rectangle whose offset on each axis
  is the block index times the block size:

  • activations: rows (t / 50)·2048 + p of the flattened [4096, 2048] array, all 2048 columns;
  • weights: rows (t % 50)·640 + k of the [32000, 2048] launch array, all 2048 columns;
  • bias: entries (t % 50)·640 + k of the bias vector (through its one-row form);
  • labels: entries (t / 50)·2048 + p of the flattened labels.
-/
import proofs.«123221_j46720654246580_2_alg».proof.Proof.KPrefix

noncomputable section

namespace Cert.KernelIdeal.KIn

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-- The index maps over the grid: the row half is the point's quotient by 50, the column tile its remainder. -/
theorem idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = 0 ∧ win0_2.index t (1 : Fin 2) = t.val % 50
    ∧ win0_3.index t (0 : Fin 1) = t.val / 50 :=
  (by decide +kernel : ∀ t : Fin grid0.N, _)

/-- The grid has 100 points. -/
theorem t_lt (t : Fin cfg0.N) : t.val < 100 := Nat.lt_of_lt_of_eq t.isLt N_0

/-- The activations' block: row p of the block is row (t / 50)·2048 + p of the flattened activations. -/
theorem iblk0_apply (t : Fin cfg0.N) (p : Fin 2048) (h : Fin 2048) :
    (iblk m c 0 t : Vec Ideal S2048x2048 .bf16) (ix2 p h)
      = (V m c main_v1 : S4096x2048.Idx → EReal) (ix2 ⟨(t.val / 50) * 2048 + p.val, by have := t_lt t; have := p.isLt; omega⟩ h) := by
  obtain ⟨e0, e1, -, -, -, -, -⟩ := idx_facts t
  show V m c main_v1 (((cfg0.win 0).blk t).view.emb (ix2 p h)) = V m c main_v1 _
  refine congrArg _ (funext fun a => Fin.ext ?_)
  match a with
  | ⟨0, _⟩ => show win0_0.index t (0 : Fin 2) * 2048 + 1 * p.val = (t.val / 50) * 2048 + p.val; rw [e0]; omega
  | ⟨1, _⟩ => show win0_0.index t (1 : Fin 2) * 2048 + 1 * h.val = h.val; rw [e1]; omega

/-- The weights' block: row k of the block is row (t % 50)·640 + k of the weight matrix. -/
theorem iblk1_apply (t : Fin cfg0.N) (k : Fin 640) (h : Fin 2048) :
    (iblk m c 1 t : Vec Ideal S640x2048 .f32) (ix2 k h)
      = (m ((c : Thread nD τ).loc main_arg0) : S32000x2048.Idx → EReal) (ix2 ⟨(t.val % 50) * 640 + k.val, by have := k.isLt; omega⟩ h) := by
  obtain ⟨-, -, e0, e1, -, -, -⟩ := idx_facts t
  rw [← V_main_arg0 m c]
  show V m c main_arg0 (((cfg0.win 1).blk t).view.emb (ix2 k h)) = V m c main_arg0 _
  refine congrArg _ (funext fun a => Fin.ext ?_)
  match a with
  | ⟨0, _⟩ => show win0_1.index t (0 : Fin 2) * 640 + 1 * k.val = (t.val % 50) * 640 + k.val; rw [e0]; omega
  | ⟨1, _⟩ => show win0_1.index t (1 : Fin 2) * 2048 + 1 * h.val = h.val; rw [e1]; omega

/-- The bias block inside the one-row form of the bias. -/
theorem iblk2_V (t : Fin cfg0.N) (k : Fin 640) :
    (iblk m c 2 t : Vec Ideal S1x640 .f32) (ix2 (0 : Fin 1) k)
      = (V m c main_v7 : S1x32000.Idx → EReal) (ix2 (0 : Fin 1) ⟨(t.val % 50) * 640 + k.val, by have := k.isLt; omega⟩) := by
  obtain ⟨-, -, -, -, e0, e1, -⟩ := idx_facts t
  show V m c main_v7 (((cfg0.win 2).blk t).view.emb (ix2 (0 : Fin 1) k)) = V m c main_v7 _
  refine congrArg _ (funext fun a => Fin.ext ?_)
  match a with
  | ⟨0, _⟩ => show win0_2.index t (0 : Fin 2) * 1 + 1 * 0 = 0; rw [e0]
  | ⟨1, _⟩ => show win0_2.index t (1 : Fin 2) * 640 + 1 * k.val = (t.val % 50) * 640 + k.val; rw [e1]; omega

/-- The bias block: entry k of the block is entry (t % 50)·640 + k of the bias vector. -/
theorem iblk2_apply (t : Fin cfg0.N) (k : Fin 640) :
    (iblk m c 2 t : Vec Ideal S1x640 .f32) (ix2 (0 : Fin 1) k)
      = (m ((c : Thread nD τ).loc main_arg3) : S32000.Idx → EReal) (ix1 ⟨(t.val % 50) * 640 + k.val, by have := k.isLt; omega⟩) :=
  (iblk2_V m c t k).trans (V_v7_apply m c _)

/-- The labels' block: entry p of the block is entry (t / 50)·2048 + p of the flattened labels. -/
theorem iblk3_apply (t : Fin cfg0.N) (p : Fin 2048) :
    (iblk m c 3 t : Vec Ideal S2048 .i32) (ix1 p)
      = (V m c main_v6 : S4096.Idx → BitVec 32) (ix1 ⟨(t.val / 50) * 2048 + p.val, by have := t_lt t; have := p.isLt; omega⟩) := by
  obtain ⟨-, -, -, -, -, -, e0⟩ := idx_facts t
  show V m c main_v6 (((cfg0.win 3).blk t).view.emb (ix1 p)) = V m c main_v6 _
  refine congrArg _ (funext fun a => Fin.ext ?_)
  match a with
  | ⟨0, _⟩ => show win0_3.index t (0 : Fin 1) * 2048 + 1 * p.val = (t.val / 50) * 2048 + p.val; rw [e0]; omega

end Cert.KernelIdeal.KIn

end
-- ==== Proof.LibOnlineSoftmax.lean ====
/-
  The streaming ("online") softmax equals the plain softmax.

  A row of `n * b` real scores is read in `n` consecutive tiles of width `b`, with a real value attached to
  each score. The streaming form keeps a running maximum `m` (an extended real, `⊥` before the first tile), a
  running normaliser `l` and a running weighted sum `a`; at each tile the maximum is raised to cover the tile,
  `l` and `a` are rescaled by `exp (m_old - m_new)` and the tile's terms `exp (s - m_new)` are added. After
  `n ≥ 1` tiles of width `b ≥ 1` the quotient `a / l` is the plain softmax-weighted sum of the values over the
  whole row, the plain form subtracting the whole row's maximum. Everything is stated over the extended reals with
  the extended exponential (`exp ⊥ = 0`) and division; the inputs are real.

  Contents:
  * `coe_sum`: the cast of a finite real sum is the sum of the casts;
  * `exists_greatest`, `fold_max_coe_eq`: the fold of `max` from `⊥` over casts of reals is the cast of the
    greatest attained value;
  * `sum_tiles_nat`: a sum over `Fin (n * b)` cut into `n` tiles of width `b`;
  * `run`, `run_real`: the streaming state, and its closed form in the reals after at least one tile;
  * `softmax_real`: the plain form as one real quotient;
  * `flash_eq_softmax`: the two agree.
-/
import Idealize.ShloMosaic.PureOps.Ideal

noncomputable section

namespace Cert.Lib.OnlineSoftmax

open Idealize.ShloMosaic

/-! ### Casts of finite real sums -/

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of the larger of two reals is the larger of the casts. -/
theorem coe_max (x y : ℝ) : ((max x y : ℝ) : EReal) = max (x : EReal) (y : EReal) :=
  EReal.coe_strictMono.monotone.map_max

/-- A sum of extended exponentials of real differences is the cast of the real sum. -/
theorem sum_exp_coe {ι : Type*} [Fintype ι] (t : ι → ℝ) (M : ℝ) :
    ∑ k, Ideal.exp ((t k : EReal) - (M : EReal)) = ((∑ k, Real.exp (t k - M) : ℝ) : EReal) := by
  rw [coe_sum]
  refine Finset.sum_congr rfl fun k _ => ?_
  rw [← EReal.coe_sub, Ideal.exp_coe]

/-- The same with a real weight on each term. -/
theorem sum_exp_mul_coe {ι : Type*} [Fintype ι] (t u : ι → ℝ) (M : ℝ) :
    ∑ k, Ideal.exp ((t k : EReal) - (M : EReal)) * (u k : EReal)
      = ((∑ k, Real.exp (t k - M) * u k : ℝ) : EReal) := by
  rw [coe_sum]
  refine Finset.sum_congr rfl fun k _ => ?_
  rw [← EReal.coe_sub, Ideal.exp_coe, ← EReal.coe_mul]

/-! ### The greatest value of finitely many reals -/

/-- Finitely many reals, at least one, have a greatest value, and it is attained. -/
theorem exists_greatest {ι : Type*} [Fintype ι] [Nonempty ι] (f : ι → ℝ) :
    ∃ M : ℝ, (∀ k, f k ≤ M) ∧ ∃ k, f k = M := by
  obtain ⟨k0, -, hk0⟩ := Finset.exists_max_image Finset.univ f Finset.univ_nonempty
  exact ⟨f k0, fun k => hk0 k (Finset.mem_univ k), k0, rfl⟩

/-- The fold of `max` from `⊥` over the casts of finitely many reals is the cast of their greatest value. -/
theorem fold_max_coe_eq {ι : Type*} [Fintype ι] (f : ι → ℝ) (M : ℝ)
    (hle : ∀ k, f k ≤ M) (hex : ∃ k, f k = M) :
    Finset.univ.fold max ⊥ (fun k => (f k : EReal)) = (M : EReal) := by
  apply le_antisymm
  · rw [Finset.fold_max_le]
    exact ⟨bot_le, fun k _ => EReal.coe_le_coe_iff.mpr (hle k)⟩
  · rw [Finset.le_fold_max]
    obtain ⟨k, hk⟩ := hex
    exact Or.inr ⟨k, Finset.mem_univ k, by rw [hk]⟩

/-! ### A row cut into tiles -/

/-- A sum over the first `n * b` naturals is the sum over `n` tiles of the sums over each tile's `b` elements. -/
theorem sum_range_tiles {A : Type*} [AddCommMonoid A] (n b : ℕ) (g : ℕ → A) :
    ∑ i ∈ Finset.range (n * b), g i = ∑ i ∈ Finset.range n, ∑ k ∈ Finset.range b, g (i * b + k) := by
  induction n with
  | zero => simp
  | succ n ih => rw [Nat.succ_mul, Finset.sum_range_add, ih, Finset.sum_range_succ]

/-- The same with the row indexed by `Fin (n * b)` and each tile by `Fin b`. -/
theorem sum_tiles_nat {A : Type*} [AddCommMonoid A] (n b : ℕ) (g : ℕ → A) :
    ∑ i : Fin (n * b), g i.val = ∑ i ∈ Finset.range n, ∑ k : Fin b, g (i * b + k.val) := by
  rw [← Finset.sum_range (fun i => g i), sum_range_tiles]
  refine Finset.sum_congr rfl fun i _ => ?_
  rw [Finset.sum_range (fun k => g (i * b + k))]

/-! ### The streaming state -/

/-- The streaming state after j tiles: (running maximum, running normaliser, running weighted sum). -/
def run {b : ℕ} (s v : ℕ → Fin b → ℝ) : ℕ → EReal × EReal × EReal
  | 0 => (⊥, 0, 0)
  | j + 1 =>
    let st := run s v j
    let m' : EReal := max st.1 (Finset.univ.fold max ⊥ fun k => (s j k : EReal))
    let α : EReal := Ideal.exp (st.1 - m')
    (m', α * st.2.1 + ∑ k, Ideal.exp ((s j k : EReal) - m'),
         α * st.2.2 + ∑ k, Ideal.exp ((s j k : EReal) - m') * (v j k : EReal))

theorem run_zero {b : ℕ} (s v : ℕ → Fin b → ℝ) : run s v 0 = (⊥, 0, 0) := rfl

/-- The running maximum after one more tile. -/
theorem run_succ_max {b : ℕ} (s v : ℕ → Fin b → ℝ) (j : ℕ) :
    (run s v (j + 1)).1 = max (run s v j).1 (Finset.univ.fold max ⊥ fun k => (s j k : EReal)) := rfl

/-- The running normaliser after one more tile. -/
theorem run_succ_norm {b : ℕ} (s v : ℕ → Fin b → ℝ) (j : ℕ) :
    (run s v (j + 1)).2.1 =
      Ideal.exp ((run s v j).1 - (run s v (j + 1)).1) * (run s v j).2.1
        + ∑ k, Ideal.exp ((s j k : EReal) - (run s v (j + 1)).1) := rfl

/-- The running weighted sum after one more tile. -/
theorem run_succ_acc {b : ℕ} (s v : ℕ → Fin b → ℝ) (j : ℕ) :
    (run s v (j + 1)).2.2 =
      Ideal.exp ((run s v j).1 - (run s v (j + 1)).1) * (run s v j).2.2
        + ∑ k, Ideal.exp ((s j k : EReal) - (run s v (j + 1)).1) * (v j k : EReal) := rfl

/-- Raising the subtracted maximum from `M` to `M'` rescales the sum by `exp (M - M')`; with the next tile's
    terms added this is the sum over one more tile. -/
theorem rescale_sum {b : ℕ} (s c : ℕ → Fin b → ℝ) (j : ℕ) (M M' : ℝ) :
    Real.exp (M - M') * (∑ i ∈ Finset.range j, ∑ k, Real.exp (s i k - M) * c i k)
        + ∑ k, Real.exp (s j k - M') * c j k
      = ∑ i ∈ Finset.range (j + 1), ∑ k, Real.exp (s i k - M') * c i k := by
  rw [Finset.sum_range_succ, Finset.mul_sum]
  congr 1
  refine Finset.sum_congr rfl fun i _ => ?_
  rw [Finset.mul_sum]
  refine Finset.sum_congr rfl fun k _ => ?_
  rw [← mul_assoc, ← Real.exp_add]
  congr 2
  ring

/-- The same without weights. -/
theorem rescale_sum_one {b : ℕ} (s : ℕ → Fin b → ℝ) (j : ℕ) (M M' : ℝ) :
    Real.exp (M - M') * (∑ i ∈ Finset.range j, ∑ k, Real.exp (s i k - M))
        + ∑ k, Real.exp (s j k - M')
      = ∑ i ∈ Finset.range (j + 1), ∑ k, Real.exp (s i k - M') := by
  simpa using rescale_sum s (fun _ _ => 1) j M M'

/-- After at least one tile of positive width the streaming state is real: the running maximum is the greatest score
    read so far, and the normaliser and the weighted sum are the sums, over all scores read so far, of
    `exp (score - maximum)` and of that times the value. -/
theorem run_real {b : ℕ} (hb : 0 < b) (s v : ℕ → Fin b → ℝ) (j : ℕ) (hj : 0 < j) :
    ∃ M : ℝ, (run s v j).1 = (M : EReal) ∧ (∀ i < j, ∀ k, s i k ≤ M) ∧ (∃ i < j, ∃ k, s i k = M) ∧
      (run s v j).2.1 = ((∑ i ∈ Finset.range j, ∑ k, Real.exp (s i k - M) : ℝ) : EReal) ∧
      (run s v j).2.2 = ((∑ i ∈ Finset.range j, ∑ k, Real.exp (s i k - M) * v i k : ℝ) : EReal) := by
  haveI : Nonempty (Fin b) := ⟨⟨0, hb⟩⟩
  obtain ⟨j, rfl⟩ : ∃ j', j = j' + 1 := ⟨j - 1, by omega⟩
  clear hj
  induction j with
  | zero =>
    obtain ⟨Mt, hMle, hMex⟩ := exists_greatest (s 0)
    have hfold := fold_max_coe_eq (s 0) Mt hMle hMex
    have hm : (run s v (0 + 1)).1 = (Mt : EReal) := by
      rw [run_succ_max, run_zero, hfold]
      exact max_eq_right bot_le
    refine ⟨Mt, hm, ?_, ?_, ?_, ?_⟩
    · intro i hi k
      obtain rfl : i = 0 := by omega
      exact hMle k
    · obtain ⟨k, hk⟩ := hMex
      exact ⟨0, by omega, k, hk⟩
    · rw [run_succ_norm, hm, run_zero]
      show Ideal.exp (⊥ - (Mt : EReal)) * 0 + _ = _
      rw [mul_zero, zero_add, sum_exp_coe, Finset.sum_range_one]
    · rw [run_succ_acc, hm, run_zero]
      show Ideal.exp (⊥ - (Mt : EReal)) * 0 + _ = _
      rw [mul_zero, zero_add, sum_exp_mul_coe, Finset.sum_range_one]
  | succ j ih =>
    obtain ⟨M, h1, hle, hex, h2, h3⟩ := ih
    obtain ⟨Mt, hMle, hMex⟩ := exists_greatest (s (j + 1))
    have hfold := fold_max_coe_eq (s (j + 1)) Mt hMle hMex
    have hm : (run s v (j + 1 + 1)).1 = ((max M Mt : ℝ) : EReal) := by
      rw [run_succ_max, h1, hfold, coe_max]
    refine ⟨max M Mt, hm, ?_, ?_, ?_, ?_⟩
    · intro i hi k
      rcases Nat.lt_succ_iff_lt_or_eq.mp hi with h | rfl
      · exact (hle i h k).trans (le_max_left _ _)
      · exact (hMle k).trans (le_max_right _ _)
    · rcases le_total M Mt with h | h
      · obtain ⟨k, hk⟩ := hMex
        exact ⟨j + 1, by omega, k, by rw [hk, max_eq_right h]⟩
      · obtain ⟨i, hi, k, hk⟩ := hex
        exact ⟨i, by omega, k, by rw [hk, max_eq_left h]⟩
    · rw [run_succ_norm, hm, h1, h2, ← EReal.coe_sub, Ideal.exp_coe, ← EReal.coe_mul, sum_exp_coe,
        ← EReal.coe_add, rescale_sum_one]
    · rw [run_succ_acc, hm, h1, h3, ← EReal.coe_sub, Ideal.exp_coe, ← EReal.coe_mul, sum_exp_mul_coe,
        ← EReal.coe_add, rescale_sum]

/-! ### The plain form -/

/-- The plain softmax-weighted sum over `N` real scores, `M` their greatest value, is one real quotient. -/
theorem softmax_real {N : ℕ} (x w : Fin N → ℝ) (M : ℝ) (hle : ∀ i, x i ≤ M) (hex : ∃ i, x i = M) :
    (∑ i : Fin N,
        Ideal.div (Ideal.exp ((x i : EReal) - max ⊥ (Finset.univ.fold max ⊥ fun i' : Fin N => (x i' : EReal))))
                  (0 + ∑ i' : Fin N, Ideal.exp ((x i' : EReal)
                      - max ⊥ (Finset.univ.fold max ⊥ fun i'' : Fin N => (x i'' : EReal))))
          * (w i : EReal))
      = (((∑ i, Real.exp (x i - M) * w i) / (∑ i, Real.exp (x i - M)) : ℝ) : EReal) := by
  haveI : Nonempty (Fin N) := let ⟨i, _⟩ := hex; ⟨i⟩
  have hmax : max ⊥ (Finset.univ.fold max ⊥ fun i' : Fin N => (x i' : EReal)) = (M : EReal) := by
    rw [fold_max_coe_eq x M hle hex]
    exact max_eq_right bot_le
  have hL : 0 < ∑ i, Real.exp (x i - M) :=
    Finset.sum_pos (fun i _ => Real.exp_pos _) Finset.univ_nonempty
  rw [hmax, Finset.sum_div, coe_sum, sum_exp_coe, zero_add]
  refine Finset.sum_congr rfl fun i _ => ?_
  rw [Ideal.div_coe hL.ne', ← EReal.coe_sub, Ideal.exp_coe, ← EReal.coe_mul, ← EReal.coe_mul]
  congr 1
  ring

/-! ### The two forms agree -/

/-- After `n ≥ 1` tiles of width `b ≥ 1` the streaming quotient is the plain softmax-weighted sum over the row. -/
theorem flash_eq_softmax (n b : ℕ) (hn : 0 < n) (hb : 0 < b) (x w : ℕ → ℝ) :
    Ideal.div (run (fun j (k : Fin b) => x (j * b + k.val)) (fun j (k : Fin b) => w (j * b + k.val)) n).2.2
              (run (fun j (k : Fin b) => x (j * b + k.val)) (fun j (k : Fin b) => w (j * b + k.val)) n).2.1
      = ∑ i : Fin (n * b),
          Ideal.div (Ideal.exp ((x i.val : EReal) - max ⊥ (Finset.univ.fold max ⊥ fun i' : Fin (n * b) => (x i'.val : EReal))))
                    (0 + ∑ i' : Fin (n * b), Ideal.exp ((x i'.val : EReal) - max ⊥ (Finset.univ.fold max ⊥ fun i'' : Fin (n * b) => (x i''.val : EReal))))
            * (w i.val : EReal) := by
  obtain ⟨M, -, hle, hex, h2, h3⟩ :=
    run_real hb (fun j (k : Fin b) => x (j * b + k.val)) (fun j (k : Fin b) => w (j * b + k.val)) n hn
  have hle' : ∀ i : Fin (n * b), x i.val ≤ M := by
    intro i
    have hi : i.val / b < n := Nat.div_lt_of_lt_mul (lt_of_lt_of_eq i.isLt (Nat.mul_comm n b))
    have h := hle (i.val / b) hi ⟨i.val % b, Nat.mod_lt _ hb⟩
    simpa [Nat.div_add_mod'] using h
  have hex' : ∃ i : Fin (n * b), x i.val = M := by
    obtain ⟨i, hi, k, hk⟩ := hex
    have hlt : i * b + k.val < n * b :=
      calc i * b + k.val < i * b + b := Nat.add_lt_add_left k.isLt _
        _ = (i + 1) * b := (Nat.succ_mul _ _).symm
        _ ≤ n * b := Nat.mul_le_mul_right b hi
    exact ⟨⟨i * b + k.val, hlt⟩, hk⟩
  have hL : 0 < ∑ i ∈ Finset.range n, ∑ k : Fin b, Real.exp (x (i * b + k.val) - M) := by
    haveI : Nonempty (Fin b) := ⟨⟨0, hb⟩⟩
    exact Finset.sum_pos (fun i _ => Finset.sum_pos (fun k _ => Real.exp_pos _) Finset.univ_nonempty)
      (Finset.nonempty_range_iff.mpr hn.ne')
  refine Eq.trans ?_ (softmax_real (fun i : Fin (n * b) => x i.val) (fun i => w i.val) M hle' hex').symm
  rw [h2, h3, Ideal.div_coe hL.ne', ← EReal.coe_mul,
    sum_tiles_nat n b (fun i => Real.exp (x i - M) * w i), sum_tiles_nat n b (fun i => Real.exp (x i - M))]
  congr 1
  ring

end Cert.Lib.OnlineSoftmax

end
-- ==== Proof.SoftmaxLaw.lean ====
/-
  The streaming log-softmax of a row read in 50 tiles of 640 equals the plain log-softmax of the row.

  For a row of 32000 real scores x and a label column ℓ < 32000, the streaming pass keeps a running maximum m, a
  running normaliser l and the label's score t. After the 50 tiles, m is the greatest score M of the row, l is the
  real sum Σ exp (x v − M) over the whole row (positive, so its logarithm is the real logarithm), and t is x ℓ
  (every other column contributes ⊥ to a maximum, and ℓ lies in one of the 50 tiles). So the streaming answer
  t − (m + log l) and the plain answer (x ℓ − M) − log (0 + Σ exp (x v − M)) are casts of two real numbers that
  differ only by the bracketing a − (M + L) = (a − M) − L.
-/
import Idealize.ShloMosaic.PureOps.Ideal
import proofs.«123221_j46720654246580_2_alg».proof.Proof.Spec
import proofs.«123221_j46720654246580_2_alg».proof.Proof.LibOnlineSoftmax

noncomputable section

namespace Cert.SoftmaxLaw

open Idealize.ShloMosaic Cert.Spec Cert.Lib.OnlineSoftmax

/-- The running maximum and the running normaliser of the three-number streaming state are those of the
    two-accumulator streaming state on the same real scores, whatever the weights and the label flags. -/
theorem tileRun_eq_run (s v : ℕ → Fin 640 → ℝ) (hit : ℕ → Fin 640 → Bool) (j : ℕ) :
    (tileRun (fun j k => ((s j k : ℝ) : EReal)) hit j).1 = (run s v j).1 ∧
    (tileRun (fun j k => ((s j k : ℝ) : EReal)) hit j).2.1 = (run s v j).2.1 := by
  induction j with
  | zero => exact ⟨rfl, rfl⟩
  | succ j ih =>
    obtain ⟨ih1, ih2⟩ := ih
    have hm : (tileRun (fun j k => ((s j k : ℝ) : EReal)) hit (j + 1)).1 = (run s v (j + 1)).1 := by
      rw [run_succ_max, ← ih1]
      rfl
    refine ⟨hm, ?_⟩
    rw [run_succ_norm, ← hm, ← ih1, ← ih2]
    rfl

/-- One tile's contribution to the label's score: the label's score if the label's column lies in the tile, and
    ⊥ otherwise. -/
theorem fold_hit (x : ℕ → ℝ) (ℓ j : ℕ) :
    Finset.univ.fold max ⊥
        (fun k : Fin 640 => if decide (j * 640 + k.val = ℓ) then ((x (j * 640 + k.val) : ℝ) : EReal) else ⊥)
      = if j * 640 ≤ ℓ ∧ ℓ < (j + 1) * 640 then ((x ℓ : ℝ) : EReal) else ⊥ := by
  by_cases h : j * 640 ≤ ℓ ∧ ℓ < (j + 1) * 640
  · rw [if_pos h]
    apply le_antisymm
    · rw [Finset.fold_max_le]
      refine ⟨bot_le, fun k _ => ?_⟩
      by_cases hk : j * 640 + k.val = ℓ
      · rw [if_pos (decide_eq_true hk), hk]
      · rw [if_neg (by simpa using hk)]
        exact bot_le
    · rw [Finset.le_fold_max]
      have hk : j * 640 + (ℓ - j * 640) = ℓ := by omega
      refine Or.inr ⟨⟨ℓ - j * 640, by omega⟩, Finset.mem_univ _, ?_⟩
      show ((x ℓ : ℝ) : EReal)
        ≤ if decide (j * 640 + (ℓ - j * 640) = ℓ) then ((x (j * 640 + (ℓ - j * 640)) : ℝ) : EReal) else ⊥
      rw [if_pos (decide_eq_true hk), hk]
  · rw [if_neg h]
    apply le_antisymm _ bot_le
    rw [Finset.fold_max_le]
    refine ⟨le_refl _, fun k _ => ?_⟩
    have hk : ¬ j * 640 + k.val = ℓ := by
      intro hk
      have := k.isLt
      exact h ⟨by omega, by omega⟩
    rw [if_neg (by simpa using hk)]

/-- The label's score after j tiles: the label's score once the label's column has been read, ⊥ before. -/
theorem tileRun_label (x : ℕ → ℝ) (ℓ j : ℕ) :
    (tileRun (fun j k => ((x (j * 640 + k.val) : ℝ) : EReal)) (fun j k => decide (j * 640 + k.val = ℓ)) j).2.2
      = if ℓ < j * 640 then ((x ℓ : ℝ) : EReal) else ⊥ := by
  induction j with
  | zero =>
    rw [tileRun_zero, if_neg (by omega)]
  | succ j ih =>
    rw [tileRun_succ]
    show max (tileRun (fun j k => ((x (j * 640 + k.val) : ℝ) : EReal))
          (fun j k => decide (j * 640 + k.val = ℓ)) j).2.2
        (Finset.univ.fold max ⊥
          (fun k : Fin 640 => if decide (j * 640 + k.val = ℓ) then ((x (j * 640 + k.val) : ℝ) : EReal) else ⊥))
      = _
    rw [ih, fold_hit]
    by_cases h1 : ℓ < j * 640
    · rw [if_pos h1, if_neg (by omega), if_pos (by omega)]
      exact max_eq_left bot_le
    · rw [if_neg h1]
      by_cases h2 : ℓ < (j + 1) * 640
      · rw [if_pos ⟨by omega, h2⟩, if_pos h2]
        exact max_eq_right bot_le
      · rw [if_neg (fun h => h2 h.2), if_neg h2]
        exact max_self _

/-- A sum over the 32000 columns of a row, cut into 50 tiles of 640. -/
theorem sum_row {A : Type*} [AddCommMonoid A] (g : ℕ → A) :
    ∑ v : Fin 32000, g v.val = ∑ i ∈ Finset.range 50, ∑ k : Fin 640, g (i * 640 + k.val) := by
  rw [← Finset.sum_range (fun i => g i), show (32000 : ℕ) = 50 * 640 by norm_num, sum_range_tiles]
  refine Finset.sum_congr rfl fun i _ => ?_
  rw [Finset.sum_range (fun k => g (i * 640 + k))]

/-- The streaming log-probability of the label after the 50 tiles is the plain log-softmax of the row at the label. -/
theorem stream_eq_plain (x : ℕ → ℝ) (ℓ : ℕ) (hℓ : ℓ < 32000) :
    streamLogp (tileRun (fun j k => ((x (j * 640 + k.val) : ℝ) : EReal))
        (fun j k => decide (j * 640 + k.val = ℓ)) 50)
      = plainLogp (fun v : Fin 32000 => ((x v.val : ℝ) : EReal)) ⟨ℓ, hℓ⟩ := by
  obtain ⟨M, h1, hle, hex, h2, -⟩ :=
    run_real (b := 640) (by norm_num) (fun j (k : Fin 640) => x (j * 640 + k.val))
      (fun j (k : Fin 640) => x (j * 640 + k.val)) 50 (by norm_num)
  have e1 : (tileRun (fun j k => ((x (j * 640 + k.val) : ℝ) : EReal))
        (fun j k => decide (j * 640 + k.val = ℓ)) 50).1 = (M : EReal) :=
    (tileRun_eq_run (fun j (k : Fin 640) => x (j * 640 + k.val)) (fun j (k : Fin 640) => x (j * 640 + k.val))
      (fun j k => decide (j * 640 + k.val = ℓ)) 50).1.trans h1
  have e2 : (tileRun (fun j k => ((x (j * 640 + k.val) : ℝ) : EReal))
        (fun j k => decide (j * 640 + k.val = ℓ)) 50).2.1
      = ((∑ i ∈ Finset.range 50, ∑ k : Fin 640, Real.exp (x (i * 640 + k.val) - M) : ℝ) : EReal) :=
    (tileRun_eq_run (fun j (k : Fin 640) => x (j * 640 + k.val)) (fun j (k : Fin 640) => x (j * 640 + k.val))
      (fun j k => decide (j * 640 + k.val = ℓ)) 50).2.trans h2
  have e3 : (tileRun (fun j k => ((x (j * 640 + k.val) : ℝ) : EReal))
        (fun j k => decide (j * 640 + k.val = ℓ)) 50).2.2 = ((x ℓ : ℝ) : EReal) := by
    rw [tileRun_label, if_pos (by omega)]
  have hle' : ∀ v : Fin 32000, x v.val ≤ M := by
    intro v
    have hv := v.isLt
    have h := hle (v.val / 640) (by omega) ⟨v.val % 640, Nat.mod_lt _ (by norm_num)⟩
    have hdm : v.val / 640 * 640 + v.val % 640 = v.val := Nat.div_add_mod' _ _
    simpa [hdm] using h
  have hex' : ∃ v : Fin 32000, x v.val = M := by
    obtain ⟨i, hi, k, hk⟩ := hex
    have hk' := k.isLt
    exact ⟨⟨i * 640 + k.val, by omega⟩, hk⟩
  have hmax : max ⊥ (Finset.univ.fold max ⊥ fun v : Fin 32000 => ((x v.val : ℝ) : EReal)) = (M : EReal) := by
    rw [fold_max_coe_eq (fun v : Fin 32000 => x v.val) M hle' hex']
    exact max_eq_right bot_le
  have hL : 0 < ∑ i ∈ Finset.range 50, ∑ k : Fin 640, Real.exp (x (i * 640 + k.val) - M) :=
    Finset.sum_pos (fun i _ => Finset.sum_pos (fun k _ => Real.exp_pos _) Finset.univ_nonempty)
      (Finset.nonempty_range_iff.mpr (by norm_num))
  show (tileRun (fun j k => ((x (j * 640 + k.val) : ℝ) : EReal))
        (fun j k => decide (j * 640 + k.val = ℓ)) 50).2.2
      - ((tileRun (fun j k => ((x (j * 640 + k.val) : ℝ) : EReal))
          (fun j k => decide (j * 640 + k.val = ℓ)) 50).1
        + Ideal.log (tileRun (fun j k => ((x (j * 640 + k.val) : ℝ) : EReal))
          (fun j k => decide (j * 640 + k.val = ℓ)) 50).2.1)
    = (((x ℓ : ℝ) : EReal) - max ⊥ (Finset.univ.fold max ⊥ fun v : Fin 32000 => ((x v.val : ℝ) : EReal)))
      - Ideal.log (0 + ∑ v : Fin 32000, Ideal.exp (((x v.val : ℝ) : EReal)
          - max ⊥ (Finset.univ.fold max ⊥ fun v : Fin 32000 => ((x v.val : ℝ) : EReal))))
  rw [e1, e2, e3, hmax, sum_exp_coe (fun v : Fin 32000 => x v.val) M, zero_add,
    sum_row (fun i => Real.exp (x i - M)), Ideal.log_coe, if_neg (not_le.mpr hL),
    ← EReal.coe_add, ← EReal.coe_sub, ← EReal.coe_sub, ← EReal.coe_sub, sub_add_eq_sub_sub]

end Cert.SoftmaxLaw

end
-- ==== Proof.BridgeMath.lean ====
/-
  Small facts joining the streaming pass to the plain form.

  * The streaming state after n tiles depends only on the first n tiles' scores and label tests.
  * A tile's column number j · 640 + k (j < 50, k < 640), computed in 32-bit words, equals a label word ℓ < 32000
    exactly when the numbers are equal: nothing wraps below 2³².
  * A one-bit mask entry read as a float is 1 or 0, and anything times the float of the bit 0 is 0 on the extended
    reals.
-/
import proofs.«123221_j46720654246580_2_alg».proof.Proof.Spec

noncomputable section

namespace Cert.BridgeMath

open Idealize.ShloMosaic Cert.Spec

/-- The state after n tiles depends only on the tiles before n. -/
theorem tileRun_congr (sc sc' : ℕ → Fin 640 → EReal) (hit hit' : ℕ → Fin 640 → Bool) (n : ℕ)
    (h : ∀ j < n, sc j = sc' j ∧ hit j = hit' j) : tileRun sc hit n = tileRun sc' hit' n := by
  induction n with
  | zero => rfl
  | succ n ih =>
    rw [tileRun_succ, tileRun_succ, ih (fun j hj => h j (Nat.lt_succ_of_lt hj)),
      (h n (Nat.lt_succ_self n)).1, (h n (Nat.lt_succ_self n)).2]

/-- The column word of tile j, column k is the word of the number j · 640 + k. -/
theorem col_word (j k : ℕ) : BitVec.ofNat 32 j * 640#32 + BitVec.ofNat 32 k = BitVec.ofNat 32 (j * 640 + k) := by
  apply BitVec.eq_of_toNat_eq
  simp only [BitVec.toNat_add, BitVec.toNat_mul, BitVec.toNat_ofNat]
  norm_num [Nat.add_mod, Nat.mul_mod]

/-- Words of numbers below 2³² are equal exactly when the numbers are. -/
theorem ofNat_inj {a b : ℕ} (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · intro h; rw [h]

/-- A tile's column word equals an in-range label word exactly when the column is the label. -/
theorem col_word_eq (j k ℓ : ℕ) (hj : j < 50) (hk : k < 640) (hℓ : ℓ < 32000) :
    (BitVec.ofNat 32 j * 640#32 + BitVec.ofNat 32 k = BitVec.ofNat 32 ℓ) ↔ j * 640 + k = ℓ := by
  rw [col_word]
  exact ofNat_inj (by norm_num; omega) (by norm_num; omega)

/-- One bit is 0 or 1. -/
theorem bit_cases : ∀ b : BitVec 1, b = 0#1 ∨ b = 1#1 := by decide

/-- The bit 0 read as a float is 0. -/
theorem uitofp_zero : FloatOps.uitofp (F := Ideal) .f32 (0#1 : BitVec 1) = 0 := by
  show (((0#1 : BitVec 1).toNat : ℝ) : EReal) = 0
  simp

/-- The bit 1 read as a float is 1. -/
theorem uitofp_one : FloatOps.uitofp (F := Ideal) .f32 (1#1 : BitVec 1) = 1 := by
  show (((1#1 : BitVec 1).toNat : ℝ) : EReal) = 1
  simp

end Cert.BridgeMath

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.KValue.lean ====
/-
  The output column at a token, in terms of the argument arrays.

  Token (b, s) is row r = b · 512 + s of the flattened activations, that is row r mod 2048 of row half r div 2048. The
  tiles of its half, read back through the input blocks, are the consecutive 640-column pieces of the token's row of
  logits x v = Σ_h X[b, s, h] · W[v, h] + B[v], and a tile's label test is "column j · 640 + k is the token's label". With
  finite inputs the logits are real, so the streaming result over the 50 tiles is the plain log-softmax of the row at the
  label (the streaming law), whenever the token's target is an in-range label ℓ.
-/
import proofs.«123221_j46720654246580_2_alg».proof.Proof.KOut
import proofs.«123221_j46720654246580_2_alg».proof.Proof.KBlocks
import proofs.«123221_j46720654246580_2_alg».proof.Proof.SoftmaxLaw
import proofs.«123221_j46720654246580_2_alg».proof.Proof.BridgeMath
import proofs.«123221_j46720654246580_2_alg».proof.Proof.LibFinite

set_option maxRecDepth 16384

noncomputable section

namespace Cert.KernelIdeal.KValue

open Idealize.ShloMosaic Idealize.ShloMosaic.TcCoe Idealize.ShloMosaic.ValueIdx Cert.KernelIdeal Cert.KernelIdeal.Gen
open Cert.KernelIdeal.Steps Cert.KernelIdeal.Inv Cert.KernelIdeal.KOut Cert.KernelIdeal.KIn Cert.Spec Cert.Finite

variable (m : (ℓ : Loc nD τ sig) → Buf (Elt Ideal) ℓ) (c : Dev nD)

/-- The tile coordinate of a grid point is its remainder by 50. -/
theorem coord1 : ∀ t : Fin cfg0.N, ((grid0.coords t) 1).val = t.val % 50 :=
  (by decide +kernel : ∀ t : Fin grid0.N, ((grid0.coords t) 1).val = t.val % 50)

/-- A token's row of logits from the three float arrays. -/
def logitOf (W : FVec Ideal S32000x2048 .f32) (X : FVec Ideal S8x512x2048 .f32) (B : FVec Ideal S32000 .f32)
    (b : Fin 8) (s : Fin 512) (v : Fin 32000) : EReal :=
  (∑ h : Fin 2048, X (ix3 b s h) * W (ix2 v h)) + B (ix1 v)

/-- The same at the program's argument arrays. -/
def logit (b : Fin 8) (s : Fin 512) (v : Fin 32000) : EReal :=
  logitOf (m ((c : Thread nD τ).loc main_arg0)) (m ((c : Thread nD τ).loc main_arg1)) (m ((c : Thread nD τ).loc main_arg3)) b s v

/-- Tile j of the token's half, read through the input blocks, is the token's logits at columns j · 640 + k. -/
theorem sc_eq (b : Fin 8) (s : Fin 512) (j : ℕ) (hj : j < 50) (k : Fin 640) :
    scSeq m c ((b.val * 512 + s.val) / 2048 * 50) (rowIn (b.val * 512 + s.val)) j k
      = logit m c b s ⟨j * 640 + k.val, by have := k.isLt; omega⟩ := by
  have hb := b.isLt; have hs := s.isLt; have hk := k.isLt
  have hv : ((b.val * 512 + s.val) / 2048 * 50 + j) % 100 = (b.val * 512 + s.val) / 2048 * 50 + j := by omega
  unfold scSeq sc Pay.lgt logit logitOf
  have e0 : ∀ h : Fin 2048, (iblk m c 0 (pt ((b.val * 512 + s.val) / 2048 * 50) j) : Vec Ideal S2048x2048 .bf16) (ix2 (rowIn (b.val * 512 + s.val)) h)
      = (m ((c : Thread nD τ).loc main_arg1) : S8x512x2048.Idx → EReal) (ix3 b s h) := by
    intro h
    rw [iblk0_apply, ← V_v1_apply m c b s h]
    refine congrArg _ (congrArg (fun r => ix2 r h) (Fin.ext ?_))
    show (((b.val * 512 + s.val) / 2048 * 50 + j) % 100) / 50 * 2048 + (b.val * 512 + s.val) % 2048 = b.val * 512 + s.val
    omega
  have e1 : ∀ h : Fin 2048, (iblk m c 1 (pt ((b.val * 512 + s.val) / 2048 * 50) j) : Vec Ideal S640x2048 .f32) (ix2 k h)
      = (m ((c : Thread nD τ).loc main_arg0) : S32000x2048.Idx → EReal) (ix2 ⟨j * 640 + k.val, by omega⟩ h) := by
    intro h
    rw [iblk1_apply]
    refine congrArg _ (congrArg (fun r => ix2 r h) (Fin.ext ?_))
    show (((b.val * 512 + s.val) / 2048 * 50 + j) % 100) % 50 * 640 + k.val = j * 640 + k.val
    omega
  have e2 : (iblk m c 2 (pt ((b.val * 512 + s.val) / 2048 * 50) j) : Vec Ideal S1x640 .f32) (ix2 (0 : Fin 1) k)
      = (m ((c : Thread nD τ).loc main_arg3) : S32000.Idx → EReal) (ix1 ⟨j * 640 + k.val, by omega⟩) := by
    rw [iblk2_apply]
    refine congrArg _ (congrArg ix1 (Fin.ext ?_))
    show (((b.val * 512 + s.val) / 2048 * 50 + j) % 100) % 50 * 640 + k.val = j * 640 + k.val
    omega
  rw [e2]
  congr 1
  exact Finset.sum_congr rfl fun h _ => by rw [e0 h, e1 h]

/-- The label test of tile j at a token whose target is the in-range label ℓ. -/
theorem hit_eq (b : Fin 8) (s : Fin 512) (ℓ : ℕ) (hℓ : ℓ < 32000)
    (hT : (m ((c : Thread nD τ).loc main_arg2) : S8x512.Idx → BitVec 32) (ix2 b s) = BitVec.ofNat 32 ℓ)
    (j : ℕ) (hj : j < 50) (k : Fin 640) :
    hitSeq m c ((b.val * 512 + s.val) / 2048 * 50) (rowIn (b.val * 512 + s.val)) j k = decide (j * 640 + k.val = ℓ) := by
  have hb := b.isLt; have hs := s.isLt; have hk := k.isLt
  have hTn : ((m ((c : Thread nD τ).loc main_arg2) : S8x512.Idx → BitVec 32) (ix2 b s)).toNat < 32000 := by
    rw [hT, BitVec.toNat_ofNat]; exact lt_of_le_of_lt (Nat.mod_le _ _) hℓ
  unfold hitSeq hit
  rw [coord1, iblk3_apply]
  have e3 : (V m c main_v6 : S4096.Idx → BitVec 32) (ix1 ⟨((pt ((b.val * 512 + s.val) / 2048 * 50) j).val / 50) * 2048 + (rowIn (b.val * 512 + s.val)).val, by
        have := t_lt (pt ((b.val * 512 + s.val) / 2048 * 50) j); have := (rowIn (b.val * 512 + s.val)).isLt; omega⟩)
      = BitVec.ofNat 32 ℓ := by
    rw [← hT, ← V_v6_inrange m c b s hTn]
    refine congrArg _ (congrArg ix1 (Fin.ext ?_))
    show (((b.val * 512 + s.val) / 2048 * 50 + j) % 100) / 50 * 2048 + (b.val * 512 + s.val) % 2048 = b.val * 512 + s.val
    omega
  rw [e3]
  have ej : (pt ((b.val * 512 + s.val) / 2048 * 50) j).val % 50 = j := by
    show (((b.val * 512 + s.val) / 2048 * 50 + j) % 100) % 50 = j
    omega
  rw [ej]
  exact decide_eq_decide.mpr (Cert.BridgeMath.col_word_eq j k.val ℓ hj hk hℓ)

/-- With finite inputs a token's logits are real. -/
theorem logit_real (b : Fin 8) (s : Fin 512)
    (hW : ∀ i, IsReal ((m ((c : Thread nD τ).loc main_arg0) : S32000x2048.Idx → EReal) i))
    (hX : ∀ i, IsReal ((m ((c : Thread nD τ).loc main_arg1) : S8x512x2048.Idx → EReal) i))
    (hB : ∀ i, IsReal ((m ((c : Thread nD τ).loc main_arg3) : S32000.Idx → EReal) i)) (v : Fin 32000) :
    IsReal (logit m c b s v) := by
  unfold logit logitOf
  exact (IsReal.sum _ _ fun h _ => (hX _).mul (hW _)).add (hB _)

/-- THE COLUMN AT A TOKEN whose target is an in-range label: the plain log-softmax of the token's logits at the label. -/
theorem G_apply (b : Fin 8) (s : Fin 512) (ℓ : Fin 32000)
    (hW : ∀ i, IsReal ((m ((c : Thread nD τ).loc main_arg0) : S32000x2048.Idx → EReal) i))
    (hX : ∀ i, IsReal ((m ((c : Thread nD τ).loc main_arg1) : S8x512x2048.Idx → EReal) i))
    (hB : ∀ i, IsReal ((m ((c : Thread nD τ).loc main_arg3) : S32000.Idx → EReal) i))
    (hT : (m ((c : Thread nD τ).loc main_arg2) : S8x512.Idx → BitVec 32) (ix2 b s) = BitVec.ofNat 32 ℓ.val) :
    G m c (ix2 ⟨b.val * 512 + s.val, by have := b.isLt; have := s.isLt; omega⟩ (0 : Fin 1)) = plainLogp (logit m c b s) ℓ := by
  choose x hx using logit_real m c b s hW hX hB
  -- the row of real logits, indexed by naturals
  let xn : ℕ → ℝ := fun n => if h : n < 32000 then x ⟨n, h⟩ else 0
  have hxn : ∀ v : Fin 32000, ((xn v.val : ℝ) : EReal) = logit m c b s v := by
    intro v
    show (((if h : v.val < 32000 then x ⟨v.val, h⟩ else 0 : ℝ)) : EReal) = _
    rw [dif_pos v.isLt, hx]
  show colRow m c (b.val * 512 + s.val) = _
  unfold colRow
  rw [Cert.BridgeMath.tileRun_congr _ (fun j k => ((xn (j * 640 + k.val) : ℝ) : EReal)) _ (fun j k => decide (j * 640 + k.val = ℓ.val)) 50
    (fun j hj => ⟨funext fun k => by
        rw [sc_eq m c b s j hj k]
        exact (hxn ⟨j * 640 + k.val, by have := k.isLt; omega⟩).symm,
      funext fun k => hit_eq m c b s ℓ.val ℓ.isLt hT j hj k⟩)]
  rw [Cert.SoftmaxLaw.stream_eq_plain xn ℓ.val ℓ.isLt]
  exact congrArg (fun f => plainLogp f ℓ) (funext hxn)

end Cert.KernelIdeal.KValue

end
-- ==== Proof.RefRunA.lean ====
/-
  The reference program's @main as the list of its 97 host operations, the four outlined functions
  (log-softmax, the select behind jnp.where, take-along-axis, log σ with the softplus it calls) written out at
  their call sites over each call's own buffers, and its run: every weakly fair execution terminates with every
  buffer at the fold of the operations' results over the launch contents.

  The list is also given in six consecutive stretches — the logits, the log-softmax, the mask and the gather's
  index, the gather, the masked log-probabilities, the closing scalar stretch — so that the fold can be read
  stretch by stretch at the few buffers that pass from one to the next.
-/
import proofs.«123221_j46720654246580_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The logits: x · Wᵀ + bias (4 operations). -/
abbrev opsA : List (HloOp τ sig (Elt F)) :=
  [ StableHlo.binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    StableHlo.unary main_arg3 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)) ]

/-- The log-softmax along the vocabulary axis (15 operations, over its call's buffers). -/
abbrev opsB : List (HloOp τ sig (Elt F)) :=
  [ StableHlo.TRef.nullary main_call0.cst (constant S_ .f32 0xFF800000#32),
    StableHlo.TRef.binary (StableHlo.TRef.of main_v3 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (StableHlo.TRef.of main_v3 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf ]

/-- The mask (label ≠ −100), the labels with 0 in place of a masked one, and their trailing unit axis (8 operations). -/
abbrev opsC : List (HloOp τ sig (Elt F)) :=
  [ StableHlo.nullary main_c (constantI S_ 32 4294967196#32),
    StableHlo.unary main_c main_v5 (broadcastInDim S8x512 ![] bcast_S_S8x512 : (⟨S_, .i32⟩ : BufTy).Contents (Elt F) → (⟨S8x512, .i32⟩ : BufTy).Contents (Elt F)),
    StableHlo.binary main_arg2 main_v5 main_v6 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.TRef.unary (StableHlo.TRef.of main_c_0 : StableHlo.TRef sig ⟨S_, .i32⟩) main_call1.v0 id,
    StableHlo.TRef.unary main_call1.v0 main_call1.v1 (broadcastInDim S8x512 ![] bcast_S_S8x512),
    StableHlo.TRef.ternary (StableHlo.TRef.of main_v6 : StableHlo.TRef sig ⟨S8x512, .i1⟩) (StableHlo.TRef.of main_arg2 : StableHlo.TRef sig ⟨S8x512, .i32⟩) main_call1.v1 main_call1.v2 select,
    StableHlo.unary main_v7 main_v8 (broadcastInDim S8x512x1 ![0, 1] bcast_S8x512_S8x512x1_0_1 : (⟨S8x512, .i32⟩ : BufTy).Contents (Elt F) → (⟨S8x512x1, .i32⟩ : BufTy).Contents (Elt F)) ]

/-- The take-along-axis: index wrap, bounds test, gather, NaN where out of bounds (22 operations). -/
abbrev opsD : List (HloOp τ sig (Elt F)) :=
  [ StableHlo.TRef.nullary main_call2.c (constantI S_ 32 0#32),
    StableHlo.TRef.unary main_call2.c main_call2.v0 (broadcastInDim S8x512x1 ![] bcast_S_S8x512x1),
    StableHlo.TRef.binary (StableHlo.TRef.of main_v8 : StableHlo.TRef sig ⟨S8x512x1, .i32⟩) main_call2.v0 main_call2.v1 (cmpi .slt),
    StableHlo.TRef.nullary main_call2.c_0 (constantI S_ 32 32000#32),
    StableHlo.TRef.unary main_call2.c_0 main_call2.v2 (broadcastInDim S8x512x1 ![] bcast_S_S8x512x1),
    StableHlo.TRef.binary (StableHlo.TRef.of main_v8 : StableHlo.TRef sig ⟨S8x512x1, .i32⟩) main_call2.v2 main_call2.v3 addi,
    StableHlo.TRef.ternary main_call2.v1 main_call2.v3 (StableHlo.TRef.of main_v8 : StableHlo.TRef sig ⟨S8x512x1, .i32⟩) main_call2.v4 select,
    StableHlo.TRef.reshape main_call2.v4 main_call2.v5 rfl shapeCasts_S8x512x1_S8x512x1x1,
    StableHlo.TRef.nullary main_call2.c_1 (constantI S1 32 31999#32),
    StableHlo.TRef.nullary main_call2.c_2 (constantI S_ 32 0#32),
    StableHlo.TRef.unary main_call2.c_2 main_call2.v6 (broadcastInDim S8x512x1x1 ![] bcast_S_S8x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x512x1x1 ![0, 1, 2, 3] bcast_S1x1x1x1_S8x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x512x1x1_S8x512x1_d3 h_S_),
    StableHlo.TRef.binary (StableHlo.TRef.of main_v4 : StableHlo.TRef sig ⟨S8x512x32000, .f32⟩) main_call2.v5 main_call2.v13 (fun x i => Host.gather gather_S8x512x32000_S8x512x1x1_S8x512x1_n_2_01_01_2_3_111 x i),
    StableHlo.TRef.nullary main_call2.cst (constant S_ .f32 0x7FC00000#32),
    StableHlo.TRef.unary main_call2.cst main_call2.v14 (broadcastInDim S8x512x1 ![] bcast_S_S8x512x1),
    StableHlo.TRef.ternary main_call2.v12 main_call2.v13 main_call2.v14 main_call2.v15 select ]

/-- The picked log-probabilities times the mask (3 operations). -/
abbrev opsE : List (HloOp τ sig (Elt F)) :=
  [ StableHlo.reshape main_v9 main_v10 rfl shapeCasts_S8x512x1_S8x512,
    StableHlo.unary main_v6 main_v11 (uitofp .f32 : (⟨S8x512, .i1⟩ : BufTy).Contents (Elt F) → (⟨S8x512, .f32⟩ : BufTy).Contents (Elt F)),
    StableHlo.binary main_v10 main_v11 main_v12 (mulf : (⟨S8x512, .f32⟩ : BufTy).Contents (Elt F) → (⟨S8x512, .f32⟩ : BufTy).Contents (Elt F) → (⟨S8x512, .f32⟩ : BufTy).Contents (Elt F)) ]

/-- The closing stretch: per-sequence sums and counts, the averages, the scaled difference, − log σ through softplus, the two quotients and their sum (45 operations). -/
abbrev opsF : List (HloOp τ sig (Elt F)) :=
  [ StableHlo.nullary main_cst (constant S_ .f32 0x00000000#32),
    StableHlo.binary main_v12 main_cst main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v6 main_v14 ((extui 32 · natLt_1_32) : (⟨S8x512, .i1⟩ : BufTy).Contents (Elt F) → (⟨S8x512, .i32⟩ : BufTy).Contents (Elt F)),
    StableHlo.nullary main_c_1 (constantI S_ 32 0#32),
    StableHlo.binary main_v14 main_c_1 main_v15 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    StableHlo.unary main_v15 main_v16 (sitofp .f32 : (⟨S8, .i32⟩ : BufTy).Contents (Elt F) → (⟨S8, .f32⟩ : BufTy).Contents (Elt F)),
    StableHlo.binary main_v13 main_v16 main_v17 (Host.divf : (⟨S8, .f32⟩ : BufTy).Contents (Elt F) → (⟨S8, .f32⟩ : BufTy).Contents (Elt F) → (⟨S8, .f32⟩ : BufTy).Contents (Elt F)),
    StableHlo.unary main_v17 main_v18 ((extractStridedSlice S4 ![0] · slices_S8_S4_0) : (⟨S8, .f32⟩ : BufTy).Contents (Elt F) → (⟨S4, .f32⟩ : BufTy).Contents (Elt F)),
    StableHlo.unary main_v17 main_v19 ((extractStridedSlice S4 ![4] · slices_S8_S4_4) : (⟨S8, .f32⟩ : BufTy).Contents (Elt F) → (⟨S4, .f32⟩ : BufTy).Contents (Elt F)),
    StableHlo.binary main_v18 main_v19 main_v20 (subf : (⟨S4, .f32⟩ : BufTy).Contents (Elt F) → (⟨S4, .f32⟩ : BufTy).Contents (Elt F) → (⟨S4, .f32⟩ : BufTy).Contents (Elt F)),
    StableHlo.nullary main_cst_2 (constant S_ .f32 0x3DCCCCCD#32),
    StableHlo.unary main_cst_2 main_v21 (broadcastInDim S4 ![] bcast_S_S4 : (⟨S_, .f32⟩ : BufTy).Contents (Elt F) → (⟨S4, .f32⟩ : BufTy).Contents (Elt F)),
    StableHlo.binary main_v21 main_v20 main_v22 (mulf : (⟨S4, .f32⟩ : BufTy).Contents (Elt F) → (⟨S4, .f32⟩ : BufTy).Contents (Elt F) → (⟨S4, .f32⟩ : BufTy).Contents (Elt F)),
    StableHlo.TRef.unary (StableHlo.TRef.of main_v22 : StableHlo.TRef sig ⟨S4, .f32⟩) main_call3.v0 Host.negf,
    StableHlo.TRef.nullary main_call3.call0.cst (constant S_ .f32 0x00000000#32),
    StableHlo.TRef.unary main_call3.call0.cst main_call3.call0.v0 (broadcastInDim S4 ![] bcast_S_S4),
    StableHlo.TRef.binary main_call3.v0 main_call3.call0.v0 main_call3.call0.v1 maximumf,
    StableHlo.TRef.unary main_call3.call0.cst main_call3.call0.v2 (broadcastInDim S4 ![] bcast_S_S4),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4 ![] bcast_S_S4),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.unary main_v23 main_v24 (Host.negf : (⟨S4, .f32⟩ : BufTy).Contents (Elt F) → (⟨S4, .f32⟩ : BufTy).Contents (Elt F)),
    StableHlo.nullary main_cst_3 (constant S_ .f32 0x00000000#32),
    StableHlo.binary main_v24 main_cst_3 main_v25 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_4 (constant S_ .f32 0x40800000#32),
    StableHlo.binary main_v25 main_cst_4 main_v26 (Host.divf : (⟨S_, .f32⟩ : BufTy).Contents (Elt F) → (⟨S_, .f32⟩ : BufTy).Contents (Elt F) → (⟨S_, .f32⟩ : BufTy).Contents (Elt F)),
    StableHlo.unary main_v12 main_v27 ((extractStridedSlice S4x512 ![0, 0] · slices_S8x512_S4x512_0_0) : (⟨S8x512, .f32⟩ : BufTy).Contents (Elt F) → (⟨S4x512, .f32⟩ : BufTy).Contents (Elt F)),
    StableHlo.nullary main_cst_5 (constant S_ .f32 0x00000000#32),
    StableHlo.binary main_v27 main_cst_5 main_v28 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v28 main_v29 (Host.negf : (⟨S_, .f32⟩ : BufTy).Contents (Elt F) → (⟨S_, .f32⟩ : BufTy).Contents (Elt F)),
    StableHlo.unary main_v6 main_v30 ((extractStridedSlice S4x512 ![0, 0] · slices_S8x512_S4x512_0_0) : (⟨S8x512, .i1⟩ : BufTy).Contents (Elt F) → (⟨S4x512, .i1⟩ : BufTy).Contents (Elt F)),
    StableHlo.unary main_v30 main_v31 ((extui 32 · natLt_1_32) : (⟨S4x512, .i1⟩ : BufTy).Contents (Elt F) → (⟨S4x512, .i32⟩ : BufTy).Contents (Elt F)),
    StableHlo.nullary main_c_6 (constantI S_ 32 0#32),
    StableHlo.binary main_v31 main_c_6 main_v32 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    StableHlo.unary main_v32 main_v33 (sitofp .f32 : (⟨S_, .i32⟩ : BufTy).Contents (Elt F) → (⟨S_, .f32⟩ : BufTy).Contents (Elt F)),
    StableHlo.binary main_v29 main_v33 main_v34 (Host.divf : (⟨S_, .f32⟩ : BufTy).Contents (Elt F) → (⟨S_, .f32⟩ : BufTy).Contents (Elt F) → (⟨S_, .f32⟩ : BufTy).Contents (Elt F)),
    StableHlo.binary main_v26 main_v34 main_v35 (addf : (⟨S_, .f32⟩ : BufTy).Contents (Elt F) → (⟨S_, .f32⟩ : BufTy).Contents (Elt F) → (⟨S_, .f32⟩ : BufTy).Contents (Elt F)) ]

/-- @main's 97 operations, in order. -/
abbrev ops : List (HloOp τ sig (Elt F)) :=
  [ StableHlo.binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    StableHlo.unary main_arg3 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)),
    StableHlo.TRef.nullary main_call0.cst (constant S_ .f32 0xFF800000#32),
    StableHlo.TRef.binary (StableHlo.TRef.of main_v3 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (StableHlo.TRef.of main_v3 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf,
    StableHlo.nullary main_c (constantI S_ 32 4294967196#32),
    StableHlo.unary main_c main_v5 (broadcastInDim S8x512 ![] bcast_S_S8x512 : (⟨S_, .i32⟩ : BufTy).Contents (Elt F) → (⟨S8x512, .i32⟩ : BufTy).Contents (Elt F)),
    StableHlo.binary main_arg2 main_v5 main_v6 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.TRef.unary (StableHlo.TRef.of main_c_0 : StableHlo.TRef sig ⟨S_, .i32⟩) main_call1.v0 id,
    StableHlo.TRef.unary main_call1.v0 main_call1.v1 (broadcastInDim S8x512 ![] bcast_S_S8x512),
    StableHlo.TRef.ternary (StableHlo.TRef.of main_v6 : StableHlo.TRef sig ⟨S8x512, .i1⟩) (StableHlo.TRef.of main_arg2 : StableHlo.TRef sig ⟨S8x512, .i32⟩) main_call1.v1 main_call1.v2 select,
    StableHlo.unary main_v7 main_v8 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call2.c (constantI S_ 32 0#32),
    StableHlo.TRef.unary main_call2.c main_call2.v0 (broadcastInDim S8x512x1 ![] bcast_S_S8x512x1),
    StableHlo.TRef.binary (StableHlo.TRef.of main_v8 : StableHlo.TRef sig ⟨S8x512x1, .i32⟩) main_call2.v0 main_call2.v1 (cmpi .slt),
    StableHlo.TRef.nullary main_call2.c_0 (constantI S_ 32 32000#32),
    StableHlo.TRef.unary main_call2.c_0 main_call2.v2 (broadcastInDim S8x512x1 ![] bcast_S_S8x512x1),
    StableHlo.TRef.binary (StableHlo.TRef.of main_v8 : StableHlo.TRef sig ⟨S8x512x1, .i32⟩) main_call2.v2 main_call2.v3 addi,
    StableHlo.TRef.ternary main_call2.v1 main_call2.v3 (StableHlo.TRef.of main_v8 : StableHlo.TRef sig ⟨S8x512x1, .i32⟩) main_call2.v4 select,
    StableHlo.TRef.reshape main_call2.v4 main_call2.v5 rfl shapeCasts_S8x512x1_S8x512x1x1,
    StableHlo.TRef.nullary main_call2.c_1 (constantI S1 32 31999#32),
    StableHlo.TRef.nullary main_call2.c_2 (constantI S_ 32 0#32),
    StableHlo.TRef.unary main_call2.c_2 main_call2.v6 (broadcastInDim S8x512x1x1 ![] bcast_S_S8x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x512x1x1 ![0, 1, 2, 3] bcast_S1x1x1x1_S8x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x512x1x1_S8x512x1_d3 h_S_),
    StableHlo.TRef.binary (StableHlo.TRef.of main_v4 : StableHlo.TRef sig ⟨S8x512x32000, .f32⟩) main_call2.v5 main_call2.v13 (fun x i => Host.gather gather_S8x512x32000_S8x512x1x1_S8x512x1_n_2_01_01_2_3_111 x i),
    StableHlo.TRef.nullary main_call2.cst (constant S_ .f32 0x7FC00000#32),
    StableHlo.TRef.unary main_call2.cst main_call2.v14 (broadcastInDim S8x512x1 ![] bcast_S_S8x512x1),
    StableHlo.TRef.ternary main_call2.v12 main_call2.v13 main_call2.v14 main_call2.v15 select,
    StableHlo.reshape main_v9 main_v10 rfl shapeCasts_S8x512x1_S8x512,
    StableHlo.unary main_v6 main_v11 (uitofp .f32 : (⟨S8x512, .i1⟩ : BufTy).Contents (Elt F) → (⟨S8x512, .f32⟩ : BufTy).Contents (Elt F)),
    StableHlo.binary main_v10 main_v11 main_v12 (mulf : (⟨S8x512, .f32⟩ : BufTy).Contents (Elt F) → (⟨S8x512, .f32⟩ : BufTy).Contents (Elt F) → (⟨S8x512, .f32⟩ : BufTy).Contents (Elt F)),
    StableHlo.nullary main_cst (constant S_ .f32 0x00000000#32),
    StableHlo.binary main_v12 main_cst main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v6 main_v14 ((extui 32 · natLt_1_32) : (⟨S8x512, .i1⟩ : BufTy).Contents (Elt F) → (⟨S8x512, .i32⟩ : BufTy).Contents (Elt F)),
    StableHlo.nullary main_c_1 (constantI S_ 32 0#32),
    StableHlo.binary main_v14 main_c_1 main_v15 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    StableHlo.unary main_v15 main_v16 (sitofp .f32 : (⟨S8, .i32⟩ : BufTy).Contents (Elt F) → (⟨S8, .f32⟩ : BufTy).Contents (Elt F)),
    StableHlo.binary main_v13 main_v16 main_v17 (Host.divf : (⟨S8, .f32⟩ : BufTy).Contents (Elt F) → (⟨S8, .f32⟩ : BufTy).Contents (Elt F) → (⟨S8, .f32⟩ : BufTy).Contents (Elt F)),
    StableHlo.unary main_v17 main_v18 ((extractStridedSlice S4 ![0] · slices_S8_S4_0) : (⟨S8, .f32⟩ : BufTy).Contents (Elt F) → (⟨S4, .f32⟩ : BufTy).Contents (Elt F)),
    StableHlo.unary main_v17 main_v19 ((extractStridedSlice S4 ![4] · slices_S8_S4_4) : (⟨S8, .f32⟩ : BufTy).Contents (Elt F) → (⟨S4, .f32⟩ : BufTy).Contents (Elt F)),
    StableHlo.binary main_v18 main_v19 main_v20 (subf : (⟨S4, .f32⟩ : BufTy).Contents (Elt F) → (⟨S4, .f32⟩ : BufTy).Contents (Elt F) → (⟨S4, .f32⟩ : BufTy).Contents (Elt F)),
    StableHlo.nullary main_cst_2 (constant S_ .f32 0x3DCCCCCD#32),
    StableHlo.unary main_cst_2 main_v21 (broadcastInDim S4 ![] bcast_S_S4 : (⟨S_, .f32⟩ : BufTy).Contents (Elt F) → (⟨S4, .f32⟩ : BufTy).Contents (Elt F)),
    StableHlo.binary main_v21 main_v20 main_v22 (mulf : (⟨S4, .f32⟩ : BufTy).Contents (Elt F) → (⟨S4, .f32⟩ : BufTy).Contents (Elt F) → (⟨S4, .f32⟩ : BufTy).Contents (Elt F)),
    StableHlo.TRef.unary (StableHlo.TRef.of main_v22 : StableHlo.TRef sig ⟨S4, .f32⟩) main_call3.v0 Host.negf,
    StableHlo.TRef.nullary main_call3.call0.cst (constant S_ .f32 0x00000000#32),
    StableHlo.TRef.unary main_call3.call0.cst main_call3.call0.v0 (broadcastInDim S4 ![] bcast_S_S4),
    StableHlo.TRef.binary main_call3.v0 main_call3.call0.v0 main_call3.call0.v1 maximumf,
    StableHlo.TRef.unary main_call3.call0.cst main_call3.call0.v2 (broadcastInDim S4 ![] bcast_S_S4),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4 ![] bcast_S_S4),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.unary main_v23 main_v24 (Host.negf : (⟨S4, .f32⟩ : BufTy).Contents (Elt F) → (⟨S4, .f32⟩ : BufTy).Contents (Elt F)),
    StableHlo.nullary main_cst_3 (constant S_ .f32 0x00000000#32),
    StableHlo.binary main_v24 main_cst_3 main_v25 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_4 (constant S_ .f32 0x40800000#32),
    StableHlo.binary main_v25 main_cst_4 main_v26 (Host.divf : (⟨S_, .f32⟩ : BufTy).Contents (Elt F) → (⟨S_, .f32⟩ : BufTy).Contents (Elt F) → (⟨S_, .f32⟩ : BufTy).Contents (Elt F)),
    StableHlo.unary main_v12 main_v27 ((extractStridedSlice S4x512 ![0, 0] · slices_S8x512_S4x512_0_0) : (⟨S8x512, .f32⟩ : BufTy).Contents (Elt F) → (⟨S4x512, .f32⟩ : BufTy).Contents (Elt F)),
    StableHlo.nullary main_cst_5 (constant S_ .f32 0x00000000#32),
    StableHlo.binary main_v27 main_cst_5 main_v28 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v28 main_v29 (Host.negf : (⟨S_, .f32⟩ : BufTy).Contents (Elt F) → (⟨S_, .f32⟩ : BufTy).Contents (Elt F)),
    StableHlo.unary main_v6 main_v30 ((extractStridedSlice S4x512 ![0, 0] · slices_S8x512_S4x512_0_0) : (⟨S8x512, .i1⟩ : BufTy).Contents (Elt F) → (⟨S4x512, .i1⟩ : BufTy).Contents (Elt F)),
    StableHlo.unary main_v30 main_v31 ((extui 32 · natLt_1_32) : (⟨S4x512, .i1⟩ : BufTy).Contents (Elt F) → (⟨S4x512, .i32⟩ : BufTy).Contents (Elt F)),
    StableHlo.nullary main_c_6 (constantI S_ 32 0#32),
    StableHlo.binary main_v31 main_c_6 main_v32 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    StableHlo.unary main_v32 main_v33 (sitofp .f32 : (⟨S_, .i32⟩ : BufTy).Contents (Elt F) → (⟨S_, .f32⟩ : BufTy).Contents (Elt F)),
    StableHlo.binary main_v29 main_v33 main_v34 (Host.divf : (⟨S_, .f32⟩ : BufTy).Contents (Elt F) → (⟨S_, .f32⟩ : BufTy).Contents (Elt F) → (⟨S_, .f32⟩ : BufTy).Contents (Elt F)),
    StableHlo.binary main_v26 main_v34 main_v35 (addf : (⟨S_, .f32⟩ : BufTy).Contents (Elt F) → (⟨S_, .f32⟩ : BufTy).Contents (Elt F) → (⟨S_, .f32⟩ : BufTy).Contents (Elt F)) ]

/-- The list is its six stretches in turn. -/
theorem ops_eq : (ops : List (HloOp τ sig (Elt F))) = opsA ++ (opsB ++ (opsC ++ (opsD ++ (opsE ++ opsF)))) := rfl

-- the comparison walks ninety-seven nested continuations
set_option maxRecDepth 8192 in
/-- @main is that straight line: sequencing is by computation, so the functions' bodies unfolded at their calls, each
    over its call's record, and @main's own operations around them are the list's steps in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., reshape_bufs_sub .., unary_bufs_sub .., binary_bufs_sub .., nullary_bufs_sub .., binary_bufs_sub ..,
    unary_bufs_sub .., nullary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., nullary_bufs_sub .., binary_bufs_sub ..,
    nullary_bufs_sub .., binary_bufs_sub .., unary_bufs_sub .., nullary_bufs_sub .., binary_bufs_sub .., unary_bufs_sub ..,
    unary_bufs_sub .., unary_bufs_sub .., nullary_bufs_sub .., binary_bufs_sub .., unary_bufs_sub .., binary_bufs_sub ..,
    binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefDefs.lean ====
/-
  The reference's per-token log-probability as pure functions of its four arguments, at the extended reals.

  For weights W [32000, 2048], activations X [8, 512, 2048], integer targets T [8, 512] and a bias B [32000]:
  the mask of the tokens that count (target ≠ −100), the labels with the masked ones replaced by 0, the logits
  X · Wᵀ + B, the log-softmax along the vocabulary axis (subtract the row maximum, then the logarithm of the row's
  sum of exponentials), the pick of one column per token by its label (a negative label wraps by 32000, a label outside
  [0, 31999] yields the not-a-number word), and the [8, 512] array of picked log-probabilities.  Each definition is the
  composition of the reference program's operations, in their order.
-/
import proofs.«123221_j46720654246580_2_alg».proof.ReferenceIdeal
import Idealize.ShloMosaic.PureOps.Ideal

noncomputable section

namespace Cert.ReferenceIdeal.RefDefs

open Idealize.ShloMosaic Cert.ReferenceIdeal

variable [Facts]
open Facts₀ Facts

/-- The tokens that count: the target differs from the word of −100. -/
def maskOf (T : IVec S8x512 32) : IVec S8x512 1 :=
  cmpi .ne T (broadcastInDim S8x512 ![] bcast_S_S8x512 (constantI S_ 32 4294967196#32))

/-- The labels: the target where it counts, 0 elsewhere. -/
def labelsOf (T : IVec S8x512 32) : IVec S8x512 32 :=
  select (maskOf T) T (broadcastInDim S8x512 ![] bcast_S_S8x512 (id (constantI S_ 32 0#32)))

/-- The logits X · Wᵀ + B. -/
def logits (W : FVec Ideal S32000x2048 .f32) (X : FVec Ideal S8x512x2048 .f32) (B : FVec Ideal S32000 .f32) :
    FVec Ideal S8x512x32000 .f32 :=
  addf (Host.dotGeneral (F := Ideal) dot_S8x512x2048_S32000x2048_S8x512x32000_2_1_01_0_n_n none X W)
    (broadcastInDim S8x512x32000 ![0, 1, 2] bcast_S1x1x32000_S8x512x32000_0_1_2
      (broadcastInDim S1x1x32000 ![2] bcast_S32000_S1x1x32000_2 B))

/-- The row maxima: max (−∞ splat) (the maximum along the vocabulary axis from −∞). -/
def rowMax (x : FVec Ideal S8x512x32000 .f32) : FVec Ideal S8x512 .f32 :=
  maximumf (broadcastInDim S8x512 ![] bcast_S_S8x512 (constant (F := Ideal) S_ .f32 0xFF800000#32))
    (Host.reduce (FloatOps.maximumf (F := Ideal) (φ := .f32)) x (constant (F := Ideal) S_ .f32 0xFF800000#32)
      reducesTo_S8x512x32000_S8x512_d2 h_S_)

/-- The scores minus their row's maximum. -/
def shifted (x : FVec Ideal S8x512x32000 .f32) : FVec Ideal S8x512x32000 .f32 :=
  subf x (broadcastInDim S8x512x32000 ![0, 1, 2] bcast_S8x512x1_S8x512x32000_0_1_2
    (broadcastInDim S8x512x1 ![0, 1] bcast_S8x512_S8x512x1_0_1 (rowMax x)))

/-- The logarithm of each row's sum of exponentials of the shifted scores, as an [8, 512, 1] column. -/
def logSumExp (x : FVec Ideal S8x512x32000 .f32) : FVec Ideal S8x512x1 .f32 :=
  Host.log (broadcastInDim S8x512x1 ![0, 1] bcast_S8x512_S8x512x1_0_1
    (Host.reduceAdd (Host.exp (shifted x)) (constant (F := Ideal) S_ .f32 0x00000000#32)
      reducesTo_S8x512x32000_S8x512_d2 h_S_))

/-- The log-softmax along the vocabulary axis. -/
def logSoftmax (x : FVec Ideal S8x512x32000 .f32) : FVec Ideal S8x512x32000 .f32 :=
  subf (shifted x) (broadcastInDim S8x512x32000 ![0, 1, 2] bcast_S8x512x1_S8x512x32000_0_1_2 (logSumExp x))

/-- The index with a negative one wrapped by 32000. -/
def wrapIdx (idx : IVec S8x512x1 32) : IVec S8x512x1 32 :=
  select (cmpi .slt idx (broadcastInDim S8x512x1 ![] bcast_S_S8x512x1 (constantI S_ 32 0#32)))
    (addi idx (broadcastInDim S8x512x1 ![] bcast_S_S8x512x1 (constantI S_ 32 32000#32))) idx

/-- The wrapped index as an [8, 512, 1, 1] array of start indices. -/
def idx4 (idx : IVec S8x512x1 32) : IVec S8x512x1x1 32 :=
  shapeCast S8x512x1x1 (wrapIdx idx) shapeCasts_S8x512x1_S8x512x1x1

/-- The bounds test: 0 ≤ index ≤ 31999, folded with `and` from `true` along the unit axis. -/
def inBounds (idx : IVec S8x512x1 32) : IVec S8x512x1 1 :=
  Host.reduce IntOp.andi
    (andi (cmpi .sge (idx4 idx) (broadcastInDim S8x512x1x1 ![] bcast_S_S8x512x1x1 (constantI S_ 32 0#32)))
      (cmpi .sle (idx4 idx) (broadcastInDim S8x512x1x1 ![0, 1, 2, 3] bcast_S1x1x1x1_S8x512x1x1_0_1_2_3
        (broadcastInDim S1x1x1x1 ![3] bcast_S1_S1x1x1x1_3 (constantI S1 32 31999#32)))))
    (constantI S_ 1 1#1) reducesTo_S8x512x1x1_S8x512x1_d3 h_S_

/-- The pick along the vocabulary axis: the gathered element where the index is in bounds, the not-a-number word
    elsewhere. -/
def takeAlong (lp : FVec Ideal S8x512x32000 .f32) (idx : IVec S8x512x1 32) : FVec Ideal S8x512x1 .f32 :=
  select (inBounds idx)
    (Host.gather gather_S8x512x32000_S8x512x1x1_S8x512x1_n_2_01_01_2_3_111 lp (idx4 idx))
    (broadcastInDim S8x512x1 ![] bcast_S_S8x512x1 (constant (F := Ideal) S_ .f32 0x7FC00000#32))

/-- The per-token log-probability of the label, as an [8, 512] array. -/
def lpR (W : FVec Ideal S32000x2048 .f32) (X : FVec Ideal S8x512x2048 .f32) (T : IVec S8x512 32)
    (B : FVec Ideal S32000 .f32) : FVec Ideal S8x512 .f32 :=
  shapeCast S8x512
    (takeAlong (logSoftmax (logits W X B))
      (broadcastInDim S8x512x1 ![0, 1] bcast_S8x512_S8x512x1_0_1 (labelsOf T)))
    shapeCasts_S8x512x1_S8x512

end Cert.ReferenceIdeal.RefDefs

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefRunB.lean ====
/-
  The reference program's six stretches of operations read back as pure functions of the few buffers that pass
  between them: each stretch's result buffer holds the composition of its operations applied to the contents of the
  buffers it reads, and the buffers a later stretch still needs are left as they were.  A value written or read by an
  outlined function's operation is carried to its buffer's type and back; the two carryings cancel, and what is left is
  the composition itself.
-/
import proofs.«123221_j46720654246580_2_alg».proof.Proof.RefRunA
import proofs.«123221_j46720654246580_2_alg».proof.Proof.RefDefs
import proofs.«123221_j46720654246580_2_alg».proof.Proof.TailCore
import proofs.«123221_j46720654246580_2_alg».proof.Proof.LibRunPieces

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.RunPieces (ofBuf_toBuf toBuf_ofBuf)

/-- The shape relations of the closing stretch, as this program proves them. -/
def side : Cert.Tail.Side :=
  ⟨reducesTo_S8x512_S8_d1, h_S_, slices_S8_S4_0, slices_S8_S4_4, bcast_S_S4, reducesTo_S4_S_d0, slices_S8x512_S4x512_0_0,
    reducesTo_S4x512_S_d0_1⟩

-- the reductions and the gather are folds and searches over their operand's elements; no equation
-- here looks inside them
attribute [local irreducible] Host.reduce Host.reduceAdd Host.gather

/-! ## The logits -/

theorem A_v3 (V : Valuation τ sig (Elt Ideal)) :
    after (opsA (F := Ideal)) V (main_v3 : DevRef τ sig)
      = RefDefs.logits (V (main_arg0 : DevRef τ sig)) (V (main_arg1 : DevRef τ sig)) (V (main_arg3 : DevRef τ sig)) := by
  after_results_simp
  rfl

theorem A_arg2 (V : Valuation τ sig (Elt Ideal)) :
    after (opsA (F := Ideal)) V (main_arg2 : DevRef τ sig) = V (main_arg2 : DevRef τ sig) := by
  after_results_simp

/-! ## The log-softmax -/

theorem B_v4 (V : Valuation τ sig (Elt Ideal)) :
    after (opsB (F := Ideal)) V (main_v4 : DevRef τ sig) = RefDefs.logSoftmax (V (main_v3 : DevRef τ sig)) := by
  after_results_simp
  simp only [ofBuf_toBuf, toBuf_ofBuf]
  rfl

theorem B_arg2 (V : Valuation τ sig (Elt Ideal)) :
    after (opsB (F := Ideal)) V (main_arg2 : DevRef τ sig) = V (main_arg2 : DevRef τ sig) := by
  after_results_simp

/-! ## The mask and the gather's index -/

theorem C_v6 (V : Valuation τ sig (Elt Ideal)) :
    after (opsC (F := Ideal)) V (main_v6 : DevRef τ sig) = RefDefs.maskOf (V (main_arg2 : DevRef τ sig)) := by
  after_results_simp
  rfl

theorem C_v8 (V : Valuation τ sig (Elt Ideal)) :
    after (opsC (F := Ideal)) V (main_v8 : DevRef τ sig)
      = broadcastInDim S8x512x1 ![0, 1] bcast_S8x512_S8x512x1_0_1 (RefDefs.labelsOf (V (main_arg2 : DevRef τ sig))) := by
  after_results_simp
  simp only [ofBuf_toBuf, toBuf_ofBuf]
  rfl

theorem C_v4 (V : Valuation τ sig (Elt Ideal)) :
    after (opsC (F := Ideal)) V (main_v4 : DevRef τ sig) = V (main_v4 : DevRef τ sig) := by
  after_results_simp

/-! ## The gather -/

theorem D_v9 (V : Valuation τ sig (Elt Ideal)) :
    after (opsD (F := Ideal)) V (main_v9 : DevRef τ sig)
      = RefDefs.takeAlong (V (main_v4 : DevRef τ sig)) (V (main_v8 : DevRef τ sig)) := by
  after_results_simp
  simp only [ofBuf_toBuf, toBuf_ofBuf]
  rfl

theorem D_v6 (V : Valuation τ sig (Elt Ideal)) :
    after (opsD (F := Ideal)) V (main_v6 : DevRef τ sig) = V (main_v6 : DevRef τ sig) := by
  after_results_simp

/-! ## The masked log-probabilities -/

theorem E_v12 (V : Valuation τ sig (Elt Ideal)) :
    after (opsE (F := Ideal)) V (main_v12 : DevRef τ sig)
      = (mulf (shapeCast S8x512 (V (main_v9 : DevRef τ sig) : FVec Ideal S8x512x1 .f32) shapeCasts_S8x512x1_S8x512)
          (uitofp .f32 (V (main_v6 : DevRef τ sig) : IVec S8x512 1)) : FVec Ideal S8x512 .f32) := by
  after_results_simp
  rfl

theorem E_v6 (V : Valuation τ sig (Elt Ideal)) :
    after (opsE (F := Ideal)) V (main_v6 : DevRef τ sig) = V (main_v6 : DevRef τ sig) := by
  after_results_simp

/-! ## The closing stretch -/

theorem F_v35 (V : Valuation τ sig (Elt Ideal)) :
    after (opsF (F := Ideal)) V (main_v35 : DevRef τ sig)
      = Cert.Tail.core side (V (main_v12 : DevRef τ sig))
          (sitofp .f32 (Host.reduce IntOp.addi (extui 32 (V (main_v6 : DevRef τ sig)) natLt_1_32) (constantI S_ 32 0#32)
            reducesTo_S8x512_S8_d1 h_S_))
          (sitofp .f32 (Host.reduce IntOp.addi
            (extui 32 (extractStridedSlice S4x512 ![0, 0] (V (main_v6 : DevRef τ sig)) slices_S8x512_S4x512_0_0) natLt_1_32)
            (constantI S_ 32 0#32) reducesTo_S4x512_S_d0_1 h_S_)) := by
  after_results_simp
  simp only [ofBuf_toBuf, toBuf_ofBuf]
  rfl

end Cert.ReferenceIdeal.RefRun

end
-- ==== Proof.RefRun.lean ====
/-
  The reference program's run, read back: every weakly fair execution of @main terminates with the result buffer at
  the loss as one pure function of the four argument buffers' launch contents, and the arguments unchanged.

  The function is the shared closing stretch (per-sequence averages, the scaled chosen-minus-rejected difference,
  − log σ, the two quotients) applied to the masked per-token log-probabilities of the labels, the per-sequence token
  counts and the chosen half's token count.  It is obtained by reading the operation list stretch by stretch: each
  stretch's result is a function of the few buffers the stretch reads, and the compositions nest.
-/
import proofs.«123221_j46720654246580_2_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.RunPieces (after_append)

/-- The reference's loss as a function of the weights, the activations, the targets and the bias. -/
def refResult (W : FVec Ideal S32000x2048 .f32) (X : FVec Ideal S8x512x2048 .f32) (T : IVec S8x512 32)
    (B : FVec Ideal S32000 .f32) : FVec Ideal S_ .f32 :=
  Cert.Tail.core side
    (mulf (RefDefs.lpR W X T B) (uitofp .f32 (RefDefs.maskOf T)))
    (sitofp .f32 (Host.reduce IntOp.addi (extui 32 (RefDefs.maskOf T) natLt_1_32) (constantI S_ 32 0#32)
      reducesTo_S8x512_S8_d1 h_S_))
    (sitofp .f32 (Host.reduce IntOp.addi
      (extui 32 (extractStridedSlice S4x512 ![0, 0] (RefDefs.maskOf T) slices_S8x512_S4x512_0_0) natLt_1_32)
      (constantI S_ 32 0#32) reducesTo_S4x512_S_d0_1 h_S_))

/-- The result buffer after the whole list: the six stretches' functions nested. -/
theorem out_eq (V : Valuation τ sig (Elt Ideal)) :
    after (ops (F := Ideal)) V (main_v35 : DevRef τ sig)
      = refResult (V (main_arg0 : DevRef τ sig)) (V (main_arg1 : DevRef τ sig)) (V (main_arg2 : DevRef τ sig))
          (V (main_arg3 : DevRef τ sig)) := by
  rw [ops_eq, after_append, after_append, after_append, after_append, after_append]
  rw [F_v35, E_v12, E_v6, D_v9, D_v6, C_v6, C_v8, C_v4, B_v4, B_arg2, A_v3, A_arg2]
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

/-- On every device, from any memory with zero counters: every weakly fair execution of @main terminates with the
    result at the loss function of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
          = refResult (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v35).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRun

end
-- ==== Proof.RefLogitsAt.lean ====
/-
  The logits read at an index: entry (b, t, v) of X · Wᵀ + B is the sum over the 2048 hidden coordinates h of
  X(b, t, h) · W(v, h), plus the bias B(v).  The product contracts axis 2 of X with axis 1 of W; the bias is first
  placed on the last axis of a [1, 1, 32000] array and then broadcast over the 8 × 512 tokens.
-/
import proofs.«123221_j46720654246580_2_alg».proof.Proof.RefDefs
import Idealize.ShloMosaic.Lib.ValueIdx
import Idealize.ShloMosaic.Lib.Pipeline.Value
import Idealize.ShloMosaic.PureOps.Ideal.Laws

noncomputable section

namespace Cert.ReferenceIdeal.RefLogitsAt

open Idealize.ShloMosaic Idealize.ShloMosaic.ValueIdx Cert.ReferenceIdeal Cert.ReferenceIdeal.RefDefs

variable [Facts]
open Facts₀ Facts

/-- The product's dimension numbers. -/
abbrev D := dot_S8x512x2048_S32000x2048_S8x512x32000_2_1_01_0_n_n

/-- The left operand's index at output (b, t, v) and hidden coordinate h is (b, t, h). -/
theorem lhs_at (b : Fin 8) (t : Fin 512) (v : Fin 32000) (h : Fin 2048) :
    D.lhsIdx (ix3 b t v) ((contrEquiv1 D 2048 rfl rfl).symm h) = ix3 b t h := by
  have hk := contrEquiv1_symm_val D 2048 rfl rfl h
  refine funext fun a => Fin.ext ?_
  match a with
  | ⟨0, h0⟩ =>
    unfold DotDims.lhsIdx
    rw [dif_neg (show ¬(⟨0, h0⟩ : Fin S8x512x2048.rank) ∈ D.lhsBatch from List.not_mem_nil),
      dif_pos (show (⟨0, h0⟩ : Fin S8x512x2048.rank) ∈ D.lhsNonContracting from List.mem_cons.mpr (Or.inl rfl))]
    rfl
  | ⟨1, h1⟩ =>
    unfold DotDims.lhsIdx
    rw [dif_neg (show ¬(⟨1, h1⟩ : Fin S8x512x2048.rank) ∈ D.lhsBatch from List.not_mem_nil),
      dif_pos (show (⟨1, h1⟩ : Fin S8x512x2048.rank) ∈ D.lhsNonContracting from
        List.mem_cons.mpr (Or.inr (List.mem_cons.mpr (Or.inl rfl))))]
    rfl
  | ⟨2, _⟩ => exact (D.lhsIdx_val_of_single rfl _ _).trans hk

/-- The right operand's index at output (b, t, v) and hidden coordinate h is (v, h). -/
theorem rhs_at (b : Fin 8) (t : Fin 512) (v : Fin 32000) (h : Fin 2048) :
    D.rhsIdx (ix3 b t v) ((contrEquiv1 D 2048 rfl rfl).symm h) = ix2 v h := by
  have hk := contrEquiv1_symm_val D 2048 rfl rfl h
  refine funext fun a => Fin.ext ?_
  match a with
  | ⟨0, h0⟩ =>
    unfold DotDims.rhsIdx
    rw [dif_neg (show ¬(⟨0, h0⟩ : Fin S32000x2048.rank) ∈ D.rhsBatch from List.not_mem_nil),
      dif_pos (show (⟨0, h0⟩ : Fin S32000x2048.rank) ∈ D.rhsNonContracting from List.mem_cons.mpr (Or.inl rfl))]
    rfl
  | ⟨1, _⟩ => exact (D.rhsIdx_val_of_single rfl _ _).trans hk

/-- The product at (b, t, v): the sum over h of X(b, t, h) · W(v, h). -/
theorem dot_apply (W : FVec Ideal S32000x2048 .f32) (X : FVec Ideal S8x512x2048 .f32)
    (b : Fin 8) (t : Fin 512) (v : Fin 32000) :
    Host.dotGeneral (F := Ideal) D none X W (ix3 b t v) = ∑ h : Fin 2048, X (ix3 b t h) * W (ix2 v h) := by
  simp only [Host.dotGeneral]
  rw [Ideal.dotGeneral_apply, ← Equiv.sum_comp (contrEquiv1 D 2048 rfl rfl).symm]
  refine Finset.sum_congr rfl fun h _ => ?_
  rw [lhs_at, rhs_at]

/-- The bias broadcast to [8, 512, 32000], at (b, t, v), is B(v). -/
theorem bias_apply (B : FVec Ideal S32000 .f32) (b : Fin 8) (t : Fin 512) (v : Fin 32000) :
    broadcastInDim S8x512x32000 ![0, 1, 2] bcast_S1x1x32000_S8x512x32000_0_1_2
      (broadcastInDim S1x1x32000 ![2] bcast_S32000_S1x1x32000_2 B) (ix3 b t v) = B (ix1 v) := by
  rw [broadcastInDim_apply _ _ _ (ix3 b t v) (ix3 (0 : Fin 1) (0 : Fin 1) v) (fun a => by
    match a with
    | ⟨0, _⟩ => rfl
    | ⟨1, _⟩ => rfl
    | ⟨2, _⟩ => rfl)]
  exact broadcastInDim_apply _ _ _ (ix3 (0 : Fin 1) (0 : Fin 1) v) (ix1 v) (fun a => by
    match a with
    | ⟨0, _⟩ => rfl)

/-- The logits at (b, t, v). -/
theorem logits_apply (W : FVec Ideal S32000x2048 .f32) (X : FVec Ideal S8x512x2048 .f32) (B : FVec Ideal S32000 .f32)
    (b : Fin 8) (t : Fin 512) (v : Fin 32000) :
    logits W X B (ix3 b t v) = (∑ h : Fin 2048, X (ix3 b t h) * W (ix2 v h)) + B (ix1 v) := by
  unfold logits
  rw [addf_apply, dot_apply, bias_apply]

end Cert.ReferenceIdeal.RefLogitsAt

end
-- ==== Proof.RefSoftmaxAt.lean ====
/-
  The log-softmax along the vocabulary axis read at an index.  For scores x [8, 512, 32000] and a token (b, t), with
  M = max ⊥ (the maximum of the row x(b, t, ·) from ⊥):
    the row maximum at (b, t) is M,
    the shifted score at (b, t, v) is x(b, t, v) − M,
    the logarithm of the row's sum of exponentials is log (0 + Σ_v exp (x(b, t, v) − M)),
    and the log-softmax at (b, t, v) is (x(b, t, v) − M) − log (0 + Σ_v exp (x(b, t, v) − M)).
  A reduction from an initial value reads as that value combined with the fold (the maximum) or added to the sum.
-/
import proofs.«123221_j46720654246580_2_alg».proof.Proof.RefDefs
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefSoftmaxAt

open Idealize.ShloMosaic Idealize.ShloMosaic.ValueIdx Cert.ReferenceIdeal Cert.ReferenceIdeal.RefDefs

variable [Facts]
open Facts₀ Facts

/-- The word of −∞ denotes ⊥. -/
theorem neg_inf_word : Ideal.ofBits .f32 0xFF800000#32 = ⊥ := by simp [Ideal.ofBits, Ideal.ieee]

/-- Dropping axis 2 of [8, 512, 32000] leaves [8, 512]. -/
theorem red : S8x512x32000.Reduces [2] S8x512 := by decide

/-- The index over (b, t) with v inserted on axis 2 is (b, t, v). -/
theorem lift_at (b : Fin 8) (t : Fin 512) (v : Fin 32000) : red.lift (ix2 b t) v = ix3 b t v := by
  refine funext fun c => Fin.ext ?_
  show red.liftVal (ix2 b t) v.val c = (ix3 b t v c).val
  match c with
  | ⟨0, _⟩ => rfl
  | ⟨1, _⟩ => rfl
  | ⟨2, _⟩ => rfl

/-- The host's exponential at an index is the exponential of the element. -/
theorem hostExp_apply {s : Shape} (y : FVec Ideal s .f32) (i : s.Idx) : Host.exp y i = Ideal.exp (y i) := rfl

/-- The host's logarithm at an index is the logarithm of the element. -/
theorem hostLog_apply {s : Shape} (y : FVec Ideal s .f32) (i : s.Idx) : Host.log y i = Ideal.log (y i) := rfl

variable {α : Type}

/-- An [8, 512] array given a trailing unit axis: entry (b, t, ·) is entry (b, t). -/
theorem bcast_keep_apply (y : S8x512.Idx → α) (b : Fin 8) (t : Fin 512) (u : Fin 1) :
    broadcastInDim S8x512x1 ![0, 1] bcast_S8x512_S8x512x1_0_1 y (ix3 b t u) = y (ix2 b t) :=
  broadcastInDim_apply _ _ _ (ix3 b t u) (ix2 b t) (fun a => by
    match a with
    | ⟨0, _⟩ => rfl
    | ⟨1, _⟩ => rfl)

/-- An [8, 512, 1] column broadcast along the vocabulary axis: entry (b, t, v) is entry (b, t, 0). -/
theorem bcast_col_apply (y : S8x512x1.Idx → α) (b : Fin 8) (t : Fin 512) (v : Fin 32000) :
    broadcastInDim S8x512x32000 ![0, 1, 2] bcast_S8x512x1_S8x512x32000_0_1_2 y (ix3 b t v) = y (ix3 b t (0 : Fin 1)) :=
  broadcastInDim_apply _ _ _ (ix3 b t v) (ix3 b t (0 : Fin 1)) (fun a => by
    match a with
    | ⟨0, _⟩ => rfl
    | ⟨1, _⟩ => rfl
    | ⟨2, _⟩ => rfl)

/-- The maximum along the vocabulary axis from the word of −∞, at (b, t): the fold of max from ⊥ over the row. -/
theorem reduceMax_apply (x : FVec Ideal S8x512x32000 .f32) (b : Fin 8) (t : Fin 512) :
    Host.reduce (FloatOps.maximumf (F := Ideal) (φ := .f32)) x (constant (F := Ideal) S_ .f32 0xFF800000#32)
        reducesTo_S8x512x32000_S8x512_d2 h_S_ (ix2 b t)
      = (Finset.univ : Finset (Fin 32000)).fold max ⊥ (fun v => x (ix3 b t v)) := by
  refine (Host.reduce_eq_fold_single _ x _ reducesTo_S8x512x32000_S8x512_d2 red h_S_ (ix2 b t)).trans ?_
  show (Finset.univ : Finset (Fin 32000)).fold max (Ideal.ofBits .f32 0xFF800000#32) (x ∘ red.lift (ix2 b t)) = _
  rw [neg_inf_word]
  refine Finset.fold_congr fun k _ => ?_
  exact congrArg x (lift_at b t k)

/-- The row maximum at (b, t). -/
theorem rowMax_apply (x : FVec Ideal S8x512x32000 .f32) (b : Fin 8) (t : Fin 512) :
    rowMax x (ix2 b t) = max ⊥ ((Finset.univ : Finset (Fin 32000)).fold max ⊥ (fun v => x (ix3 b t v))) := by
  unfold rowMax
  rw [maximumf_apply, reduceMax_apply, broadcastInDim_scalar_apply, constant_apply, neg_inf_word]

/-- The shifted score at (b, t, v). -/
theorem shifted_apply (x : FVec Ideal S8x512x32000 .f32) (b : Fin 8) (t : Fin 512) (v : Fin 32000) :
    shifted x (ix3 b t v) = x (ix3 b t v) - rowMax x (ix2 b t) := by
  unfold shifted
  rw [subf_apply, bcast_col_apply, bcast_keep_apply]

/-- The logarithm of the row's sum of exponentials at (b, t, ·). -/
theorem logSumExp_apply (x : FVec Ideal S8x512x32000 .f32) (b : Fin 8) (t : Fin 512) (u : Fin 1) :
    logSumExp x (ix3 b t u) = Ideal.log (0 + ∑ v : Fin 32000, Ideal.exp (shifted x (ix3 b t v))) := by
  unfold logSumExp
  rw [hostLog_apply, bcast_keep_apply, hostReduceAdd_apply, Ideal.hostReduceAdd_single _ red, constant_apply,
    Ideal.ofBits_zero_f32]
  refine congrArg (fun z => Ideal.log (0 + z)) ?_
  show (∑ k : Fin 32000, Host.exp (shifted x) (red.lift (ix2 b t) k)) = ∑ v : Fin 32000, Ideal.exp (shifted x (ix3 b t v))
  refine Finset.sum_congr rfl fun k _ => ?_
  rw [hostExp_apply]
  exact congrArg (fun i => Ideal.exp (shifted x i)) (lift_at b t k)

/-- The log-softmax at (b, t, v). -/
theorem logSoftmax_apply (x : FVec Ideal S8x512x32000 .f32) (b : Fin 8) (t : Fin 512) (v : Fin 32000) :
    logSoftmax x (ix3 b t v)
      = (x (ix3 b t v) - max ⊥ ((Finset.univ : Finset (Fin 32000)).fold max ⊥ (fun w => x (ix3 b t w))))
        - Ideal.log (0 + ∑ w : Fin 32000,
            Ideal.exp (x (ix3 b t w) - max ⊥ ((Finset.univ : Finset (Fin 32000)).fold max ⊥ (fun w => x (ix3 b t w))))) := by
  unfold logSoftmax
  rw [subf_apply, bcast_col_apply, logSumExp_apply]
  simp only [shifted_apply, rowMax_apply]

end Cert.ReferenceIdeal.RefSoftmaxAt

end
-- ==== Proof.RefTakeAt.lean ====
/-
  The pick along the vocabulary axis at a token whose index is an in-range label.  If the index array holds, at
  (b, t, ·), the 32-bit word of a natural number ℓ below 32000, then: the word is not negative, so no wrap by 32000
  happens; it passes the bounds test 0 ≤ · ≤ 31999; the gather, whose start index on the vocabulary axis is the word
  read as a signed integer and clamped into [0, 31999], reads column ℓ of row (b, t); and the select returns the
  gathered element.  Hence the pick at (b, t, ·) is the operand at (b, t, ℓ).
-/
import proofs.«123221_j46720654246580_2_alg».proof.Proof.RefDefs
import Idealize.ShloMosaic.Lib.ValueIdx
import Idealize.ShloMosaic.Lib.Pipeline.Value
import Idealize.ShloMosaic.PureOps.Reduce

noncomputable section

namespace Cert.ReferenceIdeal.RefTakeAt

open Idealize.ShloMosaic Idealize.ShloMosaic.ValueIdx Cert.ReferenceIdeal Cert.ReferenceIdeal.RefDefs

variable [Facts]
open Facts₀ Facts

/-! ## Words of small natural numbers -/

/-- The 32-bit word of a natural number below 32000, read as a signed integer, is the number. -/
theorem toInt_label (n : ℕ) (hn : n < 32000) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- Such a word is not below zero … -/
theorem not_neg (n : ℕ) (hn : n < 32000) : IntOp.cmpi .slt (BitVec.ofNat 32 n) 0#32 = 0#1 := by
  have h0 : (0#32 : BitVec 32).toInt = 0 := by decide
  have : (BitVec.ofNat 32 n).slt 0#32 = false := by
    unfold BitVec.slt
    rw [toInt_label n hn, h0]
    exact decide_eq_false (by omega)
  show BitVec.ofBool ((BitVec.ofNat 32 n).slt 0#32) = 0#1
  rw [this]
  rfl

/-- … it is at least zero … -/
theorem nonneg (n : ℕ) (hn : n < 32000) : IntOp.cmpi .sge (BitVec.ofNat 32 n) 0#32 = 1#1 := by
  have h0 : (0#32 : BitVec 32).toInt = 0 := by decide
  have : (0#32 : BitVec 32).sle (BitVec.ofNat 32 n) = true := by
    unfold BitVec.sle
    rw [toInt_label n hn, h0]
    exact decide_eq_true (by omega)
  show BitVec.ofBool ((0#32 : BitVec 32).sle (BitVec.ofNat 32 n)) = 1#1
  rw [this]
  rfl

/-- … and at most 31999. -/
theorem le_last (n : ℕ) (hn : n < 32000) : IntOp.cmpi .sle (BitVec.ofNat 32 n) 31999#32 = 1#1 := by
  have h1 : (31999#32 : BitVec 32).toInt = 31999 := toInt_label 31999 (by omega)
  have : (BitVec.ofNat 32 n).sle 31999#32 = true := by
    unfold BitVec.sle
    rw [toInt_label n hn, h1]
    exact decide_eq_true (by omega)
  show BitVec.ofBool ((BitVec.ofNat 32 n).sle 31999#32) = 1#1
  rw [this]
  rfl

/-! ## The index: no wrap, and its reshape to [8, 512, 1, 1] -/

/-- An in-range label is not wrapped. -/
theorem wrapIdx_of_label (idx : IVec S8x512x1 32) (b : Fin 8) (t : Fin 512) (u : Fin 1) (n : ℕ) (hn : n < 32000)
    (h : idx (ix3 b t u) = BitVec.ofNat 32 n) : wrapIdx idx (ix3 b t u) = BitVec.ofNat 32 n := by
  unfold wrapIdx
  rw [select_apply]
  show Scalar.select (IntOp.cmpi .slt (idx (ix3 b t u)) 0#32) _ (idx (ix3 b t u)) = _
  rw [h, not_neg n hn, select_zero]

/-- The [8, 512, 1, 1] start indices at (b, t, ·, ·) are the [8, 512, 1] indices at (b, t, ·). -/
theorem idx4_apply (idx : IVec S8x512x1 32) (b : Fin 8) (t : Fin 512) (u u' : Fin 1) :
    idx4 idx (ix4 b t u u') = wrapIdx idx (ix3 b t u) := by
  unfold idx4
  exact shapeCast_apply _ _ (ix4 b t u u') (ix3 b t u) (by
    rw [Shape.rowMajor_val_three, Shape.rowMajor_val_four]
    show (b.val * 512 + t.val) * 1 + u.val = ((b.val * 512 + t.val) * 1 + u.val) * 1 + u'.val
    have := u'.isLt
    omega)

/-! ## The bounds test -/

/-- Dropping axis 3 of [8, 512, 1, 1] leaves [8, 512, 1]. -/
theorem red4 : S8x512x1x1.Reduces [3] S8x512x1 := by decide

/-- The index over (b, t, u) with 0 inserted on axis 3 is (b, t, u, 0). -/
theorem lift4_at (b : Fin 8) (t : Fin 512) (u : Fin 1) (k : Fin 1) : red4.lift (ix3 b t u) k = ix4 b t u k := by
  refine funext fun c => Fin.ext ?_
  show red4.liftVal (ix3 b t u) k.val c = (ix4 b t u k c).val
  match c with
  | ⟨0, _⟩ => rfl
  | ⟨1, _⟩ => rfl
  | ⟨2, _⟩ => rfl
  | ⟨3, _⟩ => rfl

/-- The fold of `and` from `true` along the unit axis 3, at (b, t, u): the one element (b, t, u, 0), and-ed with
    `true`. -/
theorem reduceAnd_apply (V : IVec S8x512x1x1 1) (b : Fin 8) (t : Fin 512) (u : Fin 1) :
    Host.reduce IntOp.andi V (constantI S_ 1 1#1) reducesTo_S8x512x1x1_S8x512x1_d3 h_S_ (ix3 b t u)
      = IntOp.andi (V (ix4 b t u (0 : Fin 1))) 1#1 := by
  have key : ∀ g : Fin 1 → BitVec 1,
      (Finset.univ : Finset (Fin 1)).fold IntOp.andi 1#1 g = IntOp.andi (g (0 : Fin 1)) 1#1 := by
    intro g
    rw [Finset.univ_unique, Finset.fold_singleton]
    rfl
  refine (Host.reduce_eq_fold_single _ V _ reducesTo_S8x512x1x1_S8x512x1_d3 red4 h_S_ (ix3 b t u)).trans ?_
  exact (key (V ∘ red4.lift (ix3 b t u))).trans
    (congrArg (fun i => IntOp.andi (V i) 1#1) (lift4_at b t u (0 : Fin 1)))

/-- An in-range label passes the bounds test. -/
theorem inBounds_of_label (idx : IVec S8x512x1 32) (b : Fin 8) (t : Fin 512) (u : Fin 1) (n : ℕ) (hn : n < 32000)
    (h : idx (ix3 b t u) = BitVec.ofNat 32 n) : inBounds idx (ix3 b t u) = 1#1 := by
  unfold inBounds
  rw [reduceAnd_apply]
  show IntOp.andi (IntOp.andi (IntOp.cmpi .sge (idx4 idx (ix4 b t u (0 : Fin 1))) 0#32)
    (IntOp.cmpi .sle (idx4 idx (ix4 b t u (0 : Fin 1))) 31999#32)) 1#1 = 1#1
  rw [idx4_apply, wrapIdx_of_label idx b t u n hn h, nonneg n hn, le_last n hn]
  rfl

/-! ## The gather -/

/-- The gather's dimension numbers: batching axes 0 and 1 on both sides, the vocabulary axis collapsed and indexed by
    the one-component start index on axis 3. -/
abbrev G := gather_S8x512x32000_S8x512x1x1_S8x512x1_n_2_01_01_2_3_111

/-- The gather at (b, t, u): row (b, t) of the operand at the start index (b, t, u, 0), read signed and clamped into
    [0, 31999]. -/
theorem gather_at (lp : FVec Ideal S8x512x32000 .f32) (i4 : IVec S8x512x1x1 32) (b : Fin 8) (t : Fin 512) (u : Fin 1) :
    Host.gather G lp i4 (ix3 b t u)
      = lp (ix3 b t (⟨min (i4 (ix4 b t u (0 : Fin 1))).toInt.toNat 31999, by omega⟩ : Fin 32000)) := by
  unfold Host.gather
  refine congrArg lp (funext fun a => Fin.ext ?_)
  show G.start (ix3 b t u) i4 a + G.batchCoord (ix3 b t u) a + G.offCoord (ix3 b t u) a = _
  match a with
  | ⟨0, h0⟩ =>
    have hb : (⟨0, h0⟩ : Fin S8x512x32000.rank) ∈ G.operandBatchingDims := List.mem_cons.mpr (Or.inl rfl)
    rw [G.start_batching _ _ _ hb, G.offCoord_eq_zero _ _ (fun h => ((G.mem_sKept _).mp h).2 hb), Nat.zero_add,
      Nat.add_zero]
    unfold GatherDims.batchCoord
    rw [dif_pos hb]
    rfl
  | ⟨1, h1⟩ =>
    have hb : (⟨1, h1⟩ : Fin S8x512x32000.rank) ∈ G.operandBatchingDims :=
      List.mem_cons.mpr (Or.inr (List.mem_cons.mpr (Or.inl rfl)))
    rw [G.start_batching _ _ _ hb, G.offCoord_eq_zero _ _ (fun h => ((G.mem_sKept _).mp h).2 hb), Nat.zero_add,
      Nat.add_zero]
    unfold GatherDims.batchCoord
    rw [dif_pos hb]
    rfl
  | ⟨2, h2⟩ =>
    have hc : (⟨2, h2⟩ : Fin S8x512x32000.rank) ∈ G.collapsedSliceDims := List.mem_cons.mpr (Or.inl rfl)
    have hnb : (⟨2, h2⟩ : Fin S8x512x32000.rank) ∉ G.operandBatchingDims :=
      (by decide : (2 : Fin 3) ∉ ([0, 1] : List (Fin 3)))
    have hm : (⟨2, h2⟩ : Fin S8x512x32000.rank) ∈ G.startIndexMap := List.mem_cons.mpr (Or.inl rfl)
    rw [G.batchCoord_eq_zero _ _ hnb, G.offCoord_eq_zero _ _ (fun h => ((G.mem_sKept _).mp h).1 hc)]
    simp only [Nat.add_zero]
    unfold GatherDims.start
    rw [dif_pos hm]
    have hsi : G.siIdx (ix3 b t u) ⟨List.idxOf (⟨2, h2⟩ : Fin S8x512x32000.rank) G.startIndexMap,
        List.idxOf_lt_length_iff.2 hm⟩ = ix4 b t u (0 : Fin 1) := by
      funext c; refine Fin.ext ?_
      match c with
      | ⟨0, _⟩ => rfl
      | ⟨1, _⟩ => rfl
      | ⟨2, _⟩ => rfl
      | ⟨3, _⟩ => rfl
    rw [hsi]
    rfl

/-- At the word of an in-range label ℓ the gather reads column ℓ. -/
theorem gather_of_label (lp : FVec Ideal S8x512x32000 .f32) (i4 : IVec S8x512x1x1 32) (b : Fin 8) (t : Fin 512)
    (u : Fin 1) (ℓ : Fin 32000) (h : i4 (ix4 b t u (0 : Fin 1)) = BitVec.ofNat 32 ℓ.val) :
    Host.gather G lp i4 (ix3 b t u) = lp (ix3 b t ℓ) := by
  rw [gather_at]
  refine congrArg (fun v => lp (ix3 b t v)) (Fin.ext ?_)
  show min (i4 (ix4 b t u (0 : Fin 1))).toInt.toNat 31999 = ℓ.val
  rw [h]
  have h1 := toInt_label ℓ.val ℓ.isLt
  have h2 := ℓ.isLt
  omega

/-! ## The pick -/

/-- The pick at a token whose index is the word of an in-range label ℓ: the operand at (b, t, ℓ). -/
theorem takeAlong_of_label (lp : FVec Ideal S8x512x32000 .f32) (idx : IVec S8x512x1 32) (b : Fin 8) (t : Fin 512)
    (u : Fin 1) (ℓ : Fin 32000) (h : idx (ix3 b t u) = BitVec.ofNat 32 ℓ.val) :
    takeAlong lp idx (ix3 b t u) = lp (ix3 b t ℓ) := by
  unfold takeAlong
  rw [select_apply, inBounds_of_label idx b t u ℓ.val ℓ.isLt h, select_one]
  exact gather_of_label lp (idx4 idx) b t u ℓ
    ((idx4_apply idx b t u (0 : Fin 1)).trans (wrapIdx_of_label idx b t u ℓ.val ℓ.isLt h))

end Cert.ReferenceIdeal.RefTakeAt

end
-- ==== Proof.RefLogp.lean ====
/-
  The reference's picked log-probability at a token whose target is an in-range label.  If the target at (b, t) is the
  32-bit word of a natural number ℓ below 32000, then the target is not the ignore word −100, so the label is ℓ
  itself; the pick along the vocabulary axis reads column ℓ of the log-softmax of the logits; and the value is
  (x ℓ − M) − log (0 + Σ_v exp (x v − M)) for the token's row of logits x v = Σ_h X(b, t, h) · W(v, h) + B(v) and
  M = max ⊥ (the maximum of the row from ⊥).  No finiteness of the inputs is used.
-/
import proofs.«123221_j46720654246580_2_alg».proof.Proof.RefDefs
import proofs.«123221_j46720654246580_2_alg».proof.Proof.RefLogitsAt
import proofs.«123221_j46720654246580_2_alg».proof.Proof.RefSoftmaxAt
import proofs.«123221_j46720654246580_2_alg».proof.Proof.RefTakeAt
import proofs.«123221_j46720654246580_2_alg».proof.Proof.Spec
import Idealize.ShloMosaic.Lib.ValueIdx
import Idealize.ShloMosaic.Lib.Pipeline.Value

noncomputable section

namespace Cert.ReferenceIdeal.RefLogp

open Idealize.ShloMosaic Idealize.ShloMosaic.ValueIdx Cert.ReferenceIdeal Cert.ReferenceIdeal.RefDefs

variable [Facts]
open Facts₀ Facts

/-- The word of a natural number below 32000 is not the ignore word (−100 as a 32-bit word). -/
theorem ne_ignore (n : ℕ) (hn : n < 32000) : IntOp.cmpi .ne (BitVec.ofNat 32 n) 4294967196#32 = 1#1 := by
  have hne : BitVec.ofNat 32 n ≠ 4294967196#32 := by
    intro h
    have h' := congrArg BitVec.toNat h
    rw [BitVec.toNat_ofNat, BitVec.toNat_ofNat] at h'
    omega
  show BitVec.ofBool (BitVec.ofNat 32 n != 4294967196#32) = 1#1
  rw [bne_iff_ne.mpr hne]
  rfl

/-- A token whose target is an in-range label counts. -/
theorem maskOf_of_label (T : IVec S8x512 32) (b : Fin 8) (t : Fin 512) (n : ℕ) (hn : n < 32000)
    (hT : T (ix2 b t) = BitVec.ofNat 32 n) : maskOf T (ix2 b t) = 1#1 := by
  unfold maskOf
  show IntOp.cmpi .ne (T (ix2 b t)) 4294967196#32 = 1#1
  rw [hT, ne_ignore n hn]

/-- The mask at a token is the comparison of its target with the ignore word. -/
theorem maskOf_apply (T : IVec S8x512 32) (b : Fin 8) (t : Fin 512) :
    maskOf T (ix2 b t) = IntOp.cmpi .ne (T (ix2 b t)) 4294967196#32 := rfl

/-- A token whose target is the ignore word does not count. -/
theorem maskOf_of_ignore (T : IVec S8x512 32) (b : Fin 8) (t : Fin 512) (hT : T (ix2 b t) = 4294967196#32) :
    maskOf T (ix2 b t) = 0#1 := by
  rw [maskOf_apply, hT]
  rfl

/-- Its label is the target. -/
theorem labelsOf_of_label (T : IVec S8x512 32) (b : Fin 8) (t : Fin 512) (n : ℕ) (hn : n < 32000)
    (hT : T (ix2 b t) = BitVec.ofNat 32 n) : labelsOf T (ix2 b t) = BitVec.ofNat 32 n := by
  unfold labelsOf
  rw [select_apply, maskOf_of_label T b t n hn hT, select_one, hT]

/-- The picked log-probability at a token whose target is the in-range label ℓ. -/
theorem lpR_apply (W : FVec Ideal S32000x2048 .f32) (X : FVec Ideal S8x512x2048 .f32) (T : IVec S8x512 32)
    (B : FVec Ideal S32000 .f32) (b : Fin 8) (t : Fin 512) (ℓ : Fin 32000)
    (hT : T (ix2 b t) = BitVec.ofNat 32 ℓ.val) :
    lpR W X T B (ix2 b t)
      = Cert.Spec.plainLogp (fun v : Fin 32000 => (∑ h : Fin 2048, X (ix3 b t h) * W (ix2 v h)) + B (ix1 v)) ℓ := by
  unfold lpR
  rw [shapeCast_apply _ _ (ix2 b t) (ix3 b t (0 : Fin 1)) (by
    rw [Shape.rowMajor_val_three, Shape.rowMajor_val_two]
    show (b.val * 512 + t.val) * 1 + 0 = b.val * 512 + t.val
    omega)]
  rw [RefTakeAt.takeAlong_of_label _ _ b t (0 : Fin 1) ℓ
    ((RefSoftmaxAt.bcast_keep_apply _ b t (0 : Fin 1)).trans (labelsOf_of_label T b t ℓ.val ℓ.isLt hT))]
  rw [RefSoftmaxAt.logSoftmax_apply]
  simp only [RefLogitsAt.logits_apply, Cert.Spec.plainLogp]

end Cert.ReferenceIdeal.RefLogp

end
-- ==== Proof.LibBitCount.lean ====
/-
  Counting with one-bit indicators.  A family of one-bit words, each widened to a 32-bit word and read as a signed
  integer, sums — as real numbers, and as extended reals — to the number of ones among them; and a count below 2³¹,
  written as a 32-bit word, exceeds the word 8 in the signed order exactly when the number exceeds 8.
-/
import Mathlib.Data.EReal.Basic
import Mathlib.Algebra.BigOperators.Ring.Finset

open scoped BigOperators

namespace Cert.Lib.BitCount

/-- A finite sum of reals, cast into the extended reals, is the sum of the casts. -/
theorem coe_sum {ι : Type*} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- A one-bit word widened to 32 bits and read signed is 1 for the bit 1 and 0 for the bit 0. -/
theorem toInt_setWidth : ∀ b : BitVec 1, (b.setWidth 32).toInt = if b = 1#1 then 1 else 0 := by decide

/-- The widened bits, read as extended reals, sum to the number of ones. -/
theorem sum_bits_eq_card {ι : Type*} (S : Finset ι) (w : ι → BitVec 1) :
    ∑ k ∈ S, ((((w k).setWidth 32).toInt : ℝ) : EReal)
      = (((S.filter fun k => w k = 1#1).card : ℝ) : EReal) := by
  rw [← coe_sum]
  congr 1
  simp only [toInt_setWidth, Int.cast_ite, Int.cast_one, Int.cast_zero, Finset.sum_boole]

/-- A number below 2³¹, as a 32-bit word, is above the word 8 in the signed order exactly when it is above 8. -/
theorem slt_eight_ofNat {n : ℕ} (hn : n < 2 ^ 31) : (8#32).slt (BitVec.ofNat 32 n) = decide (8 < n) := by
  have h1 : (BitVec.ofNat 32 n).toNat = n := by
    rw [BitVec.toNat_ofNat]; exact Nat.mod_eq_of_lt (by omega)
  have h2 : (BitVec.ofNat 32 n).toInt = (n : ℤ) := by
    rw [BitVec.toInt_eq_toNat_cond, h1]; rw [if_pos (by omega)]
  have h3 : (8#32 : BitVec 32).toInt = 8 := by decide
  rw [BitVec.slt, h2, h3]
  simp

end Cert.Lib.BitCount
-- ==== Proof.CountLaw.lean ====
/-
  Counting a mask's ones: as a 32-bit integer sum converted to a float, and as a float sum of the converted mask.

  A mask is a family of one-bit words. Widening each word to 32 bits and adding them up as 32-bit integers from 0
  gives, over any set of at most 2³¹ − 1 positions, the word of the number of ones among them (no wrap-around); read
  as a signed integer it is that number, and its conversion to an exact float is the cast of that number. Converting
  each one-bit word to a float first (1 for the bit 1, 0 for the bit 0) and adding exactly from 0 gives the same
  number. A host reduction of either kind, along any axes, is at each result index such a sum over the operand
  indices that drop to it, so the two agree whatever the axes.
-/
import Idealize.ShloMosaic.PureOps
import Idealize.ShloMosaic.PureOps.Ideal
import Idealize.ShloMosaic.PureOps.Reduce
import proofs.«123221_j46720654246580_2_alg».proof.Proof.LibBitCount

namespace Cert.CountLaw

open Idealize.ShloMosaic

/-- A one-bit word is 0 or 1. -/
theorem bit_cases : ∀ b : BitVec 1, b = 0#1 ∨ b = 1#1 := by decide

/-- A one-bit word read unsigned is its widening to 32 bits read signed. -/
theorem toNat_eq_toInt_setWidth : ∀ b : BitVec 1, (b.toNat : ℤ) = (b.setWidth 32).toInt := by decide

/-- The 32-bit integer sum, from 0, of one-bit words widened to 32 bits is the word of the number of ones. -/
theorem fold_addi_bits {ι : Type*} (S : Finset ι) (w : ι → BitVec 1) :
    S.fold IntOp.addi 0#32 (fun i => (w i).setWidth 32)
      = BitVec.ofNat 32 (S.filter fun i => w i = 1#1).card := by
  classical
  induction S using Finset.induction_on with
  | empty => rfl
  | insert a S ha ih =>
    rw [Finset.fold_insert ha, ih, Finset.filter_insert]
    rcases bit_cases (w a) with h | h
    · rw [if_neg (by rw [h]; decide), h]
      show (0#1 : BitVec 1).setWidth 32 + _ = _
      rw [show (0#1 : BitVec 1).setWidth 32 = 0#32 by decide, BitVec.zero_add]
    · rw [if_pos h, Finset.card_insert_of_notMem (fun hm => ha (Finset.mem_filter.mp hm).1), h]
      show (1#1 : BitVec 1).setWidth 32 + _ = _
      rw [show (1#1 : BitVec 1).setWidth 32 = BitVec.ofNat 32 1 by decide, BitVec.ofNat_add_ofNat, Nat.add_comm]

/-- A number below 2³¹, written as a 32-bit word and read signed, is that number. -/
theorem toInt_ofNat_lt {n : ℕ} (hn : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_cond, h1, if_pos (by omega)]

/-- Counting the ones of a mask by a host integer sum and converting the count to a float is, with exact floats,
    the host float sum of the mask converted to floats: along any axes, for an operand of fewer than 2³¹ elements. -/
theorem count_any {s t u : Shape} {axes : List (Fin s.rank)} (mk : IVec s 1) (h : s.ReducesTo axes t)
    (hu : 0 < u.numel) (hlt : 1 < 32) (hn : s.numel < 2 ^ 31) :
    sitofp (F := Ideal) .f32 (Host.reduce IntOp.addi (extui 32 mk hlt) (constantI u 32 0#32) h hu)
      = Host.reduceAdd (uitofp (F := Ideal) .f32 mk) (constant (F := Ideal) u .f32 0x00000000#32) h hu := by
  funext j
  have hcard : ((Finset.univ.filter fun i : s.Idx => h.drop i = j).filter fun i => mk i = 1#1).card < 2 ^ 31 :=
    calc _ ≤ (Finset.univ.filter fun i : s.Idx => h.drop i = j).card := Finset.card_filter_le _ _
      _ ≤ (Finset.univ : Finset s.Idx).card := Finset.card_filter_le _ _
      _ = s.numel := by rw [Finset.card_univ, Shape.card_idx]
      _ < 2 ^ 31 := hn
  have hL : sitofp (F := Ideal) .f32 (Host.reduce IntOp.addi (extui 32 mk hlt) (constantI u 32 0#32) h hu) j
      = ((((Finset.univ.filter fun i : s.Idx => h.drop i = j).filter fun i => mk i = 1#1).card : ℝ) : EReal) := by
    show ((((Host.reduce IntOp.addi (extui 32 mk hlt) (constantI u 32 0#32) h hu j).toInt : ℤ) : ℝ) : EReal) = _
    rw [Host.reduce_eq_fold]
    show ((((Finset.univ.filter fun i : s.Idx => h.drop i = j).fold IntOp.addi 0#32
      (fun i => (mk i).setWidth 32)).toInt : ℝ) : EReal) = _
    rw [fold_addi_bits, toInt_ofNat_lt hcard, Int.cast_natCast]
  have hz : Ideal.ofBits .f32 0x00000000#32 = 0 := by simp [Ideal.ofBits, Ideal.ieee]
  have hR : Host.reduceAdd (uitofp (F := Ideal) .f32 mk) (constant (F := Ideal) u .f32 0x00000000#32) h hu j
      = ((((Finset.univ.filter fun i : s.Idx => h.drop i = j).filter fun i => mk i = 1#1).card : ℝ) : EReal) := by
    show Ideal.ofBits .f32 0x00000000#32
        + ∑ i ∈ Finset.univ.filter (fun i : s.Idx => h.drop i = j), ((((mk i).toNat : ℕ) : ℝ) : EReal) = _
    rw [hz, zero_add, ← Cert.Lib.BitCount.sum_bits_eq_card]
    refine Finset.sum_congr rfl fun i _ => ?_
    rw [← toNat_eq_toInt_setWidth, Int.cast_natCast]
  rw [hL, hR]

/-- The count of each of the 8 rows of an 8 × 512 mask. -/
theorem count_rows (mk : IVec ⟨2, ![8, 512]⟩ 1) (r1 : (⟨2, ![8, 512]⟩ : Shape).ReducesTo [1] ⟨1, ![8]⟩)
    (h0 : 0 < (⟨0, ![]⟩ : Shape).numel) (hlt : 1 < 32) :
    sitofp (F := Ideal) .f32 (Host.reduce IntOp.addi (extui 32 mk hlt) (constantI ⟨0, ![]⟩ 32 0#32) r1 h0)
      = Host.reduceAdd (uitofp (F := Ideal) .f32 mk) (constant (F := Ideal) ⟨0, ![]⟩ .f32 0x00000000#32) r1 h0 :=
  count_any mk r1 h0 hlt (by decide)

/-- The count of a whole 4 × 512 mask. -/
theorem count_all (mk : IVec ⟨2, ![4, 512]⟩ 1) (r01 : (⟨2, ![4, 512]⟩ : Shape).ReducesTo [0, 1] ⟨0, ![]⟩)
    (h0 : 0 < (⟨0, ![]⟩ : Shape).numel) (hlt : 1 < 32) :
    sitofp (F := Ideal) .f32 (Host.reduce IntOp.addi (extui 32 mk hlt) (constantI ⟨0, ![]⟩ 32 0#32) r01 h0)
      = Host.reduceAdd (uitofp (F := Ideal) .f32 mk) (constant (F := Ideal) ⟨0, ![]⟩ .f32 0x00000000#32) r01 h0 :=
  count_any mk r01 h0 hlt (by decide)

end Cert.CountLaw
-- ==== Proof.Bridge.lean ====
/-
  The two programs' results are one number.

  Both end with the shared closing stretch applied to (masked per-token log-probabilities, per-sequence counts,
  chosen-half count). The counts agree because a 32-bit integer sum of at most 4096 mask bits, converted to a float,
  is the float sum of the bits. The masked log-probabilities agree entry by entry: where the target is the ignore value
  the mask's float is 0 and both products are 0; where it is an in-range label ℓ, the streaming pass's column and the
  reference's picked log-softmax are both the plain log-softmax of the token's logits at ℓ.
-/
import proofs.«123221_j46720654246580_2_alg».proof.Proof.KTail
import proofs.«123221_j46720654246580_2_alg».proof.Proof.RefRun
import proofs.«123221_j46720654246580_2_alg».proof.Proof.RefLogp
import proofs.«123221_j46720654246580_2_alg».proof.Proof.CountLaw
import proofs.«123221_j46720654246580_2_alg».proof.Proof.BridgeMath
import Idealize.ShloMosaic.Lib.ValueIdx
import Idealize.ShloMosaic.Lib.Pipeline.Value

set_option maxRecDepth 16384

noncomputable section

namespace Cert.Bridge

open Idealize.ShloMosaic Idealize.ShloMosaic.ValueIdx Cert.Spec

abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S4096x1 : Shape := ⟨2, ![4096, 1]⟩

/-- A token's row of logits from the argument arrays. -/
def logit (W : FVec Ideal S32000x2048 .f32) (X : FVec Ideal S8x512x2048 .f32) (B : FVec Ideal S32000 .f32)
    (b : Fin 8) (s : Fin 512) (v : Fin 32000) : EReal :=
  (∑ h : Fin 2048, X (ix3 b s h) * W (ix2 v h)) + B (ix1 v)

/-- The kernel program's mask is the reference's. -/
theorem mask_eq (T : IVec S8x512 32) : Cert.KernelIdeal.KTail.maskOf T = Cert.ReferenceIdeal.RefDefs.maskOf T := rfl

/-- THE LOSSES AGREE, given the column's value at every token whose target is an in-range label. -/
theorem loss_eq (W : FVec Ideal S32000x2048 .f32) (X : FVec Ideal S8x512x2048 .f32) (T : IVec S8x512 32)
    (B : FVec Ideal S32000 .f32) (GK : FVec Ideal S4096x1 .f32)
    (hT : ∀ i : S8x512.Idx, T i = 4294967196#32 ∨ (T i).toNat < 32000)
    (hG : ∀ (b : Fin 8) (s : Fin 512) (ℓ : Fin 32000), T (ix2 b s) = BitVec.ofNat 32 ℓ.val →
      GK (ix2 ⟨b.val * 512 + s.val, by have := b.isLt; have := s.isLt; omega⟩ (0 : Fin 1)) = plainLogp (logit W X B b s) ℓ) :
    Cert.KernelIdeal.KTail.lossOf GK (Cert.KernelIdeal.KTail.maskOf T) = Cert.ReferenceIdeal.RefRun.refResult W X T B := by
  unfold Cert.KernelIdeal.KTail.lossOf Cert.ReferenceIdeal.RefRun.refResult
  rw [mask_eq T]
  -- the counts
  rw [Cert.CountLaw.count_rows (Cert.ReferenceIdeal.RefDefs.maskOf T), Cert.CountLaw.count_all]
  -- the masked log-probabilities
  have hp : mulf (shapeCast S8x512 GK Cert.KernelIdeal.Gen.shapeCasts_S4096x1_S8x512) (uitofp (F := Ideal) .f32 (Cert.ReferenceIdeal.RefDefs.maskOf T))
      = mulf (Cert.ReferenceIdeal.RefDefs.lpR W X T B) (uitofp (F := Ideal) .f32 (Cert.ReferenceIdeal.RefDefs.maskOf T)) := by
    funext i
    obtain ⟨b, s, rfl⟩ : ∃ (b : Fin 8) (s : Fin 512), i = ix2 b s := ⟨i 0, i 1, eq_ix2 i⟩
    rw [mulf_apply, mulf_apply]
    rcases hT (ix2 b s) with h | h
    · have h0 : uitofp (F := Ideal) .f32 (Cert.ReferenceIdeal.RefDefs.maskOf T) (ix2 b s) = 0 := by
        show FloatOps.uitofp (F := Ideal) .f32 (Cert.ReferenceIdeal.RefDefs.maskOf T (ix2 b s)) = 0
        rw [Cert.ReferenceIdeal.RefLogp.maskOf_of_ignore T b s h, Cert.BridgeMath.uitofp_zero]
      rw [h0, mul_zero, mul_zero]
    · have hℓ : T (ix2 b s) = BitVec.ofNat 32 (⟨(T (ix2 b s)).toNat, h⟩ : Fin 32000).val :=
        BitVec.eq_of_toNat_eq (by
          show (T (ix2 b s)).toNat = (BitVec.ofNat 32 (T (ix2 b s)).toNat).toNat
          rw [BitVec.toNat_ofNat, Nat.mod_eq_of_lt (T (ix2 b s)).isLt])
      congr 1
      rw [Cert.ReferenceIdeal.RefLogp.lpR_apply W X T B b s ⟨(T (ix2 b s)).toNat, h⟩ hℓ]
      refine (shapeCast_apply GK _ (ix2 b s) (ix2 ⟨b.val * 512 + s.val, by have := b.isLt; have := s.isLt; omega⟩ (0 : Fin 1)) (by
        rw [Shape.rowMajor_val_two, Shape.rowMajor_val_two]
        show (b.val * 512 + s.val) * 1 + 0 = b.val * 512 + s.val
        omega)).trans ?_
      exact hG b s ⟨(T (ix2 b s)).toNat, h⟩ hℓ
  rw [hp]
  rfl

end Cert.Bridge

end
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«123221_j46720654246580_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.PreFacts.lean ====
/-
  What the precondition says of the four inputs.  The precondition is one bit: the "and" of four tests, each a fold by
  "and" over an array.  Three of them compare every entry's absolute value with +inf, so when the bit is 1 every entry
  of the weight matrix, of the activations and of the bias is the cast of a real number.  The fourth says of every
  label t that t = −100 or 0 ≤ t < 32000 as signed words; a signed word in that range is below 32000 as a natural
  number as well.
-/
import proofs.«123221_j46720654246580_2_alg».proof.Proof.Gen.Pre_finite_inputs
import proofs.«123221_j46720654246580_2_alg».proof.Proof.LibAllFinite
import proofs.«123221_j46720654246580_2_alg».proof.Proof.LibFinite
import Idealize.ShloMosaic.Lib.ReduceAll
import Idealize.ShloMosaic.Lib.ValueIdx
import Idealize.ShloMosaic.Lib.ValueLayout
import Idealize.ShloMosaic.Lib.Pipeline.Value

noncomputable section

namespace Cert.PreFacts

open Idealize.ShloMosaic Idealize.ShloMosaic.ValueIdx Cert.Pre_finite_inputs Cert.Pre_finite_inputs.Gen

/-- A signed 32-bit word between 0 and 32000 is below 32000 read as a natural number. -/
theorem toNat_lt_of_signed_range (x : BitVec 32) (h0 : (0#32 : BitVec 32).toInt ≤ x.toInt)
    (h1 : x.toInt < (32000#32 : BitVec 32).toInt) : x.toNat < 32000 := by
  have e0 : (0#32 : BitVec 32).toInt = 0 := by decide
  have e1 : (32000#32 : BitVec 32).toInt = 32000 := by decide
  rw [e0] at h0
  rw [e1] at h1
  have hx := BitVec.toInt_eq_toNat_cond x
  have hlt := x.isLt
  by_cases hc : 2 * x.toNat < 2 ^ 32
  · rw [if_pos hc] at hx; omega
  · rw [if_neg hc] at hx; omega

/-- The precondition's bit, split into its four tests. -/
theorem split (W : FVec Ideal S32000x2048 .f32) (X : FVec Ideal S8x512x2048 .f32) (T : IVec S8x512 32)
    (B : FVec Ideal S32000 .f32) (hpre : Cert.Pre_finite_inputs.fn (F := Ideal) W X T B = fun _ => 1#1) :
    ((Host.reduce IntOp.andi
        (cmpf .olt (Host.absf W) (broadcastInDim S32000x2048 ![] bcast_S_S32000x2048
          (constant (F := Ideal) S_ .f32 0x7F800000#32)))
        (constantI S_ 1 1#1) reducesTo_S32000x2048_S_d0_1 h_S_ ix0 = 1#1
      ∧ Host.reduce IntOp.andi
        (cmpf .olt (Host.absf X) (broadcastInDim S8x512x2048 ![] bcast_S_S8x512x2048
          (constant (F := Ideal) S_ .f32 0x7F800000#32)))
        (constantI S_ 1 1#1) reducesTo_S8x512x2048_S_d0_1_2 h_S_ ix0 = 1#1)
      ∧ Host.reduce IntOp.andi
        (cmpf .olt (Host.absf B) (broadcastInDim S32000 ![] bcast_S_S32000
          (constant (F := Ideal) S_ .f32 0x7F800000#32)))
        (constantI S_ 1 1#1) reducesTo_S32000_S_d0 h_S_ ix0 = 1#1)
      ∧ Host.reduce IntOp.andi
        (ori (cmpi .eq T (broadcastInDim S8x512 ![] bcast_S_S8x512 (constantI S_ 32 4294967196#32)))
          (andi (cmpi .sge T (broadcastInDim S8x512 ![] bcast_S_S8x512 (constantI S_ 32 0#32)))
            (cmpi .slt T (broadcastInDim S8x512 ![] bcast_S_S8x512 (constantI S_ 32 32000#32)))))
        (constantI S_ 1 1#1) reducesTo_S8x512_S_d0_1 h_S_ ix0 = 1#1 := by
  have h := congrFun hpre ix0
  unfold Cert.Pre_finite_inputs.fn Cert.Pre_finite_inputs.fn_part1 at h
  obtain ⟨h123, h4⟩ := IntOp.andi_eq_one.mp h
  obtain ⟨h12, h3⟩ := IntOp.andi_eq_one.mp h123
  obtain ⟨h1, h2⟩ := IntOp.andi_eq_one.mp h12
  exact ⟨⟨⟨h1, h2⟩, h3⟩, h4⟩

variable (W : FVec Ideal S32000x2048 .f32) (X : FVec Ideal S8x512x2048 .f32) (T : IVec S8x512 32)
  (B : FVec Ideal S32000 .f32) (hpre : Cert.Pre_finite_inputs.fn (F := Ideal) W X T B = fun _ => 1#1)

include hpre

/-- Every weight is the cast of a real. -/
theorem W_real : ∀ i, ∃ r : ℝ, W i = (r : EReal) := fun i =>
  Cert.Lib.AllFinite.entry_of_all W _ _ _ ix0 (split W X T B hpre).1.1.1 i

/-- Every activation is the cast of a real. -/
theorem X_real : ∀ i, ∃ r : ℝ, X i = (r : EReal) := fun i =>
  Cert.Lib.AllFinite.entry_of_all X _ _ _ ix0 (split W X T B hpre).1.1.2 i

/-- Every bias entry is the cast of a real. -/
theorem B_real : ∀ i, ∃ r : ℝ, B i = (r : EReal) := fun i =>
  Cert.Lib.AllFinite.entry_of_all B _ _ _ ix0 (split W X T B hpre).1.2 i

/-- Every label is the word of −100 or, read as a natural number, below 32000. -/
theorem T_range : ∀ i : S8x512.Idx, T i = 4294967196#32 ∨ (T i).toNat < 32000 := fun i => by
  have h := Host.reduce_andi_all _ _ _ _ ix0 (split W X T B hpre).2 i
  have hb : ∀ c : BitVec 32, broadcastInDim S8x512 ![] bcast_S_S8x512 (constantI S_ 32 c) i = c := fun c =>
    broadcastInDim_apply _ bcast_S_S8x512 _ i (fun d => d.elim0) (fun d => d.elim0)
  have h' : IntOp.ori (IntOp.cmpi .eq (T i) (broadcastInDim S8x512 ![] bcast_S_S8x512 (constantI S_ 32 4294967196#32) i))
      (IntOp.andi (IntOp.cmpi .sge (T i) (broadcastInDim S8x512 ![] bcast_S_S8x512 (constantI S_ 32 0#32) i))
        (IntOp.cmpi .slt (T i) (broadcastInDim S8x512 ![] bcast_S_S8x512 (constantI S_ 32 32000#32) i))) = 1#1 := h
  rw [hb, hb, hb] at h'
  rcases IntOp.ori_eq_one.mp h' with he | hr
  · exact Or.inl (IntOp.cmpi_eq.mp he)
  · obtain ⟨hge, hlt⟩ := IntOp.andi_eq_one.mp hr
    exact Or.inr (toNat_lt_of_signed_range (T i) (IntOp.cmpi_sge.mp hge) (IntOp.cmpi_slt.mp hlt))

end Cert.PreFacts

end
-- ==== Proof.lean ====
/-
  The certificate of the fused linear + log-softmax + label-pick DPO loss: the streaming kernel program against the
  plain jnp reference, over the extended reals, for finite inputs and targets that are the ignore value −100 or a label
  in [0, 32000).

  Per token both programs compute the log-probability of the token's label under the softmax of its row of logits
  x v = Σ_h X[b, s, h] · W[v, h] + B[v]. The kernel reads the 32000 columns in 50 tiles of 640 keeping a running
  maximum m, a normaliser l = Σ exp (x − m) rescaled whenever m rises, and the label's score t, and writes
  t − (m + log l); the reference forms (x ℓ − M) − log Σ_v exp (x v − M) with M the row's maximum. With real logits
  these are one number (the streaming law; the finiteness of the inputs is used here and nowhere else). Outside the label
  range the programs differ (the kernel clips a label into range where the reference wraps a negative one and marks
  a large one), which is why the targets' range is part of the precondition; at the ignore value both multiply by a
  zero mask. The closing stretch — averages, the 0.1 · (chosen − rejected) difference, −log σ, the two quotients — is
  the same function in both programs and is never opened; its two token counts agree because an integer count of mask
  bits converted to a float is the float sum of the bits.

  The three frames: the kernel programs' by their generated frame certificates, the reference's by its run. The
  idealization rewrote nothing, so `preserves` is trivial.
-/
import proofs.«123221_j46720654246580_2_alg».proof.Defs
import proofs.«123221_j46720654246580_2_alg».proof.Proof.Gen.Kernel
import proofs.«123221_j46720654246580_2_alg».proof.Proof.Gen.Kernel.Frame
import proofs.«123221_j46720654246580_2_alg».proof.Proof.Gen.KernelIdeal
import proofs.«123221_j46720654246580_2_alg».proof.Proof.Gen.KernelIdeal.Frame
import proofs.«123221_j46720654246580_2_alg».proof.Proof.Gen.ReferenceIdeal
import proofs.«123221_j46720654246580_2_alg».proof.Proof.Gen.Pre_finite_inputs
import proofs.«123221_j46720654246580_2_alg».proof.Proof.KRun
import proofs.«123221_j46720654246580_2_alg».proof.Proof.KValue
import proofs.«123221_j46720654246580_2_alg».proof.Proof.RefRun
import proofs.«123221_j46720654246580_2_alg».proof.Proof.Bridge
import proofs.«123221_j46720654246580_2_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories agreeing on the arguments the two programs end with the same loss. -/
theorem algebraic : Cert.algebraic_KernelIdeal_ReferenceIdeal := by
  intro m ρ m' ρ' hpre hagree
  refine ⟨fun c => Cert.KernelIdeal.KTail.lossOf (Cert.KernelIdeal.KOut.G m c)
      (Cert.KernelIdeal.KTail.maskOf (m ((c.tc : Thread Cert.KernelIdeal.nD Cert.KernelIdeal.τ).loc Cert.KernelIdeal.main_arg2))),
    Cert.KernelIdeal.KRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  exact (Cert.Bridge.loss_eq _ _ _ _ (Cert.KernelIdeal.KOut.G m c)
    (Cert.PreFacts.T_range _ _ _ _ (hpre c))
    (fun b s ℓ hT => Cert.KernelIdeal.KValue.G_apply m c b s ℓ
      (Cert.PreFacts.W_real _ _ _ _ (hpre c)) (Cert.PreFacts.X_real _ _ _ _ (hpre c)) (Cert.PreFacts.B_real _ _ _ _ (hpre c)) hT)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
